-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8x1024 : Shape := ⟨2, ![8, 1024]⟩
abbrev S3072x8 : Shape := ⟨2, ![3072, 8]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S3072x8 : S_.BroadcastsInDim S3072x8 (![] : Fin 0 → Fin S3072x8.rank)
  reducesTo_S3072x8_S_d0_1 : S3072x8.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S3072 .f32) (main_arg5 : FVec F S1024x1024 .f32) (main_arg6 : FVec F S1024 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S8x1024 .f32) (main_arg2 : FVec F S3072x8 .f32) (main_arg3 : FVec F S3072x1024 .f32) (main_arg4 : FVec F S3072 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S3072x8 .f32 := Host.absf main_arg2
  let main_cst_2 : FVec F S_ .f32 := constant S_ .f32 0x7F800000#32
  let main_v10 : FVec F S3072x8 .f32 := broadcastInDim S3072x8 ![] bcast_S_S3072x8 main_cst_2
  let main_v11 : IVec S3072x8 1 := cmpf .olt main_v9 main_v10
  let main_c_3 : IVec S_ 1 := constantI S_ 1 1#1
  let main_v12 : IVec S_ 1 := (fun x v => Host.reduce IntOp.andi x v reducesTo_S3072x8_S_d0_1 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_arg6 main_v13 main_v16
-- ==== Kernel.lean ====
abbrev S4x2048x1024 : Shape := ⟨3, ![4, 2048, 1024]⟩
abbrev S8x1024 : Shape := ⟨2, ![8, 1024]⟩
abbrev S3072x8 : Shape := ⟨2, ![3072, 8]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S1024x3072 : Shape := ⟨2, ![1024, 3072]⟩
abbrev S8192x1024 : Shape := ⟨2, ![8192, 1024]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x1024 : Shape := ⟨2, ![1, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S8x1024, .f32⟩
  | .hbm, ⟨2, _⟩ => ⟨S3072x8, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S3072x1024, .f32⟩
  | .hbm, ⟨8, _⟩ => ⟨S_, .f32⟩
  | .hbm, ⟨9, _⟩ => ⟨S3072x1024, .f32⟩
  | .hbm, ⟨10, _⟩ => ⟨S3072x1024, .f32⟩
  | .hbm, ⟨11, _⟩ => ⟨S3072x1024, .f32⟩
  | .hbm, ⟨12, _⟩ => ⟨S1024x3072, .f32⟩
  | .hbm, ⟨13, _⟩ => ⟨S1024x3072, .bf16⟩
  | .hbm, ⟨14, _⟩ => ⟨S1024x1024, .f32⟩
  | .hbm, ⟨15, _⟩ => ⟨S1024x1024, .bf16⟩
  | .hbm, ⟨16, _⟩ => ⟨S8192x1024, .f32⟩
  | .hbm, ⟨17, _⟩ => ⟨S1x3072, .f32⟩
  | .hbm, ⟨18, _⟩ => ⟨S8192x3072, .bf16⟩
  | .hbm, ⟨19, _⟩ => ⟨S4x2048x3072, .bf16⟩
  | .hbm, ⟨20, _⟩ => ⟨S1x1024, .f32⟩
  | .hbm, ⟨21, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1024x1024, .bf16⟩
  | .local _ .vmem, ⟨13, _⟩ => ⟨S1x1024, .f32⟩
  | .local _ .vmem, ⟨14, _⟩ => ⟨S1x256x1024, .f32⟩
  | .local _ .vmem, ⟨15, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bcast_S_S3072x1024 : S_.BroadcastsInDim S3072x1024 (![] : Fin 0 → Fin S3072x1024.rank)
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  shapeCasts_S4x2048x1024_S8192x1024 : S4x2048x1024.ShapeCasts S8192x1024
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  shapeCasts_S1024_S1x1024 : S1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S256x1024_o0_0_S256x64 : S256x1024.Slices ![0, 0] S256x64
  slices_S2048x1024_o0_0_S2048x64 : S2048x1024.Slices ![0, 0] S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  slices_S256x1024_o0_64_S256x64 : S256x1024.Slices ![0, 64] S256x64
  slices_S2048x1024_o0_64_S2048x64 : S2048x1024.Slices ![0, 64] S2048x64
  slices_S256x1024_o0_128_S256x64 : S256x1024.Slices ![0, 128] S256x64
  slices_S2048x1024_o0_128_S2048x64 : S2048x1024.Slices ![0, 128] S2048x64
  slices_S256x1024_o0_192_S256x64 : S256x1024.Slices ![0, 192] S256x64
  slices_S2048x1024_o0_192_S2048x64 : S2048x1024.Slices ![0, 192] S2048x64
  slices_S256x1024_o0_256_S256x64 : S256x1024.Slices ![0, 256] S256x64
  slices_S2048x1024_o0_256_S2048x64 : S2048x1024.Slices ![0, 256] S2048x64
  slices_S256x1024_o0_320_S256x64 : S256x1024.Slices ![0, 320] S256x64
  slices_S2048x1024_o0_320_S2048x64 : S2048x1024.Slices ![0, 320] S2048x64
  slices_S256x1024_o0_384_S256x64 : S256x1024.Slices ![0, 384] S256x64
  slices_S2048x1024_o0_384_S2048x64 : S2048x1024.Slices ![0, 384] S2048x64
  slices_S256x1024_o0_448_S256x64 : S256x1024.Slices ![0, 448] S256x64
  slices_S2048x1024_o0_448_S2048x64 : S2048x1024.Slices ![0, 448] S2048x64
  slices_S256x1024_o0_512_S256x64 : S256x1024.Slices ![0, 512] S256x64
  slices_S2048x1024_o0_512_S2048x64 : S2048x1024.Slices ![0, 512] S2048x64
  slices_S256x1024_o0_576_S256x64 : S256x1024.Slices ![0, 576] S256x64
  slices_S2048x1024_o0_576_S2048x64 : S2048x1024.Slices ![0, 576] S2048x64
  slices_S256x1024_o0_640_S256x64 : S256x1024.Slices ![0, 640] S256x64
  slices_S2048x1024_o0_640_S2048x64 : S2048x1024.Slices ![0, 640] S2048x64
  slices_S256x1024_o0_704_S256x64 : S256x1024.Slices ![0, 704] S256x64
  slices_S2048x1024_o0_704_S2048x64 : S2048x1024.Slices ![0, 704] S2048x64
  slices_S256x1024_o0_768_S256x64 : S256x1024.Slices ![0, 768] S256x64
  slices_S2048x1024_o0_768_S2048x64 : S2048x1024.Slices ![0, 768] S2048x64
  slices_S256x1024_o0_832_S256x64 : S256x1024.Slices ![0, 832] S256x64
  slices_S2048x1024_o0_832_S2048x64 : S2048x1024.Slices ![0, 832] S2048x64
  slices_S256x1024_o0_896_S256x64 : S256x1024.Slices ![0, 896] S256x64
  slices_S2048x1024_o0_896_S2048x64 : S2048x1024.Slices ![0, 896] S2048x64
  slices_S256x1024_o0_960_S256x64 : S256x1024.Slices ![0, 960] S256x64
  slices_S2048x1024_o0_960_S2048x64 : S2048x1024.Slices ![0, 960] S2048x64
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  dot_S3072x8_S8x1024_S3072x1024_1_0_0_1_n_n_wf : DotDims.WF S3072x8 S8x1024 S3072x1024 [1] [0] [0] [1] [] []
  dot_S512x1024_S1024x3072_S512x3072_1_0_0_1_n_n_wf : DotDims.WF S512x1024 S1024x3072 S512x3072 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x3072.size a
  hwx1_0 : ∀ i : grid1.Coords, EltTy.bits .bf16 = 32 ∨ (Rect.block (s := S4x2048x3072) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x2048x1024.size a
  hwx1_5 : ∀ i : grid1.Coords, EltTy.bits .f32 = 32 ∨ (Rect.block (s := S4x2048x1024) S1x256x1024.size (cc1_transform_5 i) (hinb1_5 i)).WholeWords (EltTy.packing .f32)

variable [Facts₀]

def dot_S3072x8_S8x1024_S3072x1024_1_0_0_1_n_n : DotDims S3072x8 S8x1024 S3072x1024 where
  lhsContracting := [1]
  rhsContracting := [0]
  lhsNonContracting := [0]
  rhsNonContracting := [1]
  lhsBatch := []
  rhsBatch := []
  wf := dot_S3072x8_S8x1024_S3072x1024_1_0_0_1_n_n_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S8x1024 : Shape := ⟨2, ![8, 1024]⟩
abbrev S3072x8 : Shape := ⟨2, ![3072, 8]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x8 : Shape := ⟨3, ![4, 2048, 8]⟩
abbrev S_ : Shape := ⟨0, ![]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8x1024, .f32⟩
  | .hbm, ⟨2, _⟩ => ⟨S3072x8, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S4x2048x3072, .f32⟩
  | .hbm, ⟨8, _⟩ => ⟨S1x1x3072, .f32⟩
  | .hbm, ⟨9, _⟩ => ⟨S4x2048x3072, .f32⟩
  | .hbm, ⟨10, _⟩ => ⟨S4x2048x3072, .f32⟩
  | .hbm, ⟨11, _⟩ => ⟨S4x2048x8, .f32⟩
  | .hbm, ⟨12, _⟩ => ⟨S4x2048x3072, .f32⟩
  | .hbm, ⟨13, _⟩ => ⟨S_, .f32⟩
  | .hbm, ⟨14, _⟩ => ⟨S4x2048x3072, .f32⟩
  | .hbm, ⟨15, _⟩ => ⟨S4x2048x3072, .f32⟩
  | .hbm, ⟨16, _⟩ => ⟨S4x2048x3072, .f32⟩
  | .hbm, ⟨17, _⟩ => ⟨S4x2048x3x16x64, .f32⟩
  | .hbm, ⟨18, _⟩ => ⟨S3x4x16x2048x64, .f32⟩
  | .hbm, ⟨19, _⟩ => ⟨S1x4x16x2048x64, .f32⟩
  | .hbm, ⟨20, _⟩ => ⟨S4x16x2048x64, .f32⟩
  | .hbm, ⟨21, _⟩ => ⟨S1x4x16x2048x64, .f32⟩
  | .hbm, ⟨22, _⟩ => ⟨S4x16x2048x64, .f32⟩
  | .hbm, ⟨23, _⟩ => ⟨S1x4x16x2048x64, .f32⟩
  | .hbm, ⟨24, _⟩ => ⟨S4x16x2048x64, .f32⟩
  | .hbm, ⟨25, _⟩ => ⟨S4x16x2048x2048, .f32⟩
  | .hbm, ⟨26, _⟩ => ⟨S_, .f32⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x16x2048, .f32⟩
  | .hbm, ⟨31, _⟩ => ⟨S_, .f32⟩
  | .hbm, ⟨32, _⟩ => ⟨S4x16x2048, .f32⟩
  | .hbm, ⟨33, _⟩ => ⟨S4x16x2048, .f32⟩
  | .hbm, ⟨34, _⟩ => ⟨S4x16x2048x1, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S4x16x2048, .f32⟩
  | .hbm, ⟨40, _⟩ => ⟨S4x16x2048x1, .f32⟩
  | .hbm, ⟨41, _⟩ => ⟨S4x16x2048x2048, .f32⟩
  | .hbm, ⟨42, _⟩ => ⟨S4x16x2048x2048, .f32⟩
  | .hbm, ⟨43, _⟩ => ⟨S4x16x2048x64, .f32⟩
  | .hbm, ⟨44, _⟩ => ⟨S4x2048x16x64, .f32⟩
  | .hbm, ⟨45, _⟩ => ⟨S4x2048x1024, .f32⟩
  | .hbm, ⟨46, _⟩ => ⟨S4x2048x1024, .f32⟩
  | .hbm, ⟨47, _⟩ => ⟨S1x1x1024, .f32⟩
  | .hbm, ⟨48, _⟩ => ⟨S4x2048x1024, .f32⟩
  | .hbm, ⟨49, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  bcast_S_S4x2048x3072 : S_.BroadcastsInDim S4x2048x3072 (![] : Fin 0 → Fin S4x2048x3072.rank)
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x2048x1024_S8x1024_S4x2048x8_2_1_01_0_n_n_wf : DotDims.WF S4x2048x1024 S8x1024 S4x2048x8 [2] [1] [0, 1] [0] [] []
  dot_S4x2048x8_S3072x8_S4x2048x3072_2_1_01_0_n_n_wf : DotDims.WF S4x2048x8 S3072x8 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x2048x1024_S8x1024_S4x2048x8_2_1_01_0_n_n : DotDims S4x2048x1024 S8x1024 S4x2048x8 where
  lhsContracting := [2]
  rhsContracting := [1]
  lhsNonContracting := [0, 1]
  rhsNonContracting := [0]
  lhsBatch := []
  rhsBatch := []
  wf := dot_S4x2048x1024_S8x1024_S4x2048x8_2_1_01_0_n_n_wf
def dot_S4x2048x8_S3072x8_S4x2048x3072_2_1_01_0_n_n : DotDims S4x2048x8 S3072x8 S4x2048x3072 where
  lhsContracting := [2]
  rhsContracting := [1]
  lhsNonContracting := [0, 1]
  rhsNonContracting := [0]
  lhsBatch := []
  rhsBatch := []
  wf := dot_S4x2048x8_S3072x8_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.FrameR0.lean ====
/-
  The first kernel's region: one row block of 512 positions of the flattened input against the whole folded
  weight matrix and the bias row. At every grid point the body reads the three input blocks and overwrites the
  whole output block with one value, so what the output's staging buffer holds afterwards is that value of the
  input blocks at the point; the inputs' buffers are left as found.
-/
import proofs.«166784_j42649025249604_2_alg».proof.Proof.Gen.KernelIdeal.Launch
import proofs.«166784_j42649025249604_2_alg».proof.Proof.Gen.KernelIdeal.Skeleton
import proofs.«166784_j42649025249604_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- The output's staging buffer after the body, from the input blocks: its one store. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole staging memrefs: the inputs' at read contents `x0 x1 x2`, the output's at anything, runs to the
    continuation with the inputs' as they were and the output's at `out0_3` of them. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body each
    input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KBodyDef.lean ====
/-
  The value the second kernel's body stores, as ONE function of its five loaded blocks: the sixteen heads'
  attention outputs of the query block against the key and value blocks, laid side by side, then the output
  projection and bias. Head `h` reads columns `64·h … 64·h + 63` of the three blocks.
-/
import proofs.«166784_j42649025249604_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F] [Cert.KernelIdeal.Facts]

/-- The sixteen heads' outputs, head `h` in columns `64·h … 64·h + 63`, from the query block `v0`, the key block
    `v2` and the value block `v4`. -/
def headsCat (v0 : Vec F S1x256x1024 .bf16) (v2 v4 : Vec F S1x2048x1024 .bf16) : FVec F S256x1024 .f32 :=
  have v1 : FVec F S256x1024 .bf16 := k1_pay3 v0
  have v3 : FVec F S2048x1024 .bf16 := k1_pay4 v2
  have v5 : FVec F S2048x1024 .bf16 := k1_pay5 v4
  have v23 : FVec F S256x64 .f32 := k1_pay6 v0 v2 v4
  have v41 : FVec F S256x64 .f32 := k1_pay9 (k1_pay7 v4) (k1_pay8 v0 v2)
  have v59 : FVec F S256x64 .f32 := k1_pay10 v1 v3 v5
  have v77 : FVec F S256x64 .f32 := k1_pay11 v1 v3 v5
  have v95 : FVec F S256x64 .f32 := k1_pay15 (k1_pay12 v5) (k1_pay13 v1 v3) (k1_pay14 v1 v3)
  have v113 : FVec F S256x64 .f32 := k1_pay16 v1 v3 v5
  have v131 : FVec F S256x64 .f32 := k1_pay17 v1 v3 v5
  have v149 : FVec F S256x64 .f32 := k1_pay20 v5 (k1_pay18 v1) (k1_pay19 v3)
  have v167 : FVec F S256x64 .f32 := k1_pay21 v1 v3 v5
  have v185 : FVec F S256x64 .f32 := k1_pay24 (k1_pay22 v5) (k1_pay23 v1 v3)
  have v203 : FVec F S256x64 .f32 := k1_pay25 v1 v3 v5
  have v221 : FVec F S256x64 .f32 := k1_pay26 v1 v3 v5
  have v239 : FVec F S256x64 .f32 := k1_pay29 (k1_pay27 v5) (k1_pay28 v1 v3) (Scalar.ofBits .f32 0x3E000000#32)
  have v257 : FVec F S256x64 .f32 := k1_pay30 v1 v3 v5
  have v275 : FVec F S256x64 .f32 := matmul dot_S256x2048_S2048x64_S256x64_1_0_0_1_n_n none (k1_pay32 v1 v3) (k1_pay31 v5) (constant S256x64 .f32 0x00000000#32)
  have v293 : FVec F S256x64 .f32 := k1_pay1 v1 v3 v5
  concatenate S256x1024 1 [⟨S256x64, v23⟩, ⟨S256x64, v41⟩, ⟨S256x64, v59⟩, ⟨S256x64, v77⟩, ⟨S256x64, v95⟩, ⟨S256x64, v113⟩, ⟨S256x64, v131⟩, ⟨S256x64, v149⟩, ⟨S256x64, v167⟩, ⟨S256x64, v185⟩, ⟨S256x64, v203⟩, ⟨S256x64, v221⟩, ⟨S256x64, v239⟩, ⟨S256x64, v257⟩, ⟨S256x64, v275⟩, ⟨S256x64, v293⟩] concatenates_S256x64_S256x64_S256x64_S256x64_S256x64_S256x64_S256x64_S256x64_S256x64_S256x64_S256x64_S256x64_S256x64_S256x64_S256x64_S256x64_S256x1024_d1

/-- What the body stores into its output block. -/
def body1 (v0 : Vec F S1x256x1024 .bf16) (v2 v4 : Vec F S1x2048x1024 .bf16) (v295 : Vec F S1024x1024 .bf16)
    (v299 : Vec F S1x1024 .f32) : FVec F S1x256x1024 .f32 :=
  k1_pay2 (headsCat v0 v2 v4) v295 v299

end Cert.KernelIdeal.Hand

end
-- ==== Proof.FrameR1.lean ====
/-
  The second kernel's region: at grid point (b, i) the body reads a block of 256 query rows, the batch's 2048 key
  rows and 2048 value rows (three blocks of ONE array), the output weights and the bias row, and overwrites the
  whole output block with one value of them; the inputs' buffers are left as found.
-/
import proofs.«166784_j42649025249604_2_alg».proof.Proof.Gen.KernelIdeal.Launch
import proofs.«166784_j42649025249604_2_alg».proof.Proof.Gen.KernelIdeal.Skeleton
import proofs.«166784_j42649025249604_2_alg».proof.Proof.Gen.KernelIdeal.Points
import proofs.«166784_j42649025249604_2_alg».proof.Proof.KBodyDef
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x256x1024 := Rect.unit (s := S1x256x1024) ![0, 0, 0] S1x256x1024.size inb_S1x256x1024_S1x256x1024_0_0_0
abbrev r1_1 : Rect S1x2048x1024 := Rect.unit (s := S1x2048x1024) ![0, 0, 0] S1x2048x1024.size inb_S1x2048x1024_S1x2048x1024_0_0_0
abbrev r1_3 : Rect S1024x1024 := Rect.unit (s := S1024x1024) ![0, 0] S1024x1024.size inb_S1024x1024_S1024x1024_0_0
abbrev r1_4 : Rect S1x1024 := Rect.unit (s := S1x1024) ![0, 0] S1x1024.size inb_S1x1024_S1x1024_0_0

/-- The output's staging buffer after the body, from the input blocks: its one store. -/
def out1_5 (x0 : Vec F S1x256x1024 .bf16) (x1 x2 : Vec F S1x2048x1024 .bf16) (x3 : Vec F S1024x1024 .bf16) (x4 : Vec F S1x1024 .f32) :
    Vec F S1x256x1024 .f32 :=
  View.canon [⟨r1_0, body1 (View.ld x0 r1_0) (View.ld x1 r1_1) (View.ld x2 r1_1) (View.ld x3 r1_3) (View.ld x4 r1_4)⟩]

/-- The store covers the buffer. -/
theorem cover1_5 (p0 : Vec F S1x256x1024 .f32) (y : S1x256x1024.Idx) :
    ∃ pc ∈ ([⟨r1_0, p0⟩] : List (View.Piece (Elt F) S1x256x1024 .f32)), y ∈ pc.1.set :=
  View.cover_of_tiled [⟨r1_0, p0⟩] S1x256x1024.size (by rfl) y

set_option maxRecDepth 65536 in
set_option maxHeartbeats 4000000 in
/-- The body on whole staging memrefs: the inputs' at read contents, the output's at anything, runs to the
    continuation with the inputs' as they were and the output's at `out1_5` of them. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec F S1x256x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__attn_outproj_kernel i arg2 harg2 arg3 harg3 arg4 harg4 arg5 harg5 arg6 harg6 arg7 harg7) K := by
  simp only [cc1__attn_outproj_kernel_eq_skeleton, k1_part1_eq_skeleton, k1_part2_eq_skeleton, k1_part3_eq_skeleton,
    k1_part4_eq_skeleton, k1_part5_eq_skeleton, k1_part6_eq_skeleton]
  unfold cc1__attn_outproj_kernel_skel
  simp only [k1_part1_eq_skeleton, k1_part2_eq_skeleton, k1_part3_eq_skeleton,
    k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of the second pipeline on core `c`: the arrays as the region finds them; after the body each
    input's buffer at its block and the output's at `out1_5` of the input blocks. The query, key and value windows
    read ONE array: each holds it at a third-share (a half, a quarter, a quarter). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.FrameRun.lean ====
/-
  The whole run: host operations, the first kernel's region, two reshapes, the second kernel's region. The
  contents of every unscoped buffer are followed from the launch memory through the four stretches; each
  region's arrays leave at what its write-backs fold to, every other buffer as it entered. The three windows of
  the second region that read one array hold it in three shares, split at the region's entry and joined at its
  exit. At the end the result buffer holds the second region's folded write-backs and every argument its launch
  contents.
-/
import proofs.«166784_j42649025249604_2_alg».proof.Proof.Gen.KernelIdeal.Launch
import proofs.«166784_j42649025249604_2_alg».proof.Proof.Gen.KernelIdeal.Skeleton
import proofs.«166784_j42649025249604_2_alg».proof.Proof.Gen.KernelIdeal.Points
import proofs.«166784_j42649025249604_2_alg».proof.Proof.FrameR0
import proofs.«166784_j42649025249604_2_alg».proof.Proof.FrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first stretch of host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two reshapes (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: the result buffer at what the pipeline leaves, every other buffer as entered (the
    region's other arrays are inputs). -/
def W4 (c : Dev nD) : Valuation τ sig (Elt F) :=
  Function.update (W3 m c) (Proc.devRef .tc main_v13) ((dat1 (V3 m) c).arrAt 5 cfg1.N)
abbrev V4 : (c : Dev nD) → (b : Ref sig .tc) → Buf (Elt F) ((c : Thread nD τ).loc b) := fun c b => W4 m c b
theorem W4_out (c : Dev nD) : W4 m c (Proc.devRef .tc main_v13) = (dat1 (V3 m) c).arrAt 5 cfg1.N := by
  unfold W4; exact Function.update_self ..
theorem W4_of_ne (c : Dev nD) (b : Ref sig .tc) (hb : b ≠ main_v13) : W4 m c (Proc.devRef .tc b) = W3 m c (Proc.devRef .tc b) := by
  unfold W4; exact Function.update_of_ne (StableHlo.devRef_ne_of_ne hb) ..

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The first region as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameShare.lean ====
/-
  One array read through three windows: at the region's entry the array, held whole, is split into three
  shares (a half and two quarters), one per window; at the exit the three shares, still at the same contents,
  are joined again.
-/
import proofs.«166784_j42649025249604_2_alg».proof.Proof.Gen.KernelIdeal.Launch
import proofs.«166784_j42649025249604_2_alg».proof.Proof.Gen.KernelIdeal.Skeleton
import proofs.«166784_j42649025249604_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared

variable {c : Dev nD} (dat : Dat τ (Elt F) Unit ℕ (UR sig nD τ) ℕ cfg1 c)
  (V : (b : Ref sig .tc) → Buf (Elt F) ((c : Thread nD τ).loc b))

set_option maxHeartbeats 2000000 in
/-- ENTRY: the core's unscoped buffers are the pipeline's arrays at the entry contents — the array three windows
    read split into a half and two quarters — and the unscoped rest. -/
theorem entry1 (hA : ∀ w, dat.A w = V (Pipeline.arrRef spec1 w))
    (h0 : dat.q 0 = fullShare.left) (h1 : dat.q 1 = fullShare.right.left) (h2 : dat.q 2 = fullShare.right.right)
    (h3 : dat.q 3 = fullShare) (h4 : dat.q 4 = fullShare) :
    (unscopedBufs c V : sProp 𝕄) ⊢ iprop(dat.arrays dat.A ∗ Pipeline.unscopedRest spec1 c V) := by
  rw [Pipeline.unscopedBufs_split₀ cfgs 1 winFacts₀1.arr_unscoped c V]
  refine sep_mono ?_ .rfl
  unfold Pipeline.arrBufs Dat.arrays
  rw [bigSep_W1, bigSep_eq_bigSepL_of_eq [main_v11, main_v7, main_v12, main_v13] (by decide) (by decide)]
  have hs0 : dat.share 0 = fullShare.left := by unfold Dat.share; rw [if_neg (by decide)]; exact h0
  have hs1 : dat.share 1 = fullShare.right.left := by unfold Dat.share; rw [if_neg (by decide)]; exact h1
  have hs2 : dat.share 2 = fullShare.right.right := by unfold Dat.share; rw [if_neg (by decide)]; exact h2
  have hs3 : dat.share 3 = fullShare := by unfold Dat.share; rw [if_neg (by decide)]; exact h3
  have hs4 : dat.share 4 = fullShare := by unfold Dat.share; rw [if_neg (by decide)]; exact h4
  have hs5 : dat.share 5 = fullShare := by unfold Dat.share; rw [if_pos (by decide)]
  rw [hs0, hs1, hs2, hs3, hs4, hs5, hA 0, hA 1, hA 2, hA 3, hA 4, hA 5,
    (arr_whole1 0).set_eq_univ, (arr_whole1 3).set_eq_univ, (arr_whole1 4).set_eq_univ, (arr_whole1 5).set_eq_univ]
  have hL : (bigSepL [main_v11, main_v7, main_v12, main_v13] fun b : Ref sig .tc => (((c : Thread nD τ).loc b) ↦{fullShare} V b : sProp 𝕄))
      = iprop((((c : Thread nD τ).loc main_v11) ↦{fullShare} V main_v11) ∗ (((c : Thread nD τ).loc main_v7) ↦{fullShare} V main_v7)
          ∗ (((c : Thread nD τ).loc main_v12) ↦{fullShare} V main_v12) ∗ (((c : Thread nD τ).loc main_v13) ↦{fullShare} V main_v13)) := rfl
  rw [hL]
  refine (sep_mono (pointsTo_share (PosShare.mem_left_op_right fullShare)).1 .rfl).trans ?_
  refine (sep_mono (sep_mono .rfl (pointsTo_share (PosShare.mem_left_op_right fullShare.right)).1) .rfl).trans ?_
  iintro ⟨⟨Ha, Hb1, Hb2⟩, H7, H12, H13⟩
  isplitl [Ha]; · iexact Ha
  isplitl [Hb1]; · iexact Hb1
  isplitl [Hb2]; · iexact Hb2
  isplitl [H7]; · iexact H7
  isplitl [H12]; · iexact H12
  iexact H13

set_option maxHeartbeats 2000000 in
/-- EXIT: the arrays — the three shares still at the entry contents, the result at what the pipeline left — and
    the unscoped rest are the core's unscoped buffers at the contents updated at the result. -/
theorem exit1 (Fa : (w : Fin cfg1.W) → Buf (Elt F) ((cfg1.win w).arr.view.loc (c.tc : Thread nD τ)))
    (V' : (b : Ref sig .tc) → Buf (Elt F) ((c : Thread nD τ).loc b))
    (hF0 : Fa 0 = V main_v11) (hF1 : Fa 1 = V main_v11) (hF2 : Fa 2 = V main_v11) (hF3 : Fa 3 = V main_v7) (hF4 : Fa 4 = V main_v12)
    (hV13 : V' main_v13 = Fa 5) (hV : ∀ b, b ≠ main_v13 → V' b = V b)
    (h0 : dat.q 0 = fullShare.left) (h1 : dat.q 1 = fullShare.right.left) (h2 : dat.q 2 = fullShare.right.right)
    (h3 : dat.q 3 = fullShare) (h4 : dat.q 4 = fullShare) :
    iprop(dat.arrays Fa ∗ Pipeline.unscopedRest spec1 c V) ⊢ (unscopedBufs c V' : sProp 𝕄) := by
  rw [Pipeline.unscopedBufs_split₀ cfgs 1 winFacts₀1.arr_unscoped c V']
  refine sep_mono ?_ (Entails.of_eq ?_)
  · unfold Pipeline.arrBufs Dat.arrays
    rw [bigSep_W1, bigSep_eq_bigSepL_of_eq [main_v11, main_v7, main_v12, main_v13] (by decide) (by decide)]
    have hs0 : dat.share 0 = fullShare.left := by unfold Dat.share; rw [if_neg (by decide)]; exact h0
    have hs1 : dat.share 1 = fullShare.right.left := by unfold Dat.share; rw [if_neg (by decide)]; exact h1
    have hs2 : dat.share 2 = fullShare.right.right := by unfold Dat.share; rw [if_neg (by decide)]; exact h2
    have hs3 : dat.share 3 = fullShare := by unfold Dat.share; rw [if_neg (by decide)]; exact h3
    have hs4 : dat.share 4 = fullShare := by unfold Dat.share; rw [if_neg (by decide)]; exact h4
    have hs5 : dat.share 5 = fullShare := by unfold Dat.share; rw [if_pos (by decide)]
    rw [hs0, hs1, hs2, hs3, hs4, hs5, hF0, hF1, hF2, hF3, hF4, ← hV13,
      (arr_whole1 0).set_eq_univ, (arr_whole1 3).set_eq_univ, (arr_whole1 4).set_eq_univ, (arr_whole1 5).set_eq_univ]
    have hL : (bigSepL [main_v11, main_v7, main_v12, main_v13] fun b : Ref sig .tc => (((c : Thread nD τ).loc b) ↦{fullShare} V' b : sProp 𝕄))
        = iprop((((c : Thread nD τ).loc main_v11) ↦{fullShare} V' main_v11) ∗ (((c : Thread nD τ).loc main_v7) ↦{fullShare} V' main_v7)
            ∗ (((c : Thread nD τ).loc main_v12) ↦{fullShare} V' main_v12) ∗ (((c : Thread nD τ).loc main_v13) ↦{fullShare} V' main_v13)) := rfl
    rw [hL, hV main_v11 (by decide), hV main_v7 (by decide), hV main_v12 (by decide)]
    refine BIBase.Entails.trans ?_ (sep_mono (pointsTo_share (PosShare.mem_left_op_right fullShare)).2 .rfl)
    refine BIBase.Entails.trans ?_ (sep_mono (sep_mono .rfl (pointsTo_share (PosShare.mem_left_op_right fullShare.right)).2) .rfl)
    iintro ⟨H0, H1, H2, H3, H4, H5⟩
    isplitl [H0 H1 H2]
    · isplitl [H0]; · iexact H0
      isplitl [H1]; · iexact H1
      iexact H2
    isplitl [H3]; · iexact H3
    isplitl [H4]; · iexact H4
    iexact H5
  · unfold Pipeline.unscopedRest
    exact bigSep_congr fun b hb => by
      rw [hV b (fun e => (Finset.mem_sdiff.mp hb).2 (Finset.mem_image.mpr ⟨5, Finset.mem_univ _, e ▸ rfl⟩))]

end Shared

end Cert.KernelIdeal.Hand

end
-- ==== Proof.FrameRun2.lean ====
/-
  The second region as a segment of the run, and the run itself: every weakly fair execution terminates, the
  result buffer ends at what the second region's write-backs fold to, and every argument ends as launched.
-/
import proofs.«166784_j42649025249604_2_alg».proof.Proof.Gen.KernelIdeal.Launch
import proofs.«166784_j42649025249604_2_alg».proof.Proof.Gen.KernelIdeal.Skeleton
import proofs.«166784_j42649025249604_2_alg».proof.Proof.Gen.KernelIdeal.Points
import proofs.«166784_j42649025249604_2_alg».proof.Proof.FrameRun
import proofs.«166784_j42649025249604_2_alg».proof.Proof.FrameShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 (F := F) (dat1 (V3 m) c) (V3 m c) (fun _ => rfl) rfl rfl rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) (c := c) (pdats m 1 c) (V3 m c) ((pdats m 1 c).arrAt · cfg1.N) (V4 m c)
      (((dat1 (V3 m) c).arrAt_in 0 rfl _).trans (A_eq1 (V3 m) c 0)) (((dat1 (V3 m) c).arrAt_in 1 rfl _).trans (A_eq1 (V3 m) c 1))
      (((dat1 (V3 m) c).arrAt_in 2 rfl _).trans (A_eq1 (V3 m) c 2)) (((dat1 (V3 m) c).arrAt_in 3 rfl _).trans (A_eq1 (V3 m) c 3))
      (((dat1 (V3 m) c).arrAt_in 4 rfl _).trans (A_eq1 (V3 m) c 4))
      (W4_out m c) (fun b hb => W4_of_ne m c b hb) rfl rfl rfl rfl rfl
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing
    faulting; the result buffer ends at the second region's folded write-backs and every argument as launched. -/
theorem run : θ_run defs (onTc (τ := τ) (main (F := F))) ⟨m, fun _ => 0, ρ⟩ (fun r => ∀ c : Dev nD,
      r.2.mem ((c.tc : Thread nD τ).loc main_v13) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v13 (by decide))).trans (W4_out m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c)⟩)

end Cert.KernelIdeal.Hand

end
-- ==== Proof.FrameR0B.lean ====
/-
  The first kernel's region: one row block of 512 positions of the flattened input against the whole folded
  weight matrix and the bias row. At every grid point the body reads the three input blocks and overwrites the
  whole output block with one value, so what the output's staging buffer holds afterwards is that value of the
  input blocks at the point; the inputs' buffers are left as found.
-/
import proofs.«166784_j42649025249604_2_alg».proof.Proof.Gen.Kernel.Launch
import proofs.«166784_j42649025249604_2_alg».proof.Proof.Gen.Kernel.Skeleton
import proofs.«166784_j42649025249604_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- The output's staging buffer after the body, from the input blocks: its one store. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole staging memrefs: the inputs' at read contents `x0 x1 x2`, the output's at anything, runs to the
    continuation with the inputs' as they were and the output's at `out0_3` of them. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body each
    input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KBodyDefB.lean ====
/-
  The value the second kernel's body stores, as ONE function of its five loaded blocks: the sixteen heads'
  attention outputs of the query block against the key and value blocks, laid side by side, then the output
  projection and bias. Head `h` reads columns `64·h … 64·h + 63` of the three blocks.
-/
import proofs.«166784_j42649025249604_2_alg».proof.Proof.Gen.Kernel.Skeleton

noncomputable section

namespace Cert.Kernel.Hand

open Idealize.ShloMosaic Idealize.SL.Sem Cert.Kernel Cert.Kernel.Gen

variable {F : FTy → Type} [FloatOps F] [Cert.Kernel.Facts]

/-- The sixteen heads' outputs, head `h` in columns `64·h … 64·h + 63`, from the query block `v0`, the key block
    `v2` and the value block `v4`. -/
def headsCat (v0 : Vec F S1x256x1024 .bf16) (v2 v4 : Vec F S1x2048x1024 .bf16) : FVec F S256x1024 .f32 :=
  have v1 : FVec F S256x1024 .bf16 := k1_pay3 v0
  have v3 : FVec F S2048x1024 .bf16 := k1_pay4 v2
  have v5 : FVec F S2048x1024 .bf16 := k1_pay5 v4
  have v23 : FVec F S256x64 .f32 := k1_pay6 v0 v2 v4
  have v41 : FVec F S256x64 .f32 := k1_pay9 (k1_pay7 v4) (k1_pay8 v0 v2)
  have v59 : FVec F S256x64 .f32 := k1_pay10 v1 v3 v5
  have v77 : FVec F S256x64 .f32 := k1_pay11 v1 v3 v5
  have v95 : FVec F S256x64 .f32 := k1_pay15 (k1_pay12 v5) (k1_pay13 v1 v3) (k1_pay14 v1 v3)
  have v113 : FVec F S256x64 .f32 := k1_pay16 v1 v3 v5
  have v131 : FVec F S256x64 .f32 := k1_pay17 v1 v3 v5
  have v149 : FVec F S256x64 .f32 := k1_pay20 v5 (k1_pay18 v1) (k1_pay19 v3)
  have v167 : FVec F S256x64 .f32 := k1_pay21 v1 v3 v5
  have v185 : FVec F S256x64 .f32 := k1_pay24 (k1_pay22 v5) (k1_pay23 v1 v3)
  have v203 : FVec F S256x64 .f32 := k1_pay25 v1 v3 v5
  have v221 : FVec F S256x64 .f32 := k1_pay26 v1 v3 v5
  have v239 : FVec F S256x64 .f32 := k1_pay29 (k1_pay27 v5) (k1_pay28 v1 v3) (Scalar.ofBits .f32 0x3E000000#32)
  have v257 : FVec F S256x64 .f32 := k1_pay30 v1 v3 v5
  have v275 : FVec F S256x64 .f32 := matmul dot_S256x2048_S2048x64_S256x64_1_0_0_1_n_n none (k1_pay32 v1 v3) (k1_pay31 v5) (constant S256x64 .f32 0x00000000#32)
  have v293 : FVec F S256x64 .f32 := k1_pay1 v1 v3 v5
  concatenate S256x1024 1 [⟨S256x64, v23⟩, ⟨S256x64, v41⟩, ⟨S256x64, v59⟩, ⟨S256x64, v77⟩, ⟨S256x64, v95⟩, ⟨S256x64, v113⟩, ⟨S256x64, v131⟩, ⟨S256x64, v149⟩, ⟨S256x64, v167⟩, ⟨S256x64, v185⟩, ⟨S256x64, v203⟩, ⟨S256x64, v221⟩, ⟨S256x64, v239⟩, ⟨S256x64, v257⟩, ⟨S256x64, v275⟩, ⟨S256x64, v293⟩] concatenates_S256x64_S256x64_S256x64_S256x64_S256x64_S256x64_S256x64_S256x64_S256x64_S256x64_S256x64_S256x64_S256x64_S256x64_S256x64_S256x64_S256x1024_d1

/-- What the body stores into its output block. -/
def body1 (v0 : Vec F S1x256x1024 .bf16) (v2 v4 : Vec F S1x2048x1024 .bf16) (v295 : Vec F S1024x1024 .bf16)
    (v299 : Vec F S1x1024 .f32) : FVec F S1x256x1024 .f32 :=
  k1_pay2 (headsCat v0 v2 v4) v295 v299

end Cert.Kernel.Hand

end
-- ==== Proof.FrameR1B.lean ====
/-
  The second kernel's region: at grid point (b, i) the body reads a block of 256 query rows, the batch's 2048 key
  rows and 2048 value rows (three blocks of ONE array), the output weights and the bias row, and overwrites the
  whole output block with one value of them; the inputs' buffers are left as found.
-/
import proofs.«166784_j42649025249604_2_alg».proof.Proof.Gen.Kernel.Launch
import proofs.«166784_j42649025249604_2_alg».proof.Proof.Gen.Kernel.Skeleton
import proofs.«166784_j42649025249604_2_alg».proof.Proof.Gen.Kernel.Points
import proofs.«166784_j42649025249604_2_alg».proof.Proof.KBodyDefB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x256x1024 := Rect.unit (s := S1x256x1024) ![0, 0, 0] S1x256x1024.size inb_S1x256x1024_S1x256x1024_0_0_0
abbrev r1_1 : Rect S1x2048x1024 := Rect.unit (s := S1x2048x1024) ![0, 0, 0] S1x2048x1024.size inb_S1x2048x1024_S1x2048x1024_0_0_0
abbrev r1_3 : Rect S1024x1024 := Rect.unit (s := S1024x1024) ![0, 0] S1024x1024.size inb_S1024x1024_S1024x1024_0_0
abbrev r1_4 : Rect S1x1024 := Rect.unit (s := S1x1024) ![0, 0] S1x1024.size inb_S1x1024_S1x1024_0_0

/-- The output's staging buffer after the body, from the input blocks: its one store. -/
def out1_5 (x0 : Vec F S1x256x1024 .bf16) (x1 x2 : Vec F S1x2048x1024 .bf16) (x3 : Vec F S1024x1024 .bf16) (x4 : Vec F S1x1024 .f32) :
    Vec F S1x256x1024 .f32 :=
  View.canon [⟨r1_0, body1 (View.ld x0 r1_0) (View.ld x1 r1_1) (View.ld x2 r1_1) (View.ld x3 r1_3) (View.ld x4 r1_4)⟩]

/-- The store covers the buffer. -/
theorem cover1_5 (p0 : Vec F S1x256x1024 .f32) (y : S1x256x1024.Idx) :
    ∃ pc ∈ ([⟨r1_0, p0⟩] : List (View.Piece (Elt F) S1x256x1024 .f32)), y ∈ pc.1.set :=
  View.cover_of_tiled [⟨r1_0, p0⟩] S1x256x1024.size (by rfl) y

set_option maxRecDepth 65536 in
set_option maxHeartbeats 4000000 in
/-- The body on whole staging memrefs: the inputs' at read contents, the output's at anything, runs to the
    continuation with the inputs' as they were and the output's at `out1_5` of them. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec F S1x256x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__attn_outproj_kernel i arg2 harg2 arg3 harg3 arg4 harg4 arg5 harg5 arg6 harg6 arg7 harg7) K := by
  simp only [cc1__attn_outproj_kernel_eq_skeleton, k1_part1_eq_skeleton, k1_part2_eq_skeleton, k1_part3_eq_skeleton,
    k1_part4_eq_skeleton, k1_part5_eq_skeleton, k1_part6_eq_skeleton]
  unfold cc1__attn_outproj_kernel_skel
  simp only [k1_part1_eq_skeleton, k1_part2_eq_skeleton, k1_part3_eq_skeleton,
    k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of the second pipeline on core `c`: the arrays as the region finds them; after the body each
    input's buffer at its block and the output's at `out1_5` of the input blocks. The query, key and value windows
    read ONE array: each holds it at a third-share (a half, a quarter, a quarter). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.FrameRunB.lean ====
/-
  The whole run: host operations, the first kernel's region, two reshapes, the second kernel's region. The
  contents of every unscoped buffer are followed from the launch memory through the four stretches; each
  region's arrays leave at what its write-backs fold to, every other buffer as it entered. The three windows of
  the second region that read one array hold it in three shares, split at the region's entry and joined at its
  exit. At the end the result buffer holds the second region's folded write-backs and every argument its launch
  contents.
-/
import proofs.«166784_j42649025249604_2_alg».proof.Proof.Gen.Kernel.Launch
import proofs.«166784_j42649025249604_2_alg».proof.Proof.Gen.Kernel.Skeleton
import proofs.«166784_j42649025249604_2_alg».proof.Proof.Gen.Kernel.Points
import proofs.«166784_j42649025249604_2_alg».proof.Proof.FrameR0B
import proofs.«166784_j42649025249604_2_alg».proof.Proof.FrameR1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first stretch of host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two reshapes (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: the result buffer at what the pipeline leaves, every other buffer as entered (the
    region's other arrays are inputs). -/
def W4 (c : Dev nD) : Valuation τ sig (Elt F) :=
  Function.update (W3 m c) (Proc.devRef .tc main_v13) ((dat1 (V3 m) c).arrAt 5 cfg1.N)
abbrev V4 : (c : Dev nD) → (b : Ref sig .tc) → Buf (Elt F) ((c : Thread nD τ).loc b) := fun c b => W4 m c b
theorem W4_out (c : Dev nD) : W4 m c (Proc.devRef .tc main_v13) = (dat1 (V3 m) c).arrAt 5 cfg1.N := by
  unfold W4; exact Function.update_self ..
theorem W4_of_ne (c : Dev nD) (b : Ref sig .tc) (hb : b ≠ main_v13) : W4 m c (Proc.devRef .tc b) = W3 m c (Proc.devRef .tc b) := by
  unfold W4; exact Function.update_of_ne (StableHlo.devRef_ne_of_ne hb) ..

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The first region as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameShareB.lean ====
/-
  One array read through three windows: at the region's entry the array, held whole, is split into three
  shares (a half and two quarters), one per window; at the exit the three shares, still at the same contents,
  are joined again.
-/
import proofs.«166784_j42649025249604_2_alg».proof.Proof.Gen.Kernel.Launch
import proofs.«166784_j42649025249604_2_alg».proof.Proof.Gen.Kernel.Skeleton
import proofs.«166784_j42649025249604_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared

variable {c : Dev nD} (dat : Dat τ (Elt F) Unit ℕ (UR sig nD τ) ℕ cfg1 c)
  (V : (b : Ref sig .tc) → Buf (Elt F) ((c : Thread nD τ).loc b))

set_option maxHeartbeats 2000000 in
/-- ENTRY: the core's unscoped buffers are the pipeline's arrays at the entry contents — the array three windows
    read split into a half and two quarters — and the unscoped rest. -/
theorem entry1 (hA : ∀ w, dat.A w = V (Pipeline.arrRef spec1 w))
    (h0 : dat.q 0 = fullShare.left) (h1 : dat.q 1 = fullShare.right.left) (h2 : dat.q 2 = fullShare.right.right)
    (h3 : dat.q 3 = fullShare) (h4 : dat.q 4 = fullShare) :
    (unscopedBufs c V : sProp 𝕄) ⊢ iprop(dat.arrays dat.A ∗ Pipeline.unscopedRest spec1 c V) := by
  rw [Pipeline.unscopedBufs_split₀ cfgs 1 winFacts₀1.arr_unscoped c V]
  refine sep_mono ?_ .rfl
  unfold Pipeline.arrBufs Dat.arrays
  rw [bigSep_W1, bigSep_eq_bigSepL_of_eq [main_v11, main_v7, main_v12, main_v13] (by decide) (by decide)]
  have hs0 : dat.share 0 = fullShare.left := by unfold Dat.share; rw [if_neg (by decide)]; exact h0
  have hs1 : dat.share 1 = fullShare.right.left := by unfold Dat.share; rw [if_neg (by decide)]; exact h1
  have hs2 : dat.share 2 = fullShare.right.right := by unfold Dat.share; rw [if_neg (by decide)]; exact h2
  have hs3 : dat.share 3 = fullShare := by unfold Dat.share; rw [if_neg (by decide)]; exact h3
  have hs4 : dat.share 4 = fullShare := by unfold Dat.share; rw [if_neg (by decide)]; exact h4
  have hs5 : dat.share 5 = fullShare := by unfold Dat.share; rw [if_pos (by decide)]
  rw [hs0, hs1, hs2, hs3, hs4, hs5, hA 0, hA 1, hA 2, hA 3, hA 4, hA 5,
    (arr_whole1 0).set_eq_univ, (arr_whole1 3).set_eq_univ, (arr_whole1 4).set_eq_univ, (arr_whole1 5).set_eq_univ]
  have hL : (bigSepL [main_v11, main_v7, main_v12, main_v13] fun b : Ref sig .tc => (((c : Thread nD τ).loc b) ↦{fullShare} V b : sProp 𝕄))
      = iprop((((c : Thread nD τ).loc main_v11) ↦{fullShare} V main_v11) ∗ (((c : Thread nD τ).loc main_v7) ↦{fullShare} V main_v7)
          ∗ (((c : Thread nD τ).loc main_v12) ↦{fullShare} V main_v12) ∗ (((c : Thread nD τ).loc main_v13) ↦{fullShare} V main_v13)) := rfl
  rw [hL]
  refine (sep_mono (pointsTo_share (PosShare.mem_left_op_right fullShare)).1 .rfl).trans ?_
  refine (sep_mono (sep_mono .rfl (pointsTo_share (PosShare.mem_left_op_right fullShare.right)).1) .rfl).trans ?_
  iintro ⟨⟨Ha, Hb1, Hb2⟩, H7, H12, H13⟩
  isplitl [Ha]; · iexact Ha
  isplitl [Hb1]; · iexact Hb1
  isplitl [Hb2]; · iexact Hb2
  isplitl [H7]; · iexact H7
  isplitl [H12]; · iexact H12
  iexact H13

set_option maxHeartbeats 2000000 in
/-- EXIT: the arrays — the three shares still at the entry contents, the result at what the pipeline left — and
    the unscoped rest are the core's unscoped buffers at the contents updated at the result. -/
theorem exit1 (Fa : (w : Fin cfg1.W) → Buf (Elt F) ((cfg1.win w).arr.view.loc (c.tc : Thread nD τ)))
    (V' : (b : Ref sig .tc) → Buf (Elt F) ((c : Thread nD τ).loc b))
    (hF0 : Fa 0 = V main_v11) (hF1 : Fa 1 = V main_v11) (hF2 : Fa 2 = V main_v11) (hF3 : Fa 3 = V main_v7) (hF4 : Fa 4 = V main_v12)
    (hV13 : V' main_v13 = Fa 5) (hV : ∀ b, b ≠ main_v13 → V' b = V b)
    (h0 : dat.q 0 = fullShare.left) (h1 : dat.q 1 = fullShare.right.left) (h2 : dat.q 2 = fullShare.right.right)
    (h3 : dat.q 3 = fullShare) (h4 : dat.q 4 = fullShare) :
    iprop(dat.arrays Fa ∗ Pipeline.unscopedRest spec1 c V) ⊢ (unscopedBufs c V' : sProp 𝕄) := by
  rw [Pipeline.unscopedBufs_split₀ cfgs 1 winFacts₀1.arr_unscoped c V']
  refine sep_mono ?_ (Entails.of_eq ?_)
  · unfold Pipeline.arrBufs Dat.arrays
    rw [bigSep_W1, bigSep_eq_bigSepL_of_eq [main_v11, main_v7, main_v12, main_v13] (by decide) (by decide)]
    have hs0 : dat.share 0 = fullShare.left := by unfold Dat.share; rw [if_neg (by decide)]; exact h0
    have hs1 : dat.share 1 = fullShare.right.left := by unfold Dat.share; rw [if_neg (by decide)]; exact h1
    have hs2 : dat.share 2 = fullShare.right.right := by unfold Dat.share; rw [if_neg (by decide)]; exact h2
    have hs3 : dat.share 3 = fullShare := by unfold Dat.share; rw [if_neg (by decide)]; exact h3
    have hs4 : dat.share 4 = fullShare := by unfold Dat.share; rw [if_neg (by decide)]; exact h4
    have hs5 : dat.share 5 = fullShare := by unfold Dat.share; rw [if_pos (by decide)]
    rw [hs0, hs1, hs2, hs3, hs4, hs5, hF0, hF1, hF2, hF3, hF4, ← hV13,
      (arr_whole1 0).set_eq_univ, (arr_whole1 3).set_eq_univ, (arr_whole1 4).set_eq_univ, (arr_whole1 5).set_eq_univ]
    have hL : (bigSepL [main_v11, main_v7, main_v12, main_v13] fun b : Ref sig .tc => (((c : Thread nD τ).loc b) ↦{fullShare} V' b : sProp 𝕄))
        = iprop((((c : Thread nD τ).loc main_v11) ↦{fullShare} V' main_v11) ∗ (((c : Thread nD τ).loc main_v7) ↦{fullShare} V' main_v7)
            ∗ (((c : Thread nD τ).loc main_v12) ↦{fullShare} V' main_v12) ∗ (((c : Thread nD τ).loc main_v13) ↦{fullShare} V' main_v13)) := rfl
    rw [hL, hV main_v11 (by decide), hV main_v7 (by decide), hV main_v12 (by decide)]
    refine BIBase.Entails.trans ?_ (sep_mono (pointsTo_share (PosShare.mem_left_op_right fullShare)).2 .rfl)
    refine BIBase.Entails.trans ?_ (sep_mono (sep_mono .rfl (pointsTo_share (PosShare.mem_left_op_right fullShare.right)).2) .rfl)
    iintro ⟨H0, H1, H2, H3, H4, H5⟩
    isplitl [H0 H1 H2]
    · isplitl [H0]; · iexact H0
      isplitl [H1]; · iexact H1
      iexact H2
    isplitl [H3]; · iexact H3
    isplitl [H4]; · iexact H4
    iexact H5
  · unfold Pipeline.unscopedRest
    exact bigSep_congr fun b hb => by
      rw [hV b (fun e => (Finset.mem_sdiff.mp hb).2 (Finset.mem_image.mpr ⟨5, Finset.mem_univ _, e ▸ rfl⟩))]

end Shared

end Cert.Kernel.Hand

end
-- ==== Proof.FrameRun2B.lean ====
/-
  The second region as a segment of the run, and the run itself: every weakly fair execution terminates, the
  result buffer ends at what the second region's write-backs fold to, and every argument ends as launched.
-/
import proofs.«166784_j42649025249604_2_alg».proof.Proof.Gen.Kernel.Launch
import proofs.«166784_j42649025249604_2_alg».proof.Proof.Gen.Kernel.Skeleton
import proofs.«166784_j42649025249604_2_alg».proof.Proof.Gen.Kernel.Points
import proofs.«166784_j42649025249604_2_alg».proof.Proof.FrameRunB
import proofs.«166784_j42649025249604_2_alg».proof.Proof.FrameShareB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 (F := F) (dat1 (V3 m) c) (V3 m c) (fun _ => rfl) rfl rfl rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) (c := c) (pdats m 1 c) (V3 m c) ((pdats m 1 c).arrAt · cfg1.N) (V4 m c)
      (((dat1 (V3 m) c).arrAt_in 0 rfl _).trans (A_eq1 (V3 m) c 0)) (((dat1 (V3 m) c).arrAt_in 1 rfl _).trans (A_eq1 (V3 m) c 1))
      (((dat1 (V3 m) c).arrAt_in 2 rfl _).trans (A_eq1 (V3 m) c 2)) (((dat1 (V3 m) c).arrAt_in 3 rfl _).trans (A_eq1 (V3 m) c 3))
      (((dat1 (V3 m) c).arrAt_in 4 rfl _).trans (A_eq1 (V3 m) c 4))
      (W4_out m c) (fun b hb => W4_of_ne m c b hb) rfl rfl rfl rfl rfl
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing
    faulting; the result buffer ends at the second region's folded write-backs and every argument as launched. -/
theorem run : θ_run defs (onTc (τ := τ) (main (F := F))) ⟨m, fun _ => 0, ρ⟩ (fun r => ∀ c : Dev nD,
      r.2.mem ((c.tc : Thread nD τ).loc main_v13) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v13 (by decide))).trans (W4_out m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c)⟩)

end Cert.Kernel.Hand

end
-- ==== Proof.KArr0.lean ====
/-
  From blocks to the array, first region. Each of the 16 grid points overwrites one block of 512 rows of the
  [8192, 3072] output with the body's value of the three input blocks it loaded: rows 512·t … 512·t + 511 of the
  flattened input, the whole weight matrix and the whole bias row. With the body's value at (r, e) being
  Σ_d v0[r, d] · v3[d, e] + v6[0, e], point t's block is the restriction of ONE function of the whole arrays,

      out[i, e] = Σ_d x[i, d] · w[d, e] + β[0, e],

  and row i lies in the block of point i / 512, so the blocks cover the array and the array ends at that function.
-/
import proofs.«166784_j42649025249604_2_alg».proof.Proof.FrameR0
import Idealize.ShloMosaic.Lib.Pipeline.Value
import Idealize.ShloMosaic.Lib.ValueIdx

set_option maxRecDepth 16384

noncomputable section

namespace Cert.KArr

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- Entry (r, e) of the projected array: row r of x against column e of w, plus the bias. -/
def G0 (x : S8192x1024.Idx → EReal) (w : S1024x3072.Idx → EReal) (β : S1x3072.Idx → EReal) (r : Fin 8192) (e : Fin 3072) : EReal :=
  (∑ d : Fin 1024, x (ix2 r d) * w (ix2 d e)) + β (ix2 0 e)

/-- The projected array. -/
def A0 (x : S8192x1024.Idx → EReal) (w : S1024x3072.Idx → EReal) (β : S1x3072.Idx → EReal) : S8192x3072.Idx → EReal :=
  fun i => G0 x w β (i 0) (i 1)

/-- The projected array at explicit coordinates. -/
theorem A0_apply (x : S8192x1024.Idx → EReal) (w : S1024x3072.Idx → EReal) (β : S1x3072.Idx → EReal) (r : Fin 8192) (e : Fin 3072) :
    A0 x w β (ix2 r e) = (∑ d : Fin 1024, x (ix2 r d) * w (ix2 d e)) + β (ix2 0 e) := rfl

/-- The body's value at a point, as a hypothesis. -/
def Pay : Prop := ∀ (v0 : Vec Ideal S512x1024 .f32) (v3 : Vec Ideal S1024x3072 .bf16) (v6 : Vec Ideal S1x3072 .f32) (r : Fin 512) (e : Fin 3072),
  k0_pay1 (F := Ideal) v0 v3 v6 (ix2 r e) = (∑ d : Fin 1024, v0 (ix2 r d) * v3 (ix2 d e)) + v6 (ix2 0 e)

/-- One entry of one point's block: when the loaded blocks are rows q·512 … of x, all of w and all of β, the body's value
    at y is the projected array at the index y sits at. -/
theorem point_eq (hpay : Pay) (x : S8192x1024.Idx → EReal) (w : S1024x3072.Idx → EReal) (β : S1x3072.Idx → EReal)
    (v0 : Vec Ideal S512x1024 .f32) (v3 : Vec Ideal S1024x3072 .bf16) (v6 : Vec Ideal S1x3072 .f32) (q : Nat)
    (y : S512x3072.Idx) (i : S8192x3072.Idx)
    (h0 : ∀ (r : Fin 512) (d : Fin 1024) (k : Fin 8192), k.val = q * 512 + r.val → v0 (ix2 r d) = x (ix2 k d))
    (h3 : ∀ (d : Fin 1024) (e : Fin 3072), v3 (ix2 d e) = w (ix2 d e))
    (h6 : ∀ e : Fin 3072, v6 (ix2 0 e) = β (ix2 0 e))
    (hi0 : (i 0).val = q * 512 + (y 0).val) (hi1 : (i 1).val = (y 1).val) :
    k0_pay1 (F := Ideal) v0 v3 v6 y = A0 x w β i := by
  obtain ⟨r, e, rfl⟩ : ∃ (r : Fin 512) (e : Fin 3072), y = ix2 r e := ⟨y 0, y 1, eq_ix2 y⟩
  rw [hpay]
  unfold A0 G0
  have e1 : (i 1 : Fin 3072) = e := Fin.ext hi1
  rw [e1, h6]
  exact congrArg (· + β (ix2 0 e)) (Finset.sum_congr rfl fun d _ => by rw [h0 r d (i 0) hi0, h3])

section Blocks

variable (V : (c : Dev nD) → (b : Ref sig .tc) → Buf (Elt Ideal) ((c : Thread nD τ).loc b))

/-- The printed index maps, decided over the grid: the input rows and the output rows move with the point, everything
    else stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the projected array of the arrays as the region finds them. -/
theorem flushed_eq (hpay : Pay) (c : Dev nD) (t : Fin cfg0.N) :
    (dat0 (F := Ideal) V c).flushed 3 t
      = ((cfg0.win 3).blk t).view.read (Elt Ideal) (A0 (V c main_v8) (V c main_v5) (V c main_v9)) := by
  show (cfg0.win 3).cut (grid0.coords t) ((dat0 (F := Ideal) V c).after 3 t) = _
  rw [after0_3]
  unfold out0_3
  rw [View.canon_unit_zero hz]
  simp only [View.ld_unit_zero (S := S512x1024) hz, View.ld_unit_zero (S := S1024x3072) hz, View.ld_unit_zero (S := S1x3072) hz]
  obtain ⟨f00, f01, f10, f11, f20, f21, f30, f31⟩ := idx_facts t
  funext j
  show k0_pay1 (F := Ideal) (iblk0 V c 0 t) (iblk0 V c 1 t) (iblk0 V c 2 t) j
    = A0 (V c main_v8) (V c main_v5) (V c main_v9) (((cfg0.win 3).blk t).view.emb j)
  refine point_eq hpay (V c main_v8) (V c main_v5) (V c main_v9) (iblk0 V c 0 t) (iblk0 V c 1 t) (iblk0 V c 2 t) t.val j
    (((cfg0.win 3).blk t).view.emb j) ?_ ?_ ?_ ?_ ?_
  · intro r d k hk
    show V c main_v8 (((cfg0.win 0).blk t).view.emb (ix2 r d)) = V c main_v8 (ix2 k d)
    refine congrArg (V c main_v8) (funext fun a => Fin.ext ?_)
    match a with
    | ⟨0, _⟩ => show win0_0.index t (0 : Fin 2) * 512 + 1 * r.val = k.val; omega
    | ⟨1, _⟩ => show win0_0.index t (1 : Fin 2) * 1024 + 1 * d.val = d.val; omega
  · intro d e
    show V c main_v5 (((cfg0.win 1).blk t).view.emb (ix2 d e)) = V c main_v5 (ix2 d e)
    refine congrArg (V c main_v5) (funext fun a => Fin.ext ?_)
    match a with
    | ⟨0, _⟩ => show win0_1.index t (0 : Fin 2) * 1024 + 1 * d.val = d.val; omega
    | ⟨1, _⟩ => show win0_1.index t (1 : Fin 2) * 3072 + 1 * e.val = e.val; omega
  · intro e
    show V c main_v9 (((cfg0.win 2).blk t).view.emb (ix2 0 e)) = V c main_v9 (ix2 0 e)
    refine congrArg (V c main_v9) (funext fun a => Fin.ext ?_)
    match a with
    | ⟨0, _⟩ => show win0_2.index t (0 : Fin 2) * 1 + 1 * 0 = 0; omega
    | ⟨1, _⟩ => show win0_2.index t (1 : Fin 2) * 3072 + 1 * e.val = e.val; omega
  · show win0_3.index t (0 : Fin 2) * 512 + 1 * (j 0).val = t.val * 512 + (j 0).val; omega
  · show win0_3.index t (1 : Fin 2) * 3072 + 1 * (j 1).val = (j 1).val; omega

/-- An index of the array is in point `t`'s block iff each coordinate is in the block's range on its axis. -/
theorem mem_blk (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v10).slice (win0_3.rect t)).set ↔ _
  rw [View.set_slice_whole, Rect.mem_set_unit]
  exact Iff.rfl

/-- Row i is in the block of point i / 512. -/
theorem cover (i : S8192x3072.Idx) : ∃ t : Fin cfg0.N, (cfg0.win 3).flush t = true ∧ i ∈ ((cfg0.win 3).blk t).view.set := by
  have hN : grid0.N = 16 := Gen.N_0
  have hi0 : (i 0).val < 8192 := (i 0).isLt
  have hi1 : (i 1).val < 3072 := (i 1).isLt
  have ht : (i 0).val / 512 < cfg0.N := by show _ < grid0.N; omega
  refine ⟨⟨(i 0).val / 512, ht⟩, flush0_3 _, ?_⟩
  obtain ⟨-, -, -, -, -, -, f30, f31⟩ := idx_facts ⟨(i 0).val / 512, ht⟩
  have f30' : win0_3.index ⟨(i 0).val / 512, ht⟩ (0 : Fin 2) = (i 0).val / 512 := f30
  rw [mem_blk]
  intro a
  match a with
  | ⟨0, _⟩ => show win0_3.index ⟨(i 0).val / 512, ht⟩ (0 : Fin 2) * 512 ≤ (i 0).val ∧ (i 0).val < win0_3.index ⟨(i 0).val / 512, ht⟩ (0 : Fin 2) * 512 + 512; omega
  | ⟨1, _⟩ => show win0_3.index ⟨(i 0).val / 512, ht⟩ (1 : Fin 2) * 3072 ≤ (i 1).val ∧ (i 1).val < win0_3.index ⟨(i 0).val / 512, ht⟩ (1 : Fin 2) * 3072 + 3072; omega

/-- THE ARRAY after the first region: the projected array of the arrays as the region finds them. -/
theorem final0 (hpay : Pay) (c : Dev nD) :
    (dat0 (F := Ideal) V c).arrAt 3 cfg0.N = A0 (V c main_v8) (V c main_v5) (V c main_v9) :=
  (dat0 (F := Ideal) V c).arrAt_eq_of_cover 3 (A0 (V c main_v8) (V c main_v5) (V c main_v9)) (fun t _ => flushed_eq V hpay c t) cover

end Blocks

end Cert.KArr

end
-- ==== Proof.Spec.lean ====
/-
  The mathematics both programs compute, written once over the extended reals, index by index.

  Inputs: x : [4, 2048, 1024] (batch, position, feature), a rank-8 adapter A : [8, 1024], B : [3072, 8], the
  projection weights W : [3072, 1024] with bias bq : [3072], and the output projection Wp : [1024, 1024] with
  bias bp : [1024].

  * The fused projection: row (b, s) of x against the FOLDED weights W + (1/8)·B·A, plus the bias (`qkvFold`),
    or against W, plus the bias, plus (1/8) times the two-step low-rank product (x·Aᵀ)·Bᵀ (`qkvSplit`). The two
    agree when every entry is a real number (distributivity fails at the infinities).
  * Attention of ONE query row `Q` (1024 features = 16 heads of width 64) against all 2048 key rows `K` and
    value rows `V`: per head the scores (q · k)/8, the row maximum, the exponentials of the differences, their
    sum, the quotient, the weighted sum of the values; the heads side by side; then a projection `P` with a bias
    `β` (`attnRow`).
  * The whole result (`result`): position (b, s) of the projected array [Q | K | V] (3072 columns) gives the query
    row, batch b gives the key and value rows.
-/
import Idealize.ShloMosaic.PureOps.Ideal
import Idealize.ShloMosaic.Lib.ValueIdx

noncomputable section

namespace Cert.Spec

open Idealize.ShloMosaic Idealize.ShloMosaic.ValueIdx

/-- The scale 1/8 as both programs write it (the f32 word of 0.125). -/
def c8 : EReal := Ideal.ofBits .f32 0x3E000000#32
/-- The value the maxima start from (the f32 word of -∞). -/
def ninf : EReal := Ideal.ofBits .f32 0xFF800000#32

abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal

/-! ## The projection -/

/-- The folded weights W + (1/8)·(B·A) at (e, d). -/
def weff (A : Arr2 8 1024) (B : Arr2 3072 8) (W : Arr2 3072 1024) (e : Fin 3072) (d : Fin 1024) : EReal :=
  W (ix2 e d) + c8 * ∑ r : Fin 8, B (ix2 e r) * A (ix2 r d)

/-- The projection with the adapter folded into the weights. -/
def qkvFold (x : Arr3 4 2048 1024) (A : Arr2 8 1024) (B : Arr2 3072 8) (W : Arr2 3072 1024) (bq : Arr1 3072)
    (b : Fin 4) (s : Fin 2048) (e : Fin 3072) : EReal :=
  (∑ d : Fin 1024, x (ix3 b s d) * weff A B W e d) + bq (ix1 e)

/-- The projection with the adapter as a separate low-rank branch. -/
def qkvSplit (x : Arr3 4 2048 1024) (A : Arr2 8 1024) (B : Arr2 3072 8) (W : Arr2 3072 1024) (bq : Arr1 3072)
    (b : Fin 4) (s : Fin 2048) (e : Fin 3072) : EReal :=
  ((∑ d : Fin 1024, x (ix3 b s d) * W (ix2 e d)) + bq (ix1 e))
    + (∑ r : Fin 8, (∑ d : Fin 1024, x (ix3 b s d) * A (ix2 r d)) * B (ix2 e r)) * c8

/-! ## Attention of one query row -/

/-- Feature `h·64 + j`: component `j` of head `h`. -/
def hcol (h : Fin 16) (j : Fin 64) : Fin 1024 := ⟨h.val * 64 + j.val, by omega⟩

section Row

variable (Q : Fin 1024 → EReal) (K V : Fin 2048 → Fin 1024 → EReal)

/-- The scaled score of the query row against key row `k` in head `h`. -/
def score (h : Fin 16) (k : Fin 2048) : EReal := (∑ j : Fin 64, Q (hcol h j) * K k (hcol h j)) * c8
/-- The largest score of the head. -/
def rowMax (h : Fin 16) : EReal := (Finset.univ : Finset (Fin 2048)).fold max ninf (fun k => score Q K h k)
/-- The exponential of a score less the maximum. -/
def expo (h : Fin 16) (k : Fin 2048) : EReal := Ideal.exp (score Q K h k - rowMax Q K h)
/-- The normaliser. -/
def denom (h : Fin 16) : EReal := ∑ k : Fin 2048, expo Q K h k
/-- The attention weight. -/
def prob (h : Fin 16) (k : Fin 2048) : EReal := Ideal.div (expo Q K h k) (denom Q K h)
/-- The weighted sum of the values: component `j` of head `h`. -/
def ctx (h : Fin 16) (j : Fin 64) : EReal := ∑ k : Fin 2048, prob Q K h k * V k (hcol h j)
/-- The heads side by side: feature `d = h·64 + j`. -/
def ctxCat (d : Fin 1024) : EReal := ctx Q K V ⟨d.val / 64, by omega⟩ ⟨d.val % 64, by omega⟩
/-- The output projection `P` (feature `d` to output `e`) and its bias `β`. -/
def attnRow (P : Fin 1024 → Fin 1024 → EReal) (β : Fin 1024 → EReal) (e : Fin 1024) : EReal :=
  (∑ d : Fin 1024, ctxCat Q K V d * P d e) + β e

end Row

/-! ## The whole result -/

/-- Column `t·1024 + c` of the projected array: feature `c` of the queries (t = 0), keys (1) or values (2). -/
def col3 (t : Fin 3) (c : Fin 1024) : Fin 3072 := ⟨t.val * 1024 + c.val, by omega⟩

/-- The result over [4, 2048, 1024] from a projected array `q` given position by position, the output weights
    `Wp` (output e, feature d) and bias `bp`. -/
def result (q : Fin 4 → Fin 2048 → Fin 3072 → EReal) (Wp : Arr2 1024 1024) (bp : Arr1 1024) : Arr3 4 2048 1024 :=
  fun i => attnRow (fun c => q (i 0) (i 1) (col3 0 c)) (fun k c => q (i 0) k (col3 1 c)) (fun k c => q (i 0) k (col3 2 c))
    (fun d e => Wp (ix2 e d)) (fun e => bp (ix1 e)) (i 2)

end Cert.Spec

end
-- ==== Proof.KAll.lean ====
/-
  The kernel program's whole value. The result buffer at the end of the run is what the second region's
  write-backs fold to; that is the attention output of the arrays the second region finds; those are the
  projected array the first region left, split back into batch and position, and the transposed output weights
  and the bias row; the projected array is the product of the flattened input with the folded weights plus the
  bias; and the flattened input, the folded weights and the two bias rows are what the host operations make of
  the program's arguments. Put together, at (b, s, e):

      out[b, s, e] = attnRow (q[b, s, 0·1024 + ·]) (q[b, ·, 1·1024 + ·]) (q[b, ·, 2·1024 + ·]) Wpᵀ bp e,
      q[b, s, e]  = Σ_d x[b, s, d] · (W[e, d] + (1/8)·Σ_r B[e, r]·A[r, d]) + bq[e].
-/
import proofs.«166784_j42649025249604_2_alg».proof.Proof.FrameRun
import proofs.«166784_j42649025249604_2_alg».proof.Proof.KArr0
import proofs.«166784_j42649025249604_2_alg».proof.Proof.Spec
import proofs.«166784_j42649025249604_2_alg».proof.Proof.Gen.KernelIdeal.Regions
import Idealize.ShloMosaic.Lib.ValueIdx

set_option maxRecDepth 16384

noncomputable section

namespace Cert.KAll

open Cert.KernelIdeal Cert.KernelIdeal.Hand
open Idealize.ShloMosaic Idealize.ShloMosaic.TcCoe Idealize.SL.Sem Idealize.ShloMosaic.ValueIdx

/-! ## What this module takes from the others, as hypotheses -/

/-- The second region's array after its run: the attention output of the arrays the region finds. -/
def Final1 : Prop := ∀ (V : (c : Dev nD) → (b : Ref sig .tc) → Buf (Elt Ideal) ((c : Thread nD τ).loc b)) (c : Dev nD),
  (dat1 (F := Ideal) V c).arrAt 5 cfg1.N = fun i : S4x2048x1024.Idx =>
    Cert.Spec.attnRow (fun c' => (V c main_v11 : S4x2048x3072.Idx → EReal) (ix3 (i 0) (i 1) (Cert.Spec.col3 0 c')))
      (fun k c' => (V c main_v11 : S4x2048x3072.Idx → EReal) (ix3 (i 0) k (Cert.Spec.col3 1 c')))
      (fun k c' => (V c main_v11 : S4x2048x3072.Idx → EReal) (ix3 (i 0) k (Cert.Spec.col3 2 c')))
      (fun d e => (V c main_v7 : S1024x1024.Idx → EReal) (ix2 d e))
      (fun e => (V c main_v12 : S1x1024.Idx → EReal) (ix2 0 e)) (i 2)

/-- The host operations read at an index, from any contents `W` of the buffers. -/
structure HostReads : Prop where
  /-- the flattened input -/
  h8 : ∀ (W : Valuation τ sig (Elt Ideal)) (bs : Fin 8192) (d : Fin 1024),
    (StableHlo.after (Gen.hostOps0 (F := Ideal)) W main_v8 : S8192x1024.Idx → EReal) (ix2 bs d)
      = (W main_arg0 : S4x2048x1024.Idx → EReal)
          (ix3 (⟨bs.val / 2048, by omega⟩ : Fin 4) (⟨bs.val % 2048, by omega⟩ : Fin 2048) d)
  /-- the folded, transposed weights -/
  h5 : ∀ (W : Valuation τ sig (Elt Ideal)) (d : Fin 1024) (e : Fin 3072),
    (StableHlo.after (Gen.hostOps0 (F := Ideal)) W main_v5 : S1024x3072.Idx → EReal) (ix2 d e)
      = Cert.Spec.weff (W main_arg1 : S8x1024.Idx → EReal) (W main_arg2 : S3072x8.Idx → EReal)
          (W main_arg3 : S3072x1024.Idx → EReal) e d
  /-- the projection bias as a row -/
  h9 : ∀ (W : Valuation τ sig (Elt Ideal)) (e : Fin 3072),
    (StableHlo.after (Gen.hostOps0 (F := Ideal)) W main_v9 : S1x3072.Idx → EReal) (ix2 (0 : Fin 1) e)
      = (W main_arg4 : S3072.Idx → EReal) (ix1 e)
  /-- the transposed output weights -/
  h7 : ∀ (W : Valuation τ sig (Elt Ideal)) (d e : Fin 1024),
    (StableHlo.after (Gen.hostOps0 (F := Ideal)) W main_v7 : S1024x1024.Idx → EReal) (ix2 d e)
      = (W main_arg5 : S1024x1024.Idx → EReal) (ix2 e d)
  /-- the projected array split into batch and position -/
  h11 : ∀ (W : Valuation τ sig (Elt Ideal)) (b : Fin 4) (s : Fin 2048) (e : Fin 3072),
    (StableHlo.after (Gen.hostOps1 (F := Ideal)) W main_v11 : S4x2048x3072.Idx → EReal) (ix3 b s e)
      = (W main_v10 : S8192x3072.Idx → EReal) (ix2 (⟨b.val * 2048 + s.val, by omega⟩ : Fin 8192) e)
  /-- the output bias as a row -/
  h12 : ∀ (W : Valuation τ sig (Elt Ideal)) (e : Fin 1024),
    (StableHlo.after (Gen.hostOps1 (F := Ideal)) W main_v12 : S1x1024.Idx → EReal) (ix2 (0 : Fin 1) e)
      = (W main_arg6 : S1024.Idx → EReal) (ix1 e)

variable (m : (ℓ : Loc nD τ sig) → Buf (Elt Ideal) ℓ)

/-! ## Buffers the host operations leave alone -/

/-- The first stretch writes no argument. -/
theorem W1_of (c : Dev nD) (r : Ref sig .tc) (h : r ∉ Gen.hostOps0_W) : W1 m c r = W0 m c r :=
  StableHlo.after_of_writes_sub Gen.hostOps0 _ Gen.hostOps0_writes h

/-- The second stretch writes only its two results. -/
theorem W3_of (c : Dev nD) (r : Ref sig .tc) (h : r ∉ Gen.hostOps1_W) : W3 m c r = W2 m c r :=
  StableHlo.after_of_writes_sub Gen.hostOps1 _ Gen.hostOps1_writes h

/-! ## The arguments, as launched -/

abbrev argX (c : Dev nD) : S4x2048x1024.Idx → EReal := m ((c : Thread nD τ).loc main_arg0)
abbrev argA (c : Dev nD) : S8x1024.Idx → EReal := m ((c : Thread nD τ).loc main_arg1)
abbrev argB (c : Dev nD) : S3072x8.Idx → EReal := m ((c : Thread nD τ).loc main_arg2)
abbrev argW (c : Dev nD) : S3072x1024.Idx → EReal := m ((c : Thread nD τ).loc main_arg3)
abbrev argBq (c : Dev nD) : S3072.Idx → EReal := m ((c : Thread nD τ).loc main_arg4)
abbrev argWp (c : Dev nD) : S1024x1024.Idx → EReal := m ((c : Thread nD τ).loc main_arg5)
abbrev argBp (c : Dev nD) : S1024.Idx → EReal := m ((c : Thread nD τ).loc main_arg6)

/-! ## The chain -/

/-- Row b·2048 + s of the flattened input is position s of batch b. -/
theorem x_row (hh : HostReads) (W : Valuation τ sig (Elt Ideal)) (b : Fin 4) (s : Fin 2048) (d : Fin 1024)
    (hbs : b.val * 2048 + s.val < 8192) :
    (StableHlo.after (Gen.hostOps0 (F := Ideal)) W main_v8 : S8192x1024.Idx → EReal) (ix2 (⟨b.val * 2048 + s.val, hbs⟩ : Fin 8192) d)
      = (W main_arg0 : S4x2048x1024.Idx → EReal) (ix3 b s d) := by
  refine (hh.h8 W _ d).trans ?_
  have h1 : ∀ p, (⟨(b.val * 2048 + s.val) / 2048, p⟩ : Fin 4) = b := fun p => Fin.ext (by show (b.val * 2048 + s.val) / 2048 = b.val; omega)
  have h2 : ∀ p, (⟨(b.val * 2048 + s.val) % 2048, p⟩ : Fin 2048) = s := fun p => Fin.ext (by show (b.val * 2048 + s.val) % 2048 = s.val; omega)
  show (W main_arg0 : S4x2048x1024.Idx → EReal) (ix3 (⟨(b.val * 2048 + s.val) / 2048, _⟩ : Fin 4) (⟨(b.val * 2048 + s.val) % 2048, _⟩ : Fin 2048) d) = _
  rw [h1, h2]

/-- The projected array the second region finds, at (b, s, e): the folded projection of position (b, s). -/
theorem proj_eq (hpay : Cert.KArr.Pay) (hh : HostReads) (c : Dev nD) (b : Fin 4) (s : Fin 2048) (e : Fin 3072) :
    (V3 m c main_v11 : S4x2048x3072.Idx → EReal) (ix3 b s e)
      = Cert.Spec.qkvFold (argX m c) (argA m c) (argB m c) (argW m c) (argBq m c) b s e := by
  have hbs : b.val * 2048 + s.val < 8192 := by omega
  refine (hh.h11 (W2 m c) b s e).trans ?_
  have e2 : (W2 m c (Proc.devRef .tc main_v10) : S8192x3072.Idx → EReal)
      = Cert.KArr.A0 (V1 m c main_v8) (V1 m c main_v5) (V1 m c main_v9) :=
    (W2_arr m c 3).trans (Cert.KArr.final0 (V1 m) hpay c)
  refine (congrFun e2 _).trans ?_
  refine (Cert.KArr.A0_apply _ _ _ _ e).trans ?_
  unfold Cert.Spec.qkvFold
  refine congrArg₂ (· + ·) (Finset.sum_congr rfl fun d _ => congrArg₂ (· * ·) ?_ ?_) ?_
  · exact x_row hh (W0 m c) b s d hbs
  · exact hh.h5 (W0 m c) d e
  · exact hh.h9 (W0 m c) e

/-- The output weights the second region finds: the argument's, transposed. -/
theorem wp_eq (hh : HostReads) (c : Dev nD) (d e : Fin 1024) :
    (V3 m c main_v7 : S1024x1024.Idx → EReal) (ix2 d e) = argWp m c (ix2 e d) := by
  have e1 : (W3 m c (Proc.devRef .tc main_v7) : S1024x1024.Idx → EReal) = W1 m c (Proc.devRef .tc main_v7) :=
    (W3_of m c main_v7 (by decide)).trans (W2_of_ne m c main_v7 (by decide))
  exact (congrFun e1 _).trans (hh.h7 (W0 m c) d e)

/-- The output bias the second region finds: the argument's, as a row. -/
theorem bp_eq (hh : HostReads) (c : Dev nD) (e : Fin 1024) :
    (V3 m c main_v12 : S1x1024.Idx → EReal) (ix2 (0 : Fin 1) e) = argBp m c (ix1 e) := by
  have e1 : (W2 m c (Proc.devRef .tc main_arg6) : S1024.Idx → EReal) = W0 m c (Proc.devRef .tc main_arg6) :=
    (W2_of_ne m c main_arg6 (by decide)).trans (W1_of m c main_arg6 (by decide))
  exact (hh.h12 (W2 m c) e).trans (congrFun e1 _)

/-- THE KERNEL PROGRAM'S VALUE: the result buffer ends at the specification's result of the folded projection. -/
theorem kernel_value (hpay : Cert.KArr.Pay) (hfin1 : Final1) (hh : HostReads) (c : Dev nD) :
    (W4 m c (Proc.devRef .tc main_v13) : S4x2048x1024.Idx → EReal)
      = Cert.Spec.result (fun b s e => Cert.Spec.qkvFold (argX m c) (argA m c) (argB m c) (argW m c) (argBq m c) b s e)
          (argWp m c) (argBp m c) := by
  refine (W4_out m c).trans ?_
  refine (hfin1 (V3 m) c).trans ?_
  funext i
  obtain ⟨b, s, e, rfl⟩ : ∃ (b : Fin 4) (s : Fin 2048) (e : Fin 1024), i = ix3 b s e := ⟨i 0, i 1, i 2, eq_ix3 i⟩
  have hQ : (fun c' : Fin 1024 => (V3 m c main_v11 : S4x2048x3072.Idx → EReal) (ix3 b s (Cert.Spec.col3 0 c')))
      = fun c' => Cert.Spec.qkvFold (argX m c) (argA m c) (argB m c) (argW m c) (argBq m c) b s (Cert.Spec.col3 0 c') :=
    funext fun c' => proj_eq m hpay hh c b s _
  have hK : (fun (k : Fin 2048) (c' : Fin 1024) => (V3 m c main_v11 : S4x2048x3072.Idx → EReal) (ix3 b k (Cert.Spec.col3 1 c')))
      = fun k c' => Cert.Spec.qkvFold (argX m c) (argA m c) (argB m c) (argW m c) (argBq m c) b k (Cert.Spec.col3 1 c') :=
    funext fun k => funext fun c' => proj_eq m hpay hh c b k _
  have hV : (fun (k : Fin 2048) (c' : Fin 1024) => (V3 m c main_v11 : S4x2048x3072.Idx → EReal) (ix3 b k (Cert.Spec.col3 2 c')))
      = fun k c' => Cert.Spec.qkvFold (argX m c) (argA m c) (argB m c) (argW m c) (argBq m c) b k (Cert.Spec.col3 2 c') :=
    funext fun k => funext fun c' => proj_eq m hpay hh c b k _
  have hW : (fun (d e' : Fin 1024) => (V3 m c main_v7 : S1024x1024.Idx → EReal) (ix2 d e'))
      = fun d e' => argWp m c (ix2 e' d) :=
    funext fun d => funext fun e' => wp_eq m hh c d e'
  have hβ : (fun e' : Fin 1024 => (V3 m c main_v12 : S1x1024.Idx → EReal) (ix2 (0 : Fin 1) e'))
      = fun e' => argBp m c (ix1 e') :=
    funext fun e' => bp_eq m hh c e'
  show Cert.Spec.attnRow
      (fun c' : Fin 1024 => (V3 m c main_v11 : S4x2048x3072.Idx → EReal) (ix3 b s (Cert.Spec.col3 0 c')))
      (fun (k : Fin 2048) (c' : Fin 1024) => (V3 m c main_v11 : S4x2048x3072.Idx → EReal) (ix3 b k (Cert.Spec.col3 1 c')))
      (fun (k : Fin 2048) (c' : Fin 1024) => (V3 m c main_v11 : S4x2048x3072.Idx → EReal) (ix3 b k (Cert.Spec.col3 2 c')))
      (fun (d e' : Fin 1024) => (V3 m c main_v7 : S1024x1024.Idx → EReal) (ix2 d e'))
      (fun e' : Fin 1024 => (V3 m c main_v12 : S1x1024.Idx → EReal) (ix2 (0 : Fin 1) e')) e
    = Cert.Spec.attnRow
      (fun c' => Cert.Spec.qkvFold (argX m c) (argA m c) (argB m c) (argW m c) (argBq m c) b s (Cert.Spec.col3 0 c'))
      (fun k c' => Cert.Spec.qkvFold (argX m c) (argA m c) (argB m c) (argW m c) (argBq m c) b k (Cert.Spec.col3 1 c'))
      (fun k c' => Cert.Spec.qkvFold (argX m c) (argA m c) (argB m c) (argW m c) (argBq m c) b k (Cert.Spec.col3 2 c'))
      (fun d e' => argWp m c (ix2 e' d)) (fun e' => argBp m c (ix1 e')) e
  rw [hQ, hK, hV, hW, hβ]

end Cert.KAll

end
-- ==== Proof.KArr1.lean ====
/-
  From blocks to the array, second region. Grid point (b, qi) overwrites one block of 256 rows of batch b of the
  [4, 2048, 1024] output with the body's value of the five blocks it loaded: rows 256·qi … 256·qi + 255 of the
  query columns of the projected array [4, 2048, 3072] (columns 0 … 1023), all 2048 rows of its key columns
  (1024 … 2047) and of its value columns (2048 … 3071), the whole output weights and the whole bias row. With the
  body's value at (0, r, e) being the attention row of query row r against those key and value rows, projected,
  point (b, qi)'s block is the restriction of ONE function of the whole arrays,

      out[b, s, e] = attnRow (q[b, s, 0·1024 + ·]) (q[b, ·, 1·1024 + ·]) (q[b, ·, 2·1024 + ·]) w β e,

  and position s of batch b lies in the block of the point with coordinates (b, s / 256), so the blocks cover the
  array and the array ends at that function.
-/
import proofs.«166784_j42649025249604_2_alg».proof.Proof.FrameR1
import proofs.«166784_j42649025249604_2_alg».proof.Proof.Spec
import Idealize.ShloMosaic.Lib.Pipeline.Value
import Idealize.ShloMosaic.Lib.ValueIdx

set_option maxRecDepth 16384

noncomputable section

namespace Cert.KArr

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Entry (b, s, e) of the attention output: the query row of position (b, s) against the key and value rows of
    batch b, all read off the projected array q, then the projection w and the bias β. -/
def G1 (q : S4x2048x3072.Idx → EReal) (w : S1024x1024.Idx → EReal) (β : S1x1024.Idx → EReal)
    (b : Fin 4) (s : Fin 2048) (e : Fin 1024) : EReal :=
  Cert.Spec.attnRow (fun c' => q (ix3 b s (Cert.Spec.col3 0 c'))) (fun k c' => q (ix3 b k (Cert.Spec.col3 1 c')))
    (fun k c' => q (ix3 b k (Cert.Spec.col3 2 c'))) (fun d e' => w (ix2 d e')) (fun e' => β (ix2 0 e')) e

/-- The attention output as an array. -/
def A1 (q : S4x2048x3072.Idx → EReal) (w : S1024x1024.Idx → EReal) (β : S1x1024.Idx → EReal) : S4x2048x1024.Idx → EReal :=
  fun i => G1 q w β (i 0) (i 1) (i 2)

/-- The body's value at an index of its block, as a hypothesis. -/
abbrev Body1 : Prop := ∀ (v0 : Vec Ideal S1x256x1024 .bf16) (v2 v4 : Vec Ideal S1x2048x1024 .bf16)
    (v295 : Vec Ideal S1024x1024 .bf16) (v299 : Vec Ideal S1x1024 .f32) (r : Fin 256) (e : Fin 1024),
  body1 (F := Ideal) v0 v2 v4 v295 v299 (ix3 0 r e)
    = Cert.Spec.attnRow (fun c => v0 (ix3 0 r c)) (fun k c => v2 (ix3 0 k c)) (fun k c => v4 (ix3 0 k c))
        (fun d e' => v295 (ix2 d e')) (fun e' => v299 (ix2 0 e')) e

/-- One entry of one point's block: when the loaded blocks are rows qi·256 … of batch b's query columns, all of its key
    rows, all of its value rows, all of w and all of β, the body's value at y is the attention output at the index y
    sits at. -/
theorem point_eq1 (hbody : Body1) (q : S4x2048x3072.Idx → EReal) (w : S1024x1024.Idx → EReal) (β : S1x1024.Idx → EReal)
    (v0 : Vec Ideal S1x256x1024 .bf16) (v2 v4 : Vec Ideal S1x2048x1024 .bf16) (v295 : Vec Ideal S1024x1024 .bf16)
    (v299 : Vec Ideal S1x1024 .f32) (b : Fin 4) (qi : Nat) (y : S1x256x1024.Idx) (i : S4x2048x1024.Idx)
    (h0 : ∀ (r : Fin 256) (cc : Fin 1024) (s : Fin 2048), s.val = qi * 256 + r.val →
      v0 (ix3 0 r cc) = q (ix3 b s (Cert.Spec.col3 0 cc)))
    (h2 : ∀ (k : Fin 2048) (cc : Fin 1024), v2 (ix3 0 k cc) = q (ix3 b k (Cert.Spec.col3 1 cc)))
    (h4 : ∀ (k : Fin 2048) (cc : Fin 1024), v4 (ix3 0 k cc) = q (ix3 b k (Cert.Spec.col3 2 cc)))
    (h3 : ∀ (d e : Fin 1024), v295 (ix2 d e) = w (ix2 d e))
    (h5 : ∀ e : Fin 1024, v299 (ix2 0 e) = β (ix2 0 e))
    (hi0 : (i 0).val = b.val) (hi1 : (i 1).val = qi * 256 + (y 1).val) (hi2 : (i 2).val = (y 2).val) :
    body1 (F := Ideal) v0 v2 v4 v295 v299 y = A1 q w β i := by
  obtain ⟨u, r, e, rfl⟩ : ∃ (u : Fin 1) (r : Fin 256) (e : Fin 1024), y = ix3 u r e := ⟨y 0, y 1, y 2, eq_ix3 y⟩
  obtain rfl : u = 0 := Subsingleton.elim _ _
  rw [hbody]
  unfold A1 G1
  have e0 : (i 0 : Fin 4) = b := Fin.ext hi0
  have e2 : (i 2 : Fin 1024) = e := Fin.ext hi2
  rw [e0, e2]
  have hQ : (fun c => v0 (ix3 0 r c)) = fun c' => q (ix3 b (i 1) (Cert.Spec.col3 0 c')) :=
    funext fun cc => h0 r cc (i 1) hi1
  have hK : (fun k c => v2 (ix3 0 k c)) = fun k c' => q (ix3 b k (Cert.Spec.col3 1 c')) :=
    funext fun k => funext fun cc => h2 k cc
  have hV : (fun k c => v4 (ix3 0 k c)) = fun k c' => q (ix3 b k (Cert.Spec.col3 2 c')) :=
    funext fun k => funext fun cc => h4 k cc
  have hW : (fun d e' => v295 (ix2 d e')) = fun d e' => w (ix2 d e') :=
    funext fun d => funext fun e' => h3 d e'
  have hβ : (fun e' => v299 (ix2 0 e')) = fun e' => β (ix2 0 e') := funext fun e' => h5 e'
  rw [hQ, hK, hV, hW, hβ]

section Blocks

variable (V : (c : Dev nD) → (b : Ref sig .tc) → Buf (Elt Ideal) ((c : Thread nD τ).loc b))

/-- The printed index maps, decided over the grid. Point t has coordinates (t / 8, t % 8): the query block and the
    output block sit at (t / 8, t % 8, 0), the key block at (t / 8, 0, 1), the value block at (t / 8, 0, 2), the
    weights and the bias at block 0. -/
theorem idx_facts1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 1
    ∧ win1_2.index t (0 : Fin 3) = t.val / 8 ∧ win1_2.index t (1 : Fin 3) = 0 ∧ win1_2.index t (2 : Fin 3) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0 :=
  (by decide +kernel : ∀ t : Fin grid1.N, _)

/-- WHAT POINT `t` WRITES BACK is block `t` of the attention output of the arrays as the region finds them. -/
theorem flushed_eq1 (hbody : Body1) (c : Dev nD) (t : Fin cfg1.N) :
    (dat1 (F := Ideal) V c).flushed 5 t
      = ((cfg1.win 5).blk t).view.read (Elt Ideal) (A1 (V c main_v11) (V c main_v7) (V c main_v12)) := by
  show (cfg1.win 5).cut (grid1.coords t) ((dat1 (F := Ideal) V c).after 5 t) = _
  rw [after1_5]
  unfold out1_5
  rw [View.canon_unit_zero hz3]
  simp only [View.ld_unit_zero (S := S1x256x1024) hz3, View.ld_unit_zero (S := S1x2048x1024) hz3,
    View.ld_unit_zero (S := S1024x1024) hz2, View.ld_unit_zero (S := S1x1024) hz2]
  have hN : grid1.N = 32 := Gen.N_1
  have htN : t.val < 32 := by have h : t.val < grid1.N := t.isLt; omega
  obtain ⟨f00, f01, f02, f10, f11, f12, f20, f21, f22, f30, f31, f40, f41, f50, f51, f52⟩ := idx_facts1 t
  funext j
  show body1 (F := Ideal) (iblk1 V c 0 t) (iblk1 V c 1 t) (iblk1 V c 2 t) (iblk1 V c 3 t) (iblk1 V c 4 t) j
    = A1 (V c main_v11) (V c main_v7) (V c main_v12) (((cfg1.win 5).blk t).view.emb j)
  refine point_eq1 hbody (V c main_v11) (V c main_v7) (V c main_v12)
    (iblk1 V c 0 t) (iblk1 V c 1 t) (iblk1 V c 2 t) (iblk1 V c 3 t) (iblk1 V c 4 t)
    (⟨t.val / 8, by omega⟩ : Fin 4) (t.val % 8) j (((cfg1.win 5).blk t).view.emb j) ?_ ?_ ?_ ?_ ?_ ?_ ?_ ?_
  · intro r cc s hs
    show V c main_v11 (((cfg1.win 0).blk t).view.emb (ix3 0 r cc)) = V c main_v11 (ix3 _ s (Cert.Spec.col3 0 cc))
    refine congrArg (V c main_v11) (funext fun a => Fin.ext ?_)
    match a with
    | ⟨0, _⟩ => show win1_0.index t (0 : Fin 3) * 1 + 1 * 0 = t.val / 8; omega
    | ⟨1, _⟩ => show win1_0.index t (1 : Fin 3) * 256 + 1 * r.val = s.val; omega
    | ⟨2, _⟩ => show win1_0.index t (2 : Fin 3) * 1024 + 1 * cc.val = 0 * 1024 + cc.val; omega
  · intro k cc
    show V c main_v11 (((cfg1.win 1).blk t).view.emb (ix3 0 k cc)) = V c main_v11 (ix3 _ k (Cert.Spec.col3 1 cc))
    refine congrArg (V c main_v11) (funext fun a => Fin.ext ?_)
    match a with
    | ⟨0, _⟩ => show win1_1.index t (0 : Fin 3) * 1 + 1 * 0 = t.val / 8; omega
    | ⟨1, _⟩ => show win1_1.index t (1 : Fin 3) * 2048 + 1 * k.val = k.val; omega
    | ⟨2, _⟩ => show win1_1.index t (2 : Fin 3) * 1024 + 1 * cc.val = 1 * 1024 + cc.val; omega
  · intro k cc
    show V c main_v11 (((cfg1.win 2).blk t).view.emb (ix3 0 k cc)) = V c main_v11 (ix3 _ k (Cert.Spec.col3 2 cc))
    refine congrArg (V c main_v11) (funext fun a => Fin.ext ?_)
    match a with
    | ⟨0, _⟩ => show win1_2.index t (0 : Fin 3) * 1 + 1 * 0 = t.val / 8; omega
    | ⟨1, _⟩ => show win1_2.index t (1 : Fin 3) * 2048 + 1 * k.val = k.val; omega
    | ⟨2, _⟩ => show win1_2.index t (2 : Fin 3) * 1024 + 1 * cc.val = 2 * 1024 + cc.val; omega
  · intro d e
    show V c main_v7 (((cfg1.win 3).blk t).view.emb (ix2 d e)) = V c main_v7 (ix2 d e)
    refine congrArg (V c main_v7) (funext fun a => Fin.ext ?_)
    match a with
    | ⟨0, _⟩ => show win1_3.index t (0 : Fin 2) * 1024 + 1 * d.val = d.val; omega
    | ⟨1, _⟩ => show win1_3.index t (1 : Fin 2) * 1024 + 1 * e.val = e.val; omega
  · intro e
    show V c main_v12 (((cfg1.win 4).blk t).view.emb (ix2 0 e)) = V c main_v12 (ix2 0 e)
    refine congrArg (V c main_v12) (funext fun a => Fin.ext ?_)
    match a with
    | ⟨0, _⟩ => show win1_4.index t (0 : Fin 2) * 1 + 1 * 0 = 0; omega
    | ⟨1, _⟩ => show win1_4.index t (1 : Fin 2) * 1024 + 1 * e.val = e.val; omega
  · show win1_5.index t (0 : Fin 3) * 1 + 1 * (j 0).val = t.val / 8
    have hj0 : (j 0).val < 1 := (j 0).isLt
    omega
  · show win1_5.index t (1 : Fin 3) * 256 + 1 * (j 1).val = t.val % 8 * 256 + (j 1).val; omega
  · show win1_5.index t (2 : Fin 3) * 1024 + 1 * (j 2).val = (j 2).val; omega

/-- An index of the array is in point `t`'s block iff each coordinate is in the block's range on its axis. -/
theorem mem_blk1 (t : Fin cfg1.N) (i : S4x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v13).slice (win1_5.rect t)).set ↔ _
  rw [View.set_slice_whole, Rect.mem_set_unit]
  exact Iff.rfl

/-- Position s of batch b is in the block of the point with coordinates (b, s / 256). -/
theorem cover1 (i : S4x2048x1024.Idx) : ∃ t : Fin cfg1.N, (cfg1.win 5).flush t = true ∧ i ∈ ((cfg1.win 5).blk t).view.set := by
  have hN : grid1.N = 32 := Gen.N_1
  have hi0 : (i 0).val < 4 := (i 0).isLt
  have hi1 : (i 1).val < 2048 := (i 1).isLt
  have hi2 : (i 2).val < 1024 := (i 2).isLt
  have ht : (i 0).val * 8 + (i 1).val / 256 < cfg1.N := by show _ < grid1.N; omega
  refine ⟨⟨(i 0).val * 8 + (i 1).val / 256, ht⟩, flush1_5 _, ?_⟩
  obtain ⟨-, -, -, -, -, -, -, -, -, -, -, -, -, f50, f51, f52⟩ := idx_facts1 ⟨(i 0).val * 8 + (i 1).val / 256, ht⟩
  have f50' : win1_5.index ⟨(i 0).val * 8 + (i 1).val / 256, ht⟩ (0 : Fin 3) = ((i 0).val * 8 + (i 1).val / 256) / 8 := f50
  have f51' : win1_5.index ⟨(i 0).val * 8 + (i 1).val / 256, ht⟩ (1 : Fin 3) = ((i 0).val * 8 + (i 1).val / 256) % 8 := f51
  rw [mem_blk1]
  intro a
  match a with
  | ⟨0, _⟩ => show win1_5.index ⟨(i 0).val * 8 + (i 1).val / 256, ht⟩ (0 : Fin 3) * 1 ≤ (i 0).val ∧ (i 0).val < win1_5.index ⟨(i 0).val * 8 + (i 1).val / 256, ht⟩ (0 : Fin 3) * 1 + 1; omega
  | ⟨1, _⟩ => show win1_5.index ⟨(i 0).val * 8 + (i 1).val / 256, ht⟩ (1 : Fin 3) * 256 ≤ (i 1).val ∧ (i 1).val < win1_5.index ⟨(i 0).val * 8 + (i 1).val / 256, ht⟩ (1 : Fin 3) * 256 + 256; omega
  | ⟨2, _⟩ => show win1_5.index ⟨(i 0).val * 8 + (i 1).val / 256, ht⟩ (2 : Fin 3) * 1024 ≤ (i 2).val ∧ (i 2).val < win1_5.index ⟨(i 0).val * 8 + (i 1).val / 256, ht⟩ (2 : Fin 3) * 1024 + 1024; omega

/-- THE ARRAY after the second region: the attention output of the arrays as the region finds them. -/
theorem final1_A (hbody : Body1) (c : Dev nD) :
    (dat1 (F := Ideal) V c).arrAt 5 cfg1.N = A1 (V c main_v11) (V c main_v7) (V c main_v12) :=
  (dat1 (F := Ideal) V c).arrAt_eq_of_cover 5 (A1 (V c main_v11) (V c main_v7) (V c main_v12))
    (fun t _ => flushed_eq1 V hbody c t) cover1

/-- The same with the array's entries written out. -/
theorem final1 (hbody : Body1) (c : Dev nD) :
    (dat1 (F := Ideal) V c).arrAt 5 cfg1.N = fun i : S4x2048x1024.Idx =>
      Cert.Spec.attnRow (fun c' => (V c main_v11 : S4x2048x3072.Idx → EReal) (ix3 (i 0) (i 1) (Cert.Spec.col3 0 c')))
        (fun k c' => (V c main_v11 : S4x2048x3072.Idx → EReal) (ix3 (i 0) k (Cert.Spec.col3 1 c')))
        (fun k c' => (V c main_v11 : S4x2048x3072.Idx → EReal) (ix3 (i 0) k (Cert.Spec.col3 2 c')))
        (fun d e => (V c main_v7 : S1024x1024.Idx → EReal) (ix2 d e))
        (fun e => (V c main_v12 : S1x1024.Idx → EReal) (ix2 0 e)) (i 2) :=
  final1_A V hbody c

end Blocks

end Cert.KArr

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.KHost.lean ====
/-
  The kernel program's host operations, read at an index over the extended reals.

  Before the first kernel region the program folds the adapter into the projection weights
  (W + (1/8)·(B·A), transposed), transposes the output weights, flattens the input's batch and position
  axes into one row axis, and turns the two biases into one-row matrices. Between the regions it splits the
  row axis of the projected array back into batch and position. Each lemma says what one of these arrays
  holds at an index, in terms of the program's arguments.
-/
import proofs.«166784_j42649025249604_2_alg».proof.Proof.Gen.KernelIdeal.Launch
import proofs.«166784_j42649025249604_2_alg».proof.Proof.Gen.KernelIdeal.Regions
import proofs.«166784_j42649025249604_2_alg».proof.Proof.Spec
import proofs.«166784_j42649025249604_2_alg».proof.Proof.LibDotSum
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KHost

open Cert.KernelIdeal Cert.KernelIdeal.Gen Idealize.ShloMosaic Idealize.ShloMosaic.ValueIdx Idealize.ShloMosaic.TcCoe

variable (W : Valuation τ sig (Elt Ideal))

/-! ## The reshapes: same row-major position -/

/-- The flattened input: row `bs` of the [8192, 1024] array is position `bs % 2048` of batch `bs / 2048`. -/
theorem v8_apply (bs : Fin 8192) (d : Fin 1024) :
    (StableHlo.after (hostOps0 (F := Ideal)) W main_v8 : S8192x1024.Idx → EReal) (ix2 bs d)
      = (W main_arg0 : S4x2048x1024.Idx → EReal)
          (ix3 (⟨bs.val / 2048, by omega⟩ : Fin 4) (⟨bs.val % 2048, by omega⟩ : Fin 2048) d) := by
  have e : (StableHlo.after (hostOps0 (F := Ideal)) W (Proc.devRef .tc main_v8) : S8192x1024.Idx → EReal)
      = shapeCast S8192x1024 (W (Proc.devRef .tc main_arg0) : S4x2048x1024.Idx → EReal)
          shapeCasts_S4x2048x1024_S8192x1024 := by
    dsimp only [hostOps0]; after_results; rfl
  refine (congrFun e _).trans ?_
  refine shapeCast_apply _ _ _ _ ?_
  show ((⟨3, ![4, 2048, 1024]⟩ : Shape).rowMajor _).val = ((⟨2, ![8192, 1024]⟩ : Shape).rowMajor _).val
  rw [Shape.rowMajor_val_three, Shape.rowMajor_val_two]
  show (bs.val / 2048 * 2048 + bs.val % 2048) * 1024 + d.val = bs.val * 1024 + d.val
  omega

/-- The projection bias as a one-row matrix. -/
theorem v9_apply (e : Fin 3072) :
    (StableHlo.after (hostOps0 (F := Ideal)) W main_v9 : S1x3072.Idx → EReal) (ix2 (0 : Fin 1) e)
      = (W main_arg4 : S3072.Idx → EReal) (ix1 e) := by
  have h : (StableHlo.after (hostOps0 (F := Ideal)) W (Proc.devRef .tc main_v9) : S1x3072.Idx → EReal)
      = shapeCast S1x3072 (W (Proc.devRef .tc main_arg4) : S3072.Idx → EReal) shapeCasts_S3072_S1x3072 := by
    dsimp only [hostOps0]; after_results; rfl
  refine (congrFun h _).trans ?_
  exact shapeCast_a_1a_apply _ _ _ _

/-- The projected array split back into batch and position: (b, s) is row `b·2048 + s`. -/
theorem v11_apply (b : Fin 4) (s : Fin 2048) (e : Fin 3072) :
    (StableHlo.after (hostOps1 (F := Ideal)) W main_v11 : S4x2048x3072.Idx → EReal) (ix3 b s e)
      = (W main_v10 : S8192x3072.Idx → EReal) (ix2 (⟨b.val * 2048 + s.val, by omega⟩ : Fin 8192) e) := by
  have h : (StableHlo.after (hostOps1 (F := Ideal)) W (Proc.devRef .tc main_v11) : S4x2048x3072.Idx → EReal)
      = shapeCast S4x2048x3072 (W (Proc.devRef .tc main_v10) : S8192x3072.Idx → EReal)
          shapeCasts_S8192x3072_S4x2048x3072 := by
    dsimp only [hostOps1]; after_results; rfl
  refine (congrFun h _).trans ?_
  refine shapeCast_apply _ _ _ _ ?_
  show ((⟨2, ![8192, 3072]⟩ : Shape).rowMajor _).val = ((⟨3, ![4, 2048, 3072]⟩ : Shape).rowMajor _).val
  rw [Shape.rowMajor_val_three, Shape.rowMajor_val_two]
  show (b.val * 2048 + s.val) * 3072 + e.val = (b.val * 2048 + s.val) * 3072 + e.val
  rfl

/-- The output bias as a one-row matrix. -/
theorem v12_apply (e : Fin 1024) :
    (StableHlo.after (hostOps1 (F := Ideal)) W main_v12 : S1x1024.Idx → EReal) (ix2 (0 : Fin 1) e)
      = (W main_arg6 : S1024.Idx → EReal) (ix1 e) := by
  have h : (StableHlo.after (hostOps1 (F := Ideal)) W (Proc.devRef .tc main_v12) : S1x1024.Idx → EReal)
      = shapeCast S1x1024 (W (Proc.devRef .tc main_arg6) : S1024.Idx → EReal) shapeCasts_S1024_S1x1024 := by
    dsimp only [hostOps1]; after_results; rfl
  refine (congrFun h _).trans ?_
  exact shapeCast_a_1a_apply _ _ _ _

/-! ## The transposed output weights -/

/-- The output weights transposed (the narrowing is the identity over the extended reals). -/
theorem v7_apply (d e : Fin 1024) :
    (StableHlo.after (hostOps0 (F := Ideal)) W main_v7 : S1024x1024.Idx → EReal) (ix2 d e)
      = (W main_arg5 : S1024x1024.Idx → EReal) (ix2 e d) := by
  have h : (StableHlo.after (hostOps0 (F := Ideal)) W (Proc.devRef .tc main_v7) : S1024x1024.Idx → EReal)
      = truncf .bf16 (transpose S1024x1024 [1, 0] (W (Proc.devRef .tc main_arg5) : S1024x1024.Idx → EReal)
          transposes_S1024x1024_S1024x1024_1_0 : FVec Ideal S1024x1024 .f32) bitsLt_bf16_f32 := by
    dsimp only [hostOps0]; after_results
  refine (congrFun h _).trans ?_
  refine (truncf_apply (φ := .f32) (ψ := .bf16) _ bitsLt_bf16_f32 _).trans ?_
  exact transpose_ix2_apply _ _ _ _

/-! ## The folded weights -/

/-- The host product B·A at (e, d): the sum over the adapter's rank. -/
theorem dot_apply (A : S8x1024.Idx → EReal) (B : S3072x8.Idx → EReal) (e : Fin 3072) (d : Fin 1024) :
    (Host.dotGeneral (F := Ideal) (φ₁ := .f32) (φ₂ := .f32) dot_S3072x8_S8x1024_S3072x1024_1_0_0_1_n_n (some .fp32)
        B A : S3072x1024.Idx → EReal) (ix2 e d)
      = ∑ r : Fin 8, B (ix2 e r) * A (ix2 r d) := by
  simp only [Host.dotGeneral]
  refine (Ideal.dotGeneral_apply _ _ _ _ _ _).trans ?_
  exact Cert.LibDotSum.sum_contr_eq_sum_fin dot_S3072x8_S8x1024_S3072x1024_1_0_0_1_n_n rfl rfl
    (fun _ _ => rfl) (fun _ _ => rfl) (fun _ _ => rfl) (fun _ _ => rfl) B A (ix2 e d)

/-- The folded, transposed weights: (d, e) holds W(e, d) + (1/8)·Σ_r B(e, r)·A(r, d). -/
theorem v5_apply (d : Fin 1024) (e : Fin 3072) :
    (StableHlo.after (hostOps0 (F := Ideal)) W main_v5 : S1024x3072.Idx → EReal) (ix2 d e)
      = Cert.Spec.weff (W main_arg1 : S8x1024.Idx → EReal) (W main_arg2 : S3072x8.Idx → EReal)
          (W main_arg3 : S3072x1024.Idx → EReal) e d := by
  have h : (StableHlo.after (hostOps0 (F := Ideal)) W (Proc.devRef .tc main_v5) : S1024x3072.Idx → EReal)
      = truncf .bf16
          (transpose S1024x3072 [1, 0]
            (addf (W (Proc.devRef .tc main_arg3) : FVec Ideal S3072x1024 .f32)
              (mulf (broadcastInDim S3072x1024 ![] bcast_S_S3072x1024 (constant (F := Ideal) S_ .f32 0x3E000000#32))
                (Host.dotGeneral (φ₁ := .f32) (φ₂ := .f32) dot_S3072x8_S8x1024_S3072x1024_1_0_0_1_n_n (some .fp32)
                  (W (Proc.devRef .tc main_arg2)) (W (Proc.devRef .tc main_arg1)))))
            transposes_S3072x1024_S1024x3072_1_0 : FVec Ideal S1024x3072 .f32)
          bitsLt_bf16_f32 := by
    dsimp only [hostOps0]; after_results
  refine (congrFun h _).trans ?_
  refine (truncf_apply (φ := .f32) (ψ := .bf16) _ bitsLt_bf16_f32 _).trans ?_
  refine (transpose_ix2_apply _ _ _ _).trans ?_
  refine (addf_apply _ _ _).trans ?_
  unfold Cert.Spec.weff
  refine congrArg _ ?_
  refine (mulf_apply _ _ _).trans ?_
  refine congrArg₂ _ ?_ (dot_apply _ _ e d)
  refine (broadcastInDim_apply _ _ _ _ ValueIdx.ix0 (fun a => a.elim0)).trans ?_
  rfl

/-! ## What the second stretch leaves alone -/

/-- The reshapes between the regions write only their own results. -/
theorem hostOps1_kept (r : Ref sig .tc) (hr : r ∉ hostOps1_W) :
    StableHlo.after (hostOps1 (F := Ideal)) W r = W r :=
  StableHlo.after_of_writes_sub hostOps1 _ hostOps1_writes hr

/-- In particular the transposed output weights stay. -/
theorem hostOps1_v7 : StableHlo.after (hostOps1 (F := Ideal)) W main_v7 = W main_v7 :=
  hostOps1_kept W main_v7 (by decide)

end Cert.KHost

end
-- ==== Proof.KDot.lean ====
/-
  The kernels' matrix products read at an index.

  Every matrix product of the two kernels is a plain product of an M × K array with a K × N array into a zero
  accumulator, contracting the left operand's second axis against the right operand's first. At the output
  index (p, q) it is the sum over k of l (p, k) * r (k, q).
-/
import proofs.«166784_j42649025249604_2_alg».proof.Proof.KBodyDef
import proofs.«166784_j42649025249604_2_alg».proof.Proof.LibDotSum
import Idealize.ShloMosaic.Lib.ValueIdx
import Idealize.ShloMosaic.PureOps.Ideal.Laws

noncomputable section

namespace Cert.KValue

open Cert.KernelIdeal Cert.KernelIdeal.Gen Idealize.ShloMosaic Idealize.ShloMosaic.ValueIdx

/-- A plain matrix product into the zero accumulator at (p, q): the sum over the contracted axis. The coordinate
    facts of the dimension record are hypotheses. -/
theorem matmul_zero_ix2 {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    {φ₁ φ₂ : FTy} (l : FVec Ideal (⟨2, ![M, K]⟩ : Shape) φ₁) (r : FVec Ideal (⟨2, ![K, N]⟩ : Shape) φ₂)
    (p : Fin M) (q : Fin N) :
    matmul (F := Ideal) d none l r (constant (⟨2, ![M, N]⟩ : Shape) .f32 0x00000000#32) (ix2 p q)
      = ∑ k : Fin K, l (ix2 p k) * r (ix2 k q) :=
  (Ideal.matmul_constant_zero_apply d none l r (ix2 p q)).trans
    (Cert.LibDotSum.sum_contr_eq_sum_fin d hrank hsize hl0 hl1 hr0 hr1 l r (ix2 p q))

variable [Cert.KernelIdeal.Facts]

/-- The first kernel's product: [512, 1024] × [1024, 3072]. -/
theorem matmul_proj_apply {φ₁ φ₂ : FTy} (l : FVec Ideal S512x1024 φ₁) (r : FVec Ideal S1024x3072 φ₂)
    (p : Fin 512) (q : Fin 3072) :
    matmul (F := Ideal) dot_S512x1024_S1024x3072_S512x3072_1_0_0_1_n_n none l r
        (constant S512x3072 .f32 0x00000000#32) (ix2 p q)
      = ∑ k : Fin 1024, l (ix2 p k) * r (ix2 k q) :=
  matmul_zero_ix2 dot_S512x1024_S1024x3072_S512x3072_1_0_0_1_n_n rfl rfl
    (fun j k => by
      unfold DotDims.lhsIdx
      rw [dif_neg (show ¬(0 : Fin S512x1024.rank) ∈ dot_S512x1024_S1024x3072_S512x3072_1_0_0_1_n_n.lhsBatch by decide),
        dif_pos (show (0 : Fin S512x1024.rank) ∈ dot_S512x1024_S1024x3072_S512x3072_1_0_0_1_n_n.lhsNonContracting by decide)]
      rfl)
    (fun j k => dot_S512x1024_S1024x3072_S512x3072_1_0_0_1_n_n.lhsIdx_val_of_single rfl j k)
    (fun j k => dot_S512x1024_S1024x3072_S512x3072_1_0_0_1_n_n.rhsIdx_val_of_single rfl j k)
    (fun j k => by
      unfold DotDims.rhsIdx
      rw [dif_neg (show ¬(1 : Fin S1024x3072.rank) ∈ dot_S512x1024_S1024x3072_S512x3072_1_0_0_1_n_n.rhsBatch by decide),
        dif_pos (show (1 : Fin S1024x3072.rank) ∈ dot_S512x1024_S1024x3072_S512x3072_1_0_0_1_n_n.rhsNonContracting by decide)]
      rfl)
    l r p q

/-- A head's scores: [256, 64] × [64, 2048]. -/
theorem matmul_scores_apply {φ₁ φ₂ : FTy} (l : FVec Ideal S256x64 φ₁) (r : FVec Ideal S64x2048 φ₂)
    (p : Fin 256) (q : Fin 2048) :
    matmul (F := Ideal) dot_S256x64_S64x2048_S256x2048_1_0_0_1_n_n none l r
        (constant S256x2048 .f32 0x00000000#32) (ix2 p q)
      = ∑ k : Fin 64, l (ix2 p k) * r (ix2 k q) :=
  matmul_zero_ix2 dot_S256x64_S64x2048_S256x2048_1_0_0_1_n_n rfl rfl
    (fun j k => by
      unfold DotDims.lhsIdx
      rw [dif_neg (show ¬(0 : Fin S256x64.rank) ∈ dot_S256x64_S64x2048_S256x2048_1_0_0_1_n_n.lhsBatch by decide),
        dif_pos (show (0 : Fin S256x64.rank) ∈ dot_S256x64_S64x2048_S256x2048_1_0_0_1_n_n.lhsNonContracting by decide)]
      rfl)
    (fun j k => dot_S256x64_S64x2048_S256x2048_1_0_0_1_n_n.lhsIdx_val_of_single rfl j k)
    (fun j k => dot_S256x64_S64x2048_S256x2048_1_0_0_1_n_n.rhsIdx_val_of_single rfl j k)
    (fun j k => by
      unfold DotDims.rhsIdx
      rw [dif_neg (show ¬(1 : Fin S64x2048.rank) ∈ dot_S256x64_S64x2048_S256x2048_1_0_0_1_n_n.rhsBatch by decide),
        dif_pos (show (1 : Fin S64x2048.rank) ∈ dot_S256x64_S64x2048_S256x2048_1_0_0_1_n_n.rhsNonContracting by decide)]
      rfl)
    l r p q

/-- A head's weighted values: [256, 2048] × [2048, 64]. -/
theorem matmul_ctx_apply {φ₁ φ₂ : FTy} (l : FVec Ideal S256x2048 φ₁) (r : FVec Ideal S2048x64 φ₂)
    (p : Fin 256) (q : Fin 64) :
    matmul (F := Ideal) dot_S256x2048_S2048x64_S256x64_1_0_0_1_n_n none l r
        (constant S256x64 .f32 0x00000000#32) (ix2 p q)
      = ∑ k : Fin 2048, l (ix2 p k) * r (ix2 k q) :=
  matmul_zero_ix2 dot_S256x2048_S2048x64_S256x64_1_0_0_1_n_n rfl rfl
    (fun j k => by
      unfold DotDims.lhsIdx
      rw [dif_neg (show ¬(0 : Fin S256x2048.rank) ∈ dot_S256x2048_S2048x64_S256x64_1_0_0_1_n_n.lhsBatch by decide),
        dif_pos (show (0 : Fin S256x2048.rank) ∈ dot_S256x2048_S2048x64_S256x64_1_0_0_1_n_n.lhsNonContracting by decide)]
      rfl)
    (fun j k => dot_S256x2048_S2048x64_S256x64_1_0_0_1_n_n.lhsIdx_val_of_single rfl j k)
    (fun j k => dot_S256x2048_S2048x64_S256x64_1_0_0_1_n_n.rhsIdx_val_of_single rfl j k)
    (fun j k => by
      unfold DotDims.rhsIdx
      rw [dif_neg (show ¬(1 : Fin S2048x64.rank) ∈ dot_S256x2048_S2048x64_S256x64_1_0_0_1_n_n.rhsBatch by decide),
        dif_pos (show (1 : Fin S2048x64.rank) ∈ dot_S256x2048_S2048x64_S256x64_1_0_0_1_n_n.rhsNonContracting by decide)]
      rfl)
    l r p q

/-- The output projection: [256, 1024] × [1024, 1024]. -/
theorem matmul_out_apply {φ₁ φ₂ : FTy} (l : FVec Ideal S256x1024 φ₁) (r : FVec Ideal S1024x1024 φ₂)
    (p : Fin 256) (q : Fin 1024) :
    matmul (F := Ideal) dot_S256x1024_S1024x1024_S256x1024_1_0_0_1_n_n none l r
        (constant S256x1024 .f32 0x00000000#32) (ix2 p q)
      = ∑ k : Fin 1024, l (ix2 p k) * r (ix2 k q) :=
  matmul_zero_ix2 dot_S256x1024_S1024x1024_S256x1024_1_0_0_1_n_n rfl rfl
    (fun j k => by
      unfold DotDims.lhsIdx
      rw [dif_neg (show ¬(0 : Fin S256x1024.rank) ∈ dot_S256x1024_S1024x1024_S256x1024_1_0_0_1_n_n.lhsBatch by decide),
        dif_pos (show (0 : Fin S256x1024.rank) ∈ dot_S256x1024_S1024x1024_S256x1024_1_0_0_1_n_n.lhsNonContracting by decide)]
      rfl)
    (fun j k => dot_S256x1024_S1024x1024_S256x1024_1_0_0_1_n_n.lhsIdx_val_of_single rfl j k)
    (fun j k => dot_S256x1024_S1024x1024_S256x1024_1_0_0_1_n_n.rhsIdx_val_of_single rfl j k)
    (fun j k => by
      unfold DotDims.rhsIdx
      rw [dif_neg (show ¬(1 : Fin S1024x1024.rank) ∈ dot_S256x1024_S1024x1024_S256x1024_1_0_0_1_n_n.rhsBatch by decide),
        dif_pos (show (1 : Fin S1024x1024.rank) ∈ dot_S256x1024_S1024x1024_S256x1024_1_0_0_1_n_n.rhsNonContracting by decide)]
      rfl)
    l r p q

end Cert.KValue

end
-- ==== Proof.KBody0.lean ====
/-
  The first kernel's body read at an index: row r of the activation block against column e of the folded
  weight block, plus the bias at e.
-/
import proofs.«166784_j42649025249604_2_alg».proof.Proof.KDot
import Idealize.ShloMosaic.Lib.Pipeline.Value
import Idealize.ShloMosaic.Lib.ValueLayout

noncomputable section

namespace Cert.KValue

open Cert.KernelIdeal Cert.KernelIdeal.Gen Idealize.ShloMosaic Idealize.ShloMosaic.ValueIdx

variable [Cert.KernelIdeal.Facts]

/-- The value the first kernel stores at (r, e): the sum over the 1024 features of the activation at (r, d) times
    the weight at (d, e), plus the bias at (0, e). The casts between equal shapes and the narrowing casts are the
    identity at the ideal values. -/
theorem pay0_apply (v0 : Vec Ideal S512x1024 .f32) (v3 : Vec Ideal S1024x3072 .bf16) (v6 : Vec Ideal S1x3072 .f32)
    (r : Fin 512) (e : Fin 3072) :
    k0_pay1 (F := Ideal) v0 v3 v6 (ix2 r e)
      = (∑ d : Fin 1024, v0 (ix2 r d) * v3 (ix2 d e)) + v6 (ix2 0 e) := by
  unfold k0_pay1
  simp only [shapeCast_self]
  show matmul (F := Ideal) dot_S512x1024_S1024x3072_S512x3072_1_0_0_1_n_n none _ _ _ (ix2 r e)
      + broadcastTo S512x3072 v6 _ (ix2 r e) = _
  rw [matmul_proj_apply, broadcastTo_1b_ab_apply]
  rfl

end Cert.KValue

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.KHead.lean ====
/-
  One attention head of the second kernel, stage by stage, read at an index.

  A head at column offset o takes the 64 columns from o of the query block (256 rows) and of the key and value
  blocks (2048 rows each). Its scores are the products of query rows with key rows, scaled by 1/8; each row's
  maximum is subtracted and the exponential taken; each row is divided by its sum; the result is multiplied into
  the value columns. Each stage is the printed arithmetic; the lemmas read it at a row and a column.
-/
import proofs.«166784_j42649025249604_2_alg».proof.Proof.KDot
import proofs.«166784_j42649025249604_2_alg».proof.Proof.Spec
import proofs.«166784_j42649025249604_2_alg».proof.Proof.LibKeepdims
import Idealize.ShloMosaic.Lib.Pipeline.Value
import Idealize.ShloMosaic.Lib.ValueLayout

noncomputable section

namespace Cert.KValue

open Cert.KernelIdeal Cert.KernelIdeal.Gen Idealize.ShloMosaic Idealize.ShloMosaic.ValueIdx

variable [Cert.KernelIdeal.Facts]

/-- The scaled scores of a head at column offset o: query columns against transposed key columns, times 1/8. -/
def scoresT (o : Nat) (hq : S256x1024.Slices ![0, o] S256x64) (hk : S2048x1024.Slices ![0, o] S2048x64)
    (q : FVec Ideal S256x1024 .bf16) (kk : FVec Ideal S2048x1024 .bf16) : FVec Ideal S256x2048 .f32 :=
  mulf (matmul dot_S256x64_S64x2048_S256x2048_1_0_0_1_n_n none (extractStridedSlice S256x64 ![0, o] q hq)
      (transpose S64x2048 [1, 0] (extractStridedSlice S2048x64 ![0, o] kk hk) transposes_S2048x64_p1_0_S64x2048)
      (constant S256x2048 .f32 0x00000000#32))
    (broadcast S256x2048 (Scalar.ofBits .f32 0x3E000000#32))

/-- The row maximum of the scores, as a vector over the rows. -/
def rowMaxT (s : FVec Ideal S256x2048 .f32) : FVec Ideal S256 .f32 :=
  multiReduction .maximumf [1] S256 s 0xFF800000#32 reduces_S256x2048_S256 (.inl rfl) rfl

/-- Scores less a per-row vector spread over the row, exponentiated. -/
def expSubT (s : FVec Ideal S256x2048 .f32) (m : FVec Ideal S256 .f32) : FVec Ideal S256x2048 .f32 :=
  exp (subf s (broadcastTo S256x2048 (shapeCast S256x1 m shapeCasts_S256_S256x1) broadcasts_S256x1_S256x2048))

/-- The exponentials of the scores less their row maximum. -/
def expT (s : FVec Ideal S256x2048 .f32) : FVec Ideal S256x2048 .f32 := expSubT s (rowMaxT s)

/-- Each row divided by its sum. -/
def probT (x : FVec Ideal S256x2048 .f32) : FVec Ideal S256x2048 .f32 :=
  divf x (broadcastTo S256x2048
    (shapeCast S256x1 (multiReduction .add [1] S256 x 0x00000000#32 reduces_S256x2048_S256 (.inl rfl) rfl)
      shapeCasts_S256_S256x1) broadcasts_S256x1_S256x2048)

/-- The weights, narrowed, multiplied into the value columns. -/
def outT (p : FVec Ideal S256x2048 .f32) (v : FVec Ideal S2048x64 .bf16) : FVec Ideal S256x64 .f32 :=
  matmul dot_S256x2048_S2048x64_S256x64_1_0_0_1_n_n none (truncf .bf16 p bitsLt_bf16_f32) v
    (constant S256x64 .f32 0x00000000#32)

/-- The whole head at column offset o. -/
def headT (o : Nat) (hq : S256x1024.Slices ![0, o] S256x64) (hk : S2048x1024.Slices ![0, o] S2048x64)
    (q : FVec Ideal S256x1024 .bf16) (kk vv : FVec Ideal S2048x1024 .bf16) : FVec Ideal S256x64 .f32 :=
  outT (probT (expT (scoresT o hq hk q kk))) (extractStridedSlice S2048x64 ![0, o] vv hk)

/-- The score of query row r against key row k: the sum over the head's 64 columns, times 1/8. The columns are
    given as a function c with c j = o + j. -/
theorem scoresT_apply (o : Nat) (hq : S256x1024.Slices ![0, o] S256x64) (hk : S2048x1024.Slices ![0, o] S2048x64)
    (q : FVec Ideal S256x1024 .bf16) (kk : FVec Ideal S2048x1024 .bf16)
    (c : Fin 64 → Fin 1024) (hc : ∀ j, (c j).val = o + j.val) (r : Fin 256) (k : Fin 2048) :
    scoresT o hq hk q kk (ix2 r k) = (∑ j : Fin 64, q (ix2 r (c j)) * kk (ix2 k (c j))) * Spec.c8 := by
  unfold scoresT
  show matmul (F := Ideal) dot_S256x64_S64x2048_S256x2048_1_0_0_1_n_n none _ _ _ (ix2 r k)
      * Ideal.ofBits .f32 0x3E000000#32 = _
  rw [matmul_scores_apply]
  refine congrArg (· * Ideal.ofBits .f32 0x3E000000#32) (Finset.sum_congr rfl fun j _ => ?_)
  rw [slice2_axis1_apply o q hq r j (c j) (hc j), transpose_ix2_apply,
    slice2_axis1_apply o kk hk k j (c j) (hc j)]

/-- The row maximum at row r: the fold of max from -∞ over the row. -/
theorem rowMaxT_apply (s : FVec Ideal S256x2048 .f32) (r : Fin 256) :
    rowMaxT s (ix1 r) = (Finset.univ : Finset (Fin 2048)).fold max Spec.ninf (fun k => s (ix2 r k)) := by
  unfold rowMaxT
  refine (Ideal.multiReduction_maximumf_single s _ reduces_S256x2048_S256 (.inl rfl) rfl (ix1 r)).trans ?_
  exact Finset.fold_congr fun k _ => congrArg s (Cert.LibKeepdims.lift_row reduces_S256x2048_S256 r k)

/-- The exponential stage at (r, k). -/
theorem expSubT_apply (s : FVec Ideal S256x2048 .f32) (m : FVec Ideal S256 .f32) (r : Fin 256) (k : Fin 2048) :
    expSubT s m (ix2 r k) = Ideal.exp (s (ix2 r k) - m (ix1 r)) := by
  unfold expSubT
  show Ideal.exp (s (ix2 r k) - broadcastTo S256x2048 _ broadcasts_S256x1_S256x2048 (ix2 r k)) = _
  rw [Cert.LibKeepdims.broadcastTo_a1_ab_apply, Cert.LibKeepdims.shapeCast_a_a1_apply]

theorem expT_apply (s : FVec Ideal S256x2048 .f32) (r : Fin 256) (k : Fin 2048) :
    expT s (ix2 r k)
      = Ideal.exp (s (ix2 r k) - (Finset.univ : Finset (Fin 2048)).fold max Spec.ninf (fun k' => s (ix2 r k'))) := by
  unfold expT
  rw [expSubT_apply, rowMaxT_apply]

/-- The division stage at (r, k). -/
theorem probT_apply (x : FVec Ideal S256x2048 .f32) (r : Fin 256) (k : Fin 2048) :
    probT x (ix2 r k) = Ideal.div (x (ix2 r k)) (∑ k' : Fin 2048, x (ix2 r k')) := by
  unfold probT
  show Ideal.div (x (ix2 r k)) (broadcastTo S256x2048 _ broadcasts_S256x1_S256x2048 (ix2 r k)) = _
  rw [Cert.LibKeepdims.broadcastTo_a1_ab_apply, Cert.LibKeepdims.shapeCast_a_a1_apply]
  refine congrArg (Ideal.div (x (ix2 r k))) ?_
  refine (Ideal.multiReduction_add_single x _ reduces_S256x2048_S256 (.inl rfl) rfl (ix1 r)).trans ?_
  exact Finset.sum_congr rfl fun k' _ => congrArg x (Cert.LibKeepdims.lift_row reduces_S256x2048_S256 r k')

/-- The last product at (r, j). -/
theorem outT_apply (p : FVec Ideal S256x2048 .f32) (v : FVec Ideal S2048x64 .bf16) (r : Fin 256) (j : Fin 64) :
    outT p v (ix2 r j) = ∑ k : Fin 2048, p (ix2 r k) * v (ix2 k j) := by
  unfold outT
  rw [matmul_ctx_apply]
  rfl

/-- A head at column offset 64·h, read at (r, j), is the specification's head h of row r at component j. -/
theorem headT_apply (o : Nat) (hq : S256x1024.Slices ![0, o] S256x64) (hk : S2048x1024.Slices ![0, o] S2048x64)
    (q : FVec Ideal S256x1024 .bf16) (kk vv : FVec Ideal S2048x1024 .bf16)
    (h : Fin 16) (ho : o = h.val * 64) (r : Fin 256) (j : Fin 64) :
    headT o hq hk q kk vv (ix2 r j)
      = Spec.ctx (fun c => q (ix2 r c)) (fun k c => kk (ix2 k c)) (fun k c => vv (ix2 k c)) h j := by
  have hc : ∀ j' : Fin 64, (Spec.hcol h j').val = o + j'.val := fun j' => by rw [ho]; rfl
  unfold headT
  rw [outT_apply]
  unfold Spec.ctx
  refine Finset.sum_congr rfl fun k _ => ?_
  rw [slice2_axis1_apply o vv hk k j (Spec.hcol h j) (hc j)]
  refine congrArg (· * vv (ix2 k (Spec.hcol h j))) ?_
  unfold Spec.prob Spec.denom Spec.expo Spec.rowMax Spec.score
  rw [probT_apply]
  simp only [expT_apply, scoresT_apply o hq hk q kk (Spec.hcol h) hc]

end Cert.KValue

end
-- ==== Proof.KHeads.lean ====
/-
  The sixteen heads of the second kernel's body, each recognised as the general head at its column offset.

  The body's text cuts the sixteen heads at irregular places, but head h is always the same arithmetic on the 64
  columns from 64·h: each printed piece unfolds to the general head.
-/
import proofs.«166784_j42649025249604_2_alg».proof.Proof.KHead

noncomputable section

namespace Cert.KValue

open Cert.KernelIdeal Cert.KernelIdeal.Gen Idealize.ShloMosaic Idealize.ShloMosaic.ValueIdx

variable [Cert.KernelIdeal.Facts]

/-- Head 0 (columns from 0), printed over the three loaded blocks. -/
theorem piece0_eq (v0 : Vec Ideal S1x256x1024 .bf16) (v2 v4 : Vec Ideal S1x2048x1024 .bf16) :
    k1_pay6 (F := Ideal) v0 v2 v4
      = headT 0 slices_S256x1024_o0_0_S256x64 slices_S2048x1024_o0_0_S2048x64 (k1_pay3 v0) (k1_pay4 v2) (k1_pay5 v4) := rfl

/-- Head 1 (columns from 64), printed over the three loaded blocks. -/
theorem piece1_eq (v0 : Vec Ideal S1x256x1024 .bf16) (v2 v4 : Vec Ideal S1x2048x1024 .bf16) :
    k1_pay9 (F := Ideal) (k1_pay7 v4) (k1_pay8 v0 v2)
      = headT 64 slices_S256x1024_o0_64_S256x64 slices_S2048x1024_o0_64_S2048x64 (k1_pay3 v0) (k1_pay4 v2) (k1_pay5 v4) := rfl

/-- Head 2 (columns from 128). -/
theorem piece2_eq (q : FVec Ideal S256x1024 .bf16) (kk vv : FVec Ideal S2048x1024 .bf16) :
    k1_pay10 (F := Ideal) q kk vv
      = headT 128 slices_S256x1024_o0_128_S256x64 slices_S2048x1024_o0_128_S2048x64 q kk vv := rfl

/-- Head 3 (columns from 192). -/
theorem piece3_eq (q : FVec Ideal S256x1024 .bf16) (kk vv : FVec Ideal S2048x1024 .bf16) :
    k1_pay11 (F := Ideal) q kk vv
      = headT 192 slices_S256x1024_o0_192_S256x64 slices_S2048x1024_o0_192_S2048x64 q kk vv := rfl

/-- Head 4 (columns from 256). -/
theorem piece4_eq (q : FVec Ideal S256x1024 .bf16) (kk vv : FVec Ideal S2048x1024 .bf16) :
    k1_pay15 (F := Ideal) (k1_pay12 vv) (k1_pay13 q kk) (k1_pay14 q kk)
      = headT 256 slices_S256x1024_o0_256_S256x64 slices_S2048x1024_o0_256_S2048x64 q kk vv := rfl

/-- Head 5 (columns from 320). -/
theorem piece5_eq (q : FVec Ideal S256x1024 .bf16) (kk vv : FVec Ideal S2048x1024 .bf16) :
    k1_pay16 (F := Ideal) q kk vv
      = headT 320 slices_S256x1024_o0_320_S256x64 slices_S2048x1024_o0_320_S2048x64 q kk vv := rfl

/-- Head 6 (columns from 384). -/
theorem piece6_eq (q : FVec Ideal S256x1024 .bf16) (kk vv : FVec Ideal S2048x1024 .bf16) :
    k1_pay17 (F := Ideal) q kk vv
      = headT 384 slices_S256x1024_o0_384_S256x64 slices_S2048x1024_o0_384_S2048x64 q kk vv := rfl

/-- Head 7 (columns from 448). -/
theorem piece7_eq (q : FVec Ideal S256x1024 .bf16) (kk vv : FVec Ideal S2048x1024 .bf16) :
    k1_pay20 (F := Ideal) vv (k1_pay18 q) (k1_pay19 kk)
      = headT 448 slices_S256x1024_o0_448_S256x64 slices_S2048x1024_o0_448_S2048x64 q kk vv := rfl

/-- Head 8 (columns from 512). -/
theorem piece8_eq (q : FVec Ideal S256x1024 .bf16) (kk vv : FVec Ideal S2048x1024 .bf16) :
    k1_pay21 (F := Ideal) q kk vv
      = headT 512 slices_S256x1024_o0_512_S256x64 slices_S2048x1024_o0_512_S2048x64 q kk vv := rfl

/-- Head 9 (columns from 576). -/
theorem piece9_eq (q : FVec Ideal S256x1024 .bf16) (kk vv : FVec Ideal S2048x1024 .bf16) :
    k1_pay24 (F := Ideal) (k1_pay22 vv) (k1_pay23 q kk)
      = headT 576 slices_S256x1024_o0_576_S256x64 slices_S2048x1024_o0_576_S2048x64 q kk vv := rfl

/-- Head 10 (columns from 640). -/
theorem piece10_eq (q : FVec Ideal S256x1024 .bf16) (kk vv : FVec Ideal S2048x1024 .bf16) :
    k1_pay25 (F := Ideal) q kk vv
      = headT 640 slices_S256x1024_o0_640_S256x64 slices_S2048x1024_o0_640_S2048x64 q kk vv := rfl

/-- Head 11 (columns from 704). -/
theorem piece11_eq (q : FVec Ideal S256x1024 .bf16) (kk vv : FVec Ideal S2048x1024 .bf16) :
    k1_pay26 (F := Ideal) q kk vv
      = headT 704 slices_S256x1024_o0_704_S256x64 slices_S2048x1024_o0_704_S2048x64 q kk vv := rfl

/-- Head 12 (columns from 768). -/
theorem piece12_eq (q : FVec Ideal S256x1024 .bf16) (kk vv : FVec Ideal S2048x1024 .bf16) :
    k1_pay29 (F := Ideal) (k1_pay27 vv) (k1_pay28 q kk) (Scalar.ofBits .f32 0x3E000000#32)
      = headT 768 slices_S256x1024_o0_768_S256x64 slices_S2048x1024_o0_768_S2048x64 q kk vv := rfl

/-- Head 13 (columns from 832). -/
theorem piece13_eq (q : FVec Ideal S256x1024 .bf16) (kk vv : FVec Ideal S2048x1024 .bf16) :
    k1_pay30 (F := Ideal) q kk vv
      = headT 832 slices_S256x1024_o0_832_S256x64 slices_S2048x1024_o0_832_S2048x64 q kk vv := rfl

/-- Head 14 (columns from 896). -/
theorem piece14_eq (q : FVec Ideal S256x1024 .bf16) (kk vv : FVec Ideal S2048x1024 .bf16) :
    matmul (F := Ideal) dot_S256x2048_S2048x64_S256x64_1_0_0_1_n_n none (k1_pay32 q kk) (k1_pay31 vv) (constant S256x64 .f32 0x00000000#32)
      = headT 896 slices_S256x1024_o0_896_S256x64 slices_S2048x1024_o0_896_S2048x64 q kk vv := rfl

/-- Head 15 (columns from 960). -/
theorem piece15_eq (q : FVec Ideal S256x1024 .bf16) (kk vv : FVec Ideal S2048x1024 .bf16) :
    k1_pay1 (F := Ideal) q kk vv
      = headT 960 slices_S256x1024_o0_960_S256x64 slices_S2048x1024_o0_960_S2048x64 q kk vv := rfl

end Cert.KValue

end
-- ==== Proof.KCat.lean ====
/-
  The sixteen heads side by side: the concatenation read at a row and a feature.

  Feature d = 64·h + j of the concatenated array is component j of head h; with each head recognised as the
  general head, the concatenation at (r, d) is the specification's head d / 64 of row r at component d % 64.
-/
import proofs.«166784_j42649025249604_2_alg».proof.Proof.KHeads

noncomputable section

namespace Cert.KValue

open Cert.KernelIdeal Cert.KernelIdeal.Gen Cert.KernelIdeal.Hand Idealize.ShloMosaic Idealize.ShloMosaic.ValueIdx

variable [Cert.KernelIdeal.Facts]

/-- The query block with its leading unit axis dropped, at (r, c). -/
theorem pay3_apply (v0 : Vec Ideal S1x256x1024 .bf16) (r : Fin 256) (c : Fin 1024) :
    k1_pay3 (F := Ideal) v0 (ix2 r c) = v0 (ix3 0 r c) := by
  unfold k1_pay3
  exact shapeCast_1ab_ab_apply v0 _ r c

/-- The key block with its leading unit axis dropped, at (k, c). -/
theorem pay4_apply (v2 : Vec Ideal S1x2048x1024 .bf16) (k : Fin 2048) (c : Fin 1024) :
    k1_pay4 (F := Ideal) v2 (ix2 k c) = v2 (ix3 0 k c) := by
  unfold k1_pay4
  exact shapeCast_1ab_ab_apply v2 _ k c

/-- The value block with its leading unit axis dropped, at (k, c). -/
theorem pay5_apply (v4 : Vec Ideal S1x2048x1024 .bf16) (k : Fin 2048) (c : Fin 1024) :
    k1_pay5 (F := Ideal) v4 (ix2 k c) = v4 (ix3 0 k c) := by
  unfold k1_pay5
  exact shapeCast_1ab_ab_apply v4 _ k c

/-- The specification's head over the rank-2 blocks is the head over the loaded rank-3 blocks. -/
theorem ctx_blocks (v0 : Vec Ideal S1x256x1024 .bf16) (v2 v4 : Vec Ideal S1x2048x1024 .bf16)
    (h : Fin 16) (r : Fin 256) (j : Fin 64) :
    Spec.ctx (fun c => k1_pay3 (F := Ideal) v0 (ix2 r c)) (fun k c => k1_pay4 (F := Ideal) v2 (ix2 k c))
        (fun k c => k1_pay5 (F := Ideal) v4 (ix2 k c)) h j
      = Spec.ctx (fun c => v0 (ix3 0 r c)) (fun k c => v2 (ix3 0 k c)) (fun k c => v4 (ix3 0 k c)) h j := by
  simp only [pay3_apply, pay4_apply, pay5_apply]

/-- The sixteen pieces, in order, as the body lists them. -/
def catList (v0 : Vec Ideal S1x256x1024 .bf16) (v2 v4 : Vec Ideal S1x2048x1024 .bf16) :
    List ((s : Shape) × (s.Idx → EReal)) :=
  [⟨S256x64, k1_pay6 (F := Ideal) v0 v2 v4⟩,
   ⟨S256x64, k1_pay9 (F := Ideal) (k1_pay7 v4) (k1_pay8 v0 v2)⟩,
   ⟨S256x64, k1_pay10 (F := Ideal) (k1_pay3 v0) (k1_pay4 v2) (k1_pay5 v4)⟩,
   ⟨S256x64, k1_pay11 (F := Ideal) (k1_pay3 v0) (k1_pay4 v2) (k1_pay5 v4)⟩,
   ⟨S256x64, k1_pay15 (F := Ideal) (k1_pay12 (k1_pay5 v4)) (k1_pay13 (k1_pay3 v0) (k1_pay4 v2)) (k1_pay14 (k1_pay3 v0) (k1_pay4 v2))⟩,
   ⟨S256x64, k1_pay16 (F := Ideal) (k1_pay3 v0) (k1_pay4 v2) (k1_pay5 v4)⟩,
   ⟨S256x64, k1_pay17 (F := Ideal) (k1_pay3 v0) (k1_pay4 v2) (k1_pay5 v4)⟩,
   ⟨S256x64, k1_pay20 (F := Ideal) (k1_pay5 v4) (k1_pay18 (k1_pay3 v0)) (k1_pay19 (k1_pay4 v2))⟩,
   ⟨S256x64, k1_pay21 (F := Ideal) (k1_pay3 v0) (k1_pay4 v2) (k1_pay5 v4)⟩,
   ⟨S256x64, k1_pay24 (F := Ideal) (k1_pay22 (k1_pay5 v4)) (k1_pay23 (k1_pay3 v0) (k1_pay4 v2))⟩,
   ⟨S256x64, k1_pay25 (F := Ideal) (k1_pay3 v0) (k1_pay4 v2) (k1_pay5 v4)⟩,
   ⟨S256x64, k1_pay26 (F := Ideal) (k1_pay3 v0) (k1_pay4 v2) (k1_pay5 v4)⟩,
   ⟨S256x64, k1_pay29 (F := Ideal) (k1_pay27 (k1_pay5 v4)) (k1_pay28 (k1_pay3 v0) (k1_pay4 v2)) (Scalar.ofBits .f32 0x3E000000#32)⟩,
   ⟨S256x64, k1_pay30 (F := Ideal) (k1_pay3 v0) (k1_pay4 v2) (k1_pay5 v4)⟩,
   ⟨S256x64, matmul (F := Ideal) dot_S256x2048_S2048x64_S256x64_1_0_0_1_n_n none (k1_pay32 (k1_pay3 v0) (k1_pay4 v2)) (k1_pay31 (k1_pay5 v4)) (constant S256x64 .f32 0x00000000#32)⟩,
   ⟨S256x64, k1_pay1 (F := Ideal) (k1_pay3 v0) (k1_pay4 v2) (k1_pay5 v4)⟩]

/-- The heads' array is the concatenation of that list along the columns. -/
theorem headsCat_eq (v0 : Vec Ideal S1x256x1024 .bf16) (v2 v4 : Vec Ideal S1x2048x1024 .bf16) :
    headsCat (F := Ideal) v0 v2 v4
      = concatenate S256x1024 1 (catList v0 v2 v4) concatenates_S256x64_S256x64_S256x64_S256x64_S256x64_S256x64_S256x64_S256x64_S256x64_S256x64_S256x64_S256x64_S256x64_S256x64_S256x64_S256x64_S256x1024_d1 := rfl

/-- Every piece of the list is a [256, 64] array. -/
theorem catList_shapes (v0 : Vec Ideal S1x256x1024 .bf16) (v2 v4 : Vec Ideal S1x2048x1024 .bf16) :
    (catList v0 v2 v4).map (·.1) = List.replicate 16 S256x64 := rfl

/-- Piece k of a list of sixteen [256, 64] pieces concatenated along the columns into [256, 1024], read at
    (r, 64·k + j): the piece at (r, j). The pieces before it span 64·k columns. -/
theorem cat16_apply (xs : List ((s : Shape) × (s.Idx → EReal)))
    (hcat : Shape.Concatenates (xs.map (·.1)) S256x1024 1)
    (hshapes : xs.map (·.1) = List.replicate 16 S256x64) (k : Nat) (hk16 : k < 16)
    (x : S256x64.Idx → EReal) (hxk : xs[k]? = some ⟨S256x64, x⟩)
    (r : Fin 256) (j : Fin 64) (d : Fin 1024) (hd : d.val = k * 64 + j.val) :
    concatenate S256x1024 1 xs hcat (ix2 r d) = x (ix2 r j) := by
  obtain ⟨hk, hxk'⟩ := List.getElem?_eq_some_iff.mp hxk
  refine concatenate_apply_piece 1 xs hcat (ix2 r d) k hk S256x64 x hxk' rfl (k * 64) ?_ (ix2 r j)
    (fun b hb => by
      match b with
      | ⟨0, _⟩ => rfl
      | ⟨1, _⟩ => exact absurd rfl hb)
    hd.symm
  rw [List.map_take, hshapes, List.take_replicate, List.map_replicate, List.sum_replicate,
    Nat.min_eq_left (Nat.le_of_lt hk16)]
  rfl

/-- Head 0 inside the concatenation. -/
theorem cat_0 (v0 : Vec Ideal S1x256x1024 .bf16) (v2 v4 : Vec Ideal S1x2048x1024 .bf16) (r : Fin 256) (j : Fin 64) :
    headsCat (F := Ideal) v0 v2 v4 (ix2 r (Spec.hcol 0 j))
      = Spec.ctx (fun c => v0 (ix3 0 r c)) (fun k c => v2 (ix3 0 k c)) (fun k c => v4 (ix3 0 k c)) 0 j := by
  rw [headsCat_eq]
  refine (cat16_apply (catList v0 v2 v4) _ (catList_shapes v0 v2 v4) 0 (by decide)
    (k1_pay6 (F := Ideal) v0 v2 v4) rfl r j _ rfl).trans ?_
  refine (congrFun (piece0_eq v0 v2 v4) (ix2 r j)).trans ?_
  exact (headT_apply 0 _ _ (k1_pay3 v0) (k1_pay4 v2) (k1_pay5 v4) 0 rfl r j).trans (ctx_blocks v0 v2 v4 0 r j)

/-- Head 1 inside the concatenation. -/
theorem cat_1 (v0 : Vec Ideal S1x256x1024 .bf16) (v2 v4 : Vec Ideal S1x2048x1024 .bf16) (r : Fin 256) (j : Fin 64) :
    headsCat (F := Ideal) v0 v2 v4 (ix2 r (Spec.hcol 1 j))
      = Spec.ctx (fun c => v0 (ix3 0 r c)) (fun k c => v2 (ix3 0 k c)) (fun k c => v4 (ix3 0 k c)) 1 j := by
  rw [headsCat_eq]
  refine (cat16_apply (catList v0 v2 v4) _ (catList_shapes v0 v2 v4) 1 (by decide)
    (k1_pay9 (F := Ideal) (k1_pay7 v4) (k1_pay8 v0 v2)) rfl r j _ rfl).trans ?_
  refine (congrFun (piece1_eq v0 v2 v4) (ix2 r j)).trans ?_
  exact (headT_apply 64 _ _ (k1_pay3 v0) (k1_pay4 v2) (k1_pay5 v4) 1 rfl r j).trans (ctx_blocks v0 v2 v4 1 r j)

/-- Head 2 inside the concatenation. -/
theorem cat_2 (v0 : Vec Ideal S1x256x1024 .bf16) (v2 v4 : Vec Ideal S1x2048x1024 .bf16) (r : Fin 256) (j : Fin 64) :
    headsCat (F := Ideal) v0 v2 v4 (ix2 r (Spec.hcol 2 j))
      = Spec.ctx (fun c => v0 (ix3 0 r c)) (fun k c => v2 (ix3 0 k c)) (fun k c => v4 (ix3 0 k c)) 2 j := by
  rw [headsCat_eq]
  refine (cat16_apply (catList v0 v2 v4) _ (catList_shapes v0 v2 v4) 2 (by decide)
    (k1_pay10 (F := Ideal) (k1_pay3 v0) (k1_pay4 v2) (k1_pay5 v4)) rfl r j _ rfl).trans ?_
  refine (congrFun (piece2_eq (k1_pay3 v0) (k1_pay4 v2) (k1_pay5 v4)) (ix2 r j)).trans ?_
  exact (headT_apply 128 _ _ (k1_pay3 v0) (k1_pay4 v2) (k1_pay5 v4) 2 rfl r j).trans (ctx_blocks v0 v2 v4 2 r j)

/-- Head 3 inside the concatenation. -/
theorem cat_3 (v0 : Vec Ideal S1x256x1024 .bf16) (v2 v4 : Vec Ideal S1x2048x1024 .bf16) (r : Fin 256) (j : Fin 64) :
    headsCat (F := Ideal) v0 v2 v4 (ix2 r (Spec.hcol 3 j))
      = Spec.ctx (fun c => v0 (ix3 0 r c)) (fun k c => v2 (ix3 0 k c)) (fun k c => v4 (ix3 0 k c)) 3 j := by
  rw [headsCat_eq]
  refine (cat16_apply (catList v0 v2 v4) _ (catList_shapes v0 v2 v4) 3 (by decide)
    (k1_pay11 (F := Ideal) (k1_pay3 v0) (k1_pay4 v2) (k1_pay5 v4)) rfl r j _ rfl).trans ?_
  refine (congrFun (piece3_eq (k1_pay3 v0) (k1_pay4 v2) (k1_pay5 v4)) (ix2 r j)).trans ?_
  exact (headT_apply 192 _ _ (k1_pay3 v0) (k1_pay4 v2) (k1_pay5 v4) 3 rfl r j).trans (ctx_blocks v0 v2 v4 3 r j)

/-- Head 4 inside the concatenation. -/
theorem cat_4 (v0 : Vec Ideal S1x256x1024 .bf16) (v2 v4 : Vec Ideal S1x2048x1024 .bf16) (r : Fin 256) (j : Fin 64) :
    headsCat (F := Ideal) v0 v2 v4 (ix2 r (Spec.hcol 4 j))
      = Spec.ctx (fun c => v0 (ix3 0 r c)) (fun k c => v2 (ix3 0 k c)) (fun k c => v4 (ix3 0 k c)) 4 j := by
  rw [headsCat_eq]
  refine (cat16_apply (catList v0 v2 v4) _ (catList_shapes v0 v2 v4) 4 (by decide)
    (k1_pay15 (F := Ideal) (k1_pay12 (k1_pay5 v4)) (k1_pay13 (k1_pay3 v0) (k1_pay4 v2)) (k1_pay14 (k1_pay3 v0) (k1_pay4 v2))) rfl r j _ rfl).trans ?_
  refine (congrFun (piece4_eq (k1_pay3 v0) (k1_pay4 v2) (k1_pay5 v4)) (ix2 r j)).trans ?_
  exact (headT_apply 256 _ _ (k1_pay3 v0) (k1_pay4 v2) (k1_pay5 v4) 4 rfl r j).trans (ctx_blocks v0 v2 v4 4 r j)

/-- Head 5 inside the concatenation. -/
theorem cat_5 (v0 : Vec Ideal S1x256x1024 .bf16) (v2 v4 : Vec Ideal S1x2048x1024 .bf16) (r : Fin 256) (j : Fin 64) :
    headsCat (F := Ideal) v0 v2 v4 (ix2 r (Spec.hcol 5 j))
      = Spec.ctx (fun c => v0 (ix3 0 r c)) (fun k c => v2 (ix3 0 k c)) (fun k c => v4 (ix3 0 k c)) 5 j := by
  rw [headsCat_eq]
  refine (cat16_apply (catList v0 v2 v4) _ (catList_shapes v0 v2 v4) 5 (by decide)
    (k1_pay16 (F := Ideal) (k1_pay3 v0) (k1_pay4 v2) (k1_pay5 v4)) rfl r j _ rfl).trans ?_
  refine (congrFun (piece5_eq (k1_pay3 v0) (k1_pay4 v2) (k1_pay5 v4)) (ix2 r j)).trans ?_
  exact (headT_apply 320 _ _ (k1_pay3 v0) (k1_pay4 v2) (k1_pay5 v4) 5 rfl r j).trans (ctx_blocks v0 v2 v4 5 r j)

/-- Head 6 inside the concatenation. -/
theorem cat_6 (v0 : Vec Ideal S1x256x1024 .bf16) (v2 v4 : Vec Ideal S1x2048x1024 .bf16) (r : Fin 256) (j : Fin 64) :
    headsCat (F := Ideal) v0 v2 v4 (ix2 r (Spec.hcol 6 j))
      = Spec.ctx (fun c => v0 (ix3 0 r c)) (fun k c => v2 (ix3 0 k c)) (fun k c => v4 (ix3 0 k c)) 6 j := by
  rw [headsCat_eq]
  refine (cat16_apply (catList v0 v2 v4) _ (catList_shapes v0 v2 v4) 6 (by decide)
    (k1_pay17 (F := Ideal) (k1_pay3 v0) (k1_pay4 v2) (k1_pay5 v4)) rfl r j _ rfl).trans ?_
  refine (congrFun (piece6_eq (k1_pay3 v0) (k1_pay4 v2) (k1_pay5 v4)) (ix2 r j)).trans ?_
  exact (headT_apply 384 _ _ (k1_pay3 v0) (k1_pay4 v2) (k1_pay5 v4) 6 rfl r j).trans (ctx_blocks v0 v2 v4 6 r j)

/-- Head 7 inside the concatenation. -/
theorem cat_7 (v0 : Vec Ideal S1x256x1024 .bf16) (v2 v4 : Vec Ideal S1x2048x1024 .bf16) (r : Fin 256) (j : Fin 64) :
    headsCat (F := Ideal) v0 v2 v4 (ix2 r (Spec.hcol 7 j))
      = Spec.ctx (fun c => v0 (ix3 0 r c)) (fun k c => v2 (ix3 0 k c)) (fun k c => v4 (ix3 0 k c)) 7 j := by
  rw [headsCat_eq]
  refine (cat16_apply (catList v0 v2 v4) _ (catList_shapes v0 v2 v4) 7 (by decide)
    (k1_pay20 (F := Ideal) (k1_pay5 v4) (k1_pay18 (k1_pay3 v0)) (k1_pay19 (k1_pay4 v2))) rfl r j _ rfl).trans ?_
  refine (congrFun (piece7_eq (k1_pay3 v0) (k1_pay4 v2) (k1_pay5 v4)) (ix2 r j)).trans ?_
  exact (headT_apply 448 _ _ (k1_pay3 v0) (k1_pay4 v2) (k1_pay5 v4) 7 rfl r j).trans (ctx_blocks v0 v2 v4 7 r j)

/-- Head 8 inside the concatenation. -/
theorem cat_8 (v0 : Vec Ideal S1x256x1024 .bf16) (v2 v4 : Vec Ideal S1x2048x1024 .bf16) (r : Fin 256) (j : Fin 64) :
    headsCat (F := Ideal) v0 v2 v4 (ix2 r (Spec.hcol 8 j))
      = Spec.ctx (fun c => v0 (ix3 0 r c)) (fun k c => v2 (ix3 0 k c)) (fun k c => v4 (ix3 0 k c)) 8 j := by
  rw [headsCat_eq]
  refine (cat16_apply (catList v0 v2 v4) _ (catList_shapes v0 v2 v4) 8 (by decide)
    (k1_pay21 (F := Ideal) (k1_pay3 v0) (k1_pay4 v2) (k1_pay5 v4)) rfl r j _ rfl).trans ?_
  refine (congrFun (piece8_eq (k1_pay3 v0) (k1_pay4 v2) (k1_pay5 v4)) (ix2 r j)).trans ?_
  exact (headT_apply 512 _ _ (k1_pay3 v0) (k1_pay4 v2) (k1_pay5 v4) 8 rfl r j).trans (ctx_blocks v0 v2 v4 8 r j)

/-- Head 9 inside the concatenation. -/
theorem cat_9 (v0 : Vec Ideal S1x256x1024 .bf16) (v2 v4 : Vec Ideal S1x2048x1024 .bf16) (r : Fin 256) (j : Fin 64) :
    headsCat (F := Ideal) v0 v2 v4 (ix2 r (Spec.hcol 9 j))
      = Spec.ctx (fun c => v0 (ix3 0 r c)) (fun k c => v2 (ix3 0 k c)) (fun k c => v4 (ix3 0 k c)) 9 j := by
  rw [headsCat_eq]
  refine (cat16_apply (catList v0 v2 v4) _ (catList_shapes v0 v2 v4) 9 (by decide)
    (k1_pay24 (F := Ideal) (k1_pay22 (k1_pay5 v4)) (k1_pay23 (k1_pay3 v0) (k1_pay4 v2))) rfl r j _ rfl).trans ?_
  refine (congrFun (piece9_eq (k1_pay3 v0) (k1_pay4 v2) (k1_pay5 v4)) (ix2 r j)).trans ?_
  exact (headT_apply 576 _ _ (k1_pay3 v0) (k1_pay4 v2) (k1_pay5 v4) 9 rfl r j).trans (ctx_blocks v0 v2 v4 9 r j)

/-- Head 10 inside the concatenation. -/
theorem cat_10 (v0 : Vec Ideal S1x256x1024 .bf16) (v2 v4 : Vec Ideal S1x2048x1024 .bf16) (r : Fin 256) (j : Fin 64) :
    headsCat (F := Ideal) v0 v2 v4 (ix2 r (Spec.hcol 10 j))
      = Spec.ctx (fun c => v0 (ix3 0 r c)) (fun k c => v2 (ix3 0 k c)) (fun k c => v4 (ix3 0 k c)) 10 j := by
  rw [headsCat_eq]
  refine (cat16_apply (catList v0 v2 v4) _ (catList_shapes v0 v2 v4) 10 (by decide)
    (k1_pay25 (F := Ideal) (k1_pay3 v0) (k1_pay4 v2) (k1_pay5 v4)) rfl r j _ rfl).trans ?_
  refine (congrFun (piece10_eq (k1_pay3 v0) (k1_pay4 v2) (k1_pay5 v4)) (ix2 r j)).trans ?_
  exact (headT_apply 640 _ _ (k1_pay3 v0) (k1_pay4 v2) (k1_pay5 v4) 10 rfl r j).trans (ctx_blocks v0 v2 v4 10 r j)

/-- Head 11 inside the concatenation. -/
theorem cat_11 (v0 : Vec Ideal S1x256x1024 .bf16) (v2 v4 : Vec Ideal S1x2048x1024 .bf16) (r : Fin 256) (j : Fin 64) :
    headsCat (F := Ideal) v0 v2 v4 (ix2 r (Spec.hcol 11 j))
      = Spec.ctx (fun c => v0 (ix3 0 r c)) (fun k c => v2 (ix3 0 k c)) (fun k c => v4 (ix3 0 k c)) 11 j := by
  rw [headsCat_eq]
  refine (cat16_apply (catList v0 v2 v4) _ (catList_shapes v0 v2 v4) 11 (by decide)
    (k1_pay26 (F := Ideal) (k1_pay3 v0) (k1_pay4 v2) (k1_pay5 v4)) rfl r j _ rfl).trans ?_
  refine (congrFun (piece11_eq (k1_pay3 v0) (k1_pay4 v2) (k1_pay5 v4)) (ix2 r j)).trans ?_
  exact (headT_apply 704 _ _ (k1_pay3 v0) (k1_pay4 v2) (k1_pay5 v4) 11 rfl r j).trans (ctx_blocks v0 v2 v4 11 r j)

/-- Head 12 inside the concatenation. -/
theorem cat_12 (v0 : Vec Ideal S1x256x1024 .bf16) (v2 v4 : Vec Ideal S1x2048x1024 .bf16) (r : Fin 256) (j : Fin 64) :
    headsCat (F := Ideal) v0 v2 v4 (ix2 r (Spec.hcol 12 j))
      = Spec.ctx (fun c => v0 (ix3 0 r c)) (fun k c => v2 (ix3 0 k c)) (fun k c => v4 (ix3 0 k c)) 12 j := by
  rw [headsCat_eq]
  refine (cat16_apply (catList v0 v2 v4) _ (catList_shapes v0 v2 v4) 12 (by decide)
    (k1_pay29 (F := Ideal) (k1_pay27 (k1_pay5 v4)) (k1_pay28 (k1_pay3 v0) (k1_pay4 v2)) (Scalar.ofBits .f32 0x3E000000#32)) rfl r j _ rfl).trans ?_
  refine (congrFun (piece12_eq (k1_pay3 v0) (k1_pay4 v2) (k1_pay5 v4)) (ix2 r j)).trans ?_
  exact (headT_apply 768 _ _ (k1_pay3 v0) (k1_pay4 v2) (k1_pay5 v4) 12 rfl r j).trans (ctx_blocks v0 v2 v4 12 r j)

/-- Head 13 inside the concatenation. -/
theorem cat_13 (v0 : Vec Ideal S1x256x1024 .bf16) (v2 v4 : Vec Ideal S1x2048x1024 .bf16) (r : Fin 256) (j : Fin 64) :
    headsCat (F := Ideal) v0 v2 v4 (ix2 r (Spec.hcol 13 j))
      = Spec.ctx (fun c => v0 (ix3 0 r c)) (fun k c => v2 (ix3 0 k c)) (fun k c => v4 (ix3 0 k c)) 13 j := by
  rw [headsCat_eq]
  refine (cat16_apply (catList v0 v2 v4) _ (catList_shapes v0 v2 v4) 13 (by decide)
    (k1_pay30 (F := Ideal) (k1_pay3 v0) (k1_pay4 v2) (k1_pay5 v4)) rfl r j _ rfl).trans ?_
  refine (congrFun (piece13_eq (k1_pay3 v0) (k1_pay4 v2) (k1_pay5 v4)) (ix2 r j)).trans ?_
  exact (headT_apply 832 _ _ (k1_pay3 v0) (k1_pay4 v2) (k1_pay5 v4) 13 rfl r j).trans (ctx_blocks v0 v2 v4 13 r j)

/-- Head 14 inside the concatenation. -/
theorem cat_14 (v0 : Vec Ideal S1x256x1024 .bf16) (v2 v4 : Vec Ideal S1x2048x1024 .bf16) (r : Fin 256) (j : Fin 64) :
    headsCat (F := Ideal) v0 v2 v4 (ix2 r (Spec.hcol 14 j))
      = Spec.ctx (fun c => v0 (ix3 0 r c)) (fun k c => v2 (ix3 0 k c)) (fun k c => v4 (ix3 0 k c)) 14 j := by
  rw [headsCat_eq]
  refine (cat16_apply (catList v0 v2 v4) _ (catList_shapes v0 v2 v4) 14 (by decide)
    (matmul (F := Ideal) dot_S256x2048_S2048x64_S256x64_1_0_0_1_n_n none (k1_pay32 (k1_pay3 v0) (k1_pay4 v2)) (k1_pay31 (k1_pay5 v4)) (constant S256x64 .f32 0x00000000#32)) rfl r j _ rfl).trans ?_
  refine (congrFun (piece14_eq (k1_pay3 v0) (k1_pay4 v2) (k1_pay5 v4)) (ix2 r j)).trans ?_
  exact (headT_apply 896 _ _ (k1_pay3 v0) (k1_pay4 v2) (k1_pay5 v4) 14 rfl r j).trans (ctx_blocks v0 v2 v4 14 r j)

/-- Head 15 inside the concatenation. -/
theorem cat_15 (v0 : Vec Ideal S1x256x1024 .bf16) (v2 v4 : Vec Ideal S1x2048x1024 .bf16) (r : Fin 256) (j : Fin 64) :
    headsCat (F := Ideal) v0 v2 v4 (ix2 r (Spec.hcol 15 j))
      = Spec.ctx (fun c => v0 (ix3 0 r c)) (fun k c => v2 (ix3 0 k c)) (fun k c => v4 (ix3 0 k c)) 15 j := by
  rw [headsCat_eq]
  refine (cat16_apply (catList v0 v2 v4) _ (catList_shapes v0 v2 v4) 15 (by decide)
    (k1_pay1 (F := Ideal) (k1_pay3 v0) (k1_pay4 v2) (k1_pay5 v4)) rfl r j _ rfl).trans ?_
  refine (congrFun (piece15_eq (k1_pay3 v0) (k1_pay4 v2) (k1_pay5 v4)) (ix2 r j)).trans ?_
  exact (headT_apply 960 _ _ (k1_pay3 v0) (k1_pay4 v2) (k1_pay5 v4) 15 rfl r j).trans (ctx_blocks v0 v2 v4 15 r j)

/-- The heads' array at (r, 64·h + j) is head h of row r at component j. -/
theorem headsCat_hcol (v0 : Vec Ideal S1x256x1024 .bf16) (v2 v4 : Vec Ideal S1x2048x1024 .bf16) (r : Fin 256)
    (h : Fin 16) (j : Fin 64) :
    headsCat (F := Ideal) v0 v2 v4 (ix2 r (Spec.hcol h j))
      = Spec.ctx (fun c => v0 (ix3 0 r c)) (fun k c => v2 (ix3 0 k c)) (fun k c => v4 (ix3 0 k c)) h j := by
  match h with
  | ⟨0, _⟩ => exact cat_0 v0 v2 v4 r j
  | ⟨1, _⟩ => exact cat_1 v0 v2 v4 r j
  | ⟨2, _⟩ => exact cat_2 v0 v2 v4 r j
  | ⟨3, _⟩ => exact cat_3 v0 v2 v4 r j
  | ⟨4, _⟩ => exact cat_4 v0 v2 v4 r j
  | ⟨5, _⟩ => exact cat_5 v0 v2 v4 r j
  | ⟨6, _⟩ => exact cat_6 v0 v2 v4 r j
  | ⟨7, _⟩ => exact cat_7 v0 v2 v4 r j
  | ⟨8, _⟩ => exact cat_8 v0 v2 v4 r j
  | ⟨9, _⟩ => exact cat_9 v0 v2 v4 r j
  | ⟨10, _⟩ => exact cat_10 v0 v2 v4 r j
  | ⟨11, _⟩ => exact cat_11 v0 v2 v4 r j
  | ⟨12, _⟩ => exact cat_12 v0 v2 v4 r j
  | ⟨13, _⟩ => exact cat_13 v0 v2 v4 r j
  | ⟨14, _⟩ => exact cat_14 v0 v2 v4 r j
  | ⟨15, _⟩ => exact cat_15 v0 v2 v4 r j
  | ⟨n + 16, hn⟩ => exact absurd hn (by omega)

/-- The heads' array at (r, d) is the specification's concatenated heads of row r at feature d. -/
theorem headsCat_apply (v0 : Vec Ideal S1x256x1024 .bf16) (v2 v4 : Vec Ideal S1x2048x1024 .bf16) (r : Fin 256)
    (d : Fin 1024) :
    headsCat (F := Ideal) v0 v2 v4 (ix2 r d)
      = Spec.ctxCat (fun c => v0 (ix3 0 r c)) (fun k c => v2 (ix3 0 k c)) (fun k c => v4 (ix3 0 k c)) d := by
  have hlt := d.isLt
  have e : d = Spec.hcol ⟨d.val / 64, by omega⟩ ⟨d.val % 64, by omega⟩ :=
    Fin.ext (by show d.val = d.val / 64 * 64 + d.val % 64; omega)
  exact (congrArg (fun x => headsCat (F := Ideal) v0 v2 v4 (ix2 r x)) e).trans (headsCat_hcol v0 v2 v4 r _ _)

end Cert.KValue

end
-- ==== Proof.KBody1.lean ====
/-
  The second kernel's body read at an index: row r of the output block at feature e is the specification's
  attention row — the sixteen heads side by side, the output projection, the bias.
-/
import proofs.«166784_j42649025249604_2_alg».proof.Proof.KCat

noncomputable section

namespace Cert.KValue

open Cert.KernelIdeal Cert.KernelIdeal.Gen Cert.KernelIdeal.Hand Idealize.ShloMosaic Idealize.ShloMosaic.ValueIdx

variable [Cert.KernelIdeal.Facts]

/-- The projection stage at (0, r, e): the row of the heads' array against column e of the projection block,
    plus the bias at (0, e). The narrowing cast and the casts between equal shapes are the identity at the ideal
    values; the last cast only adds a leading unit axis. -/
theorem pay2_apply (x : FVec Ideal S256x1024 .f32) (v295 : Vec Ideal S1024x1024 .bf16) (v299 : Vec Ideal S1x1024 .f32)
    (r : Fin 256) (e : Fin 1024) :
    k1_pay2 (F := Ideal) x v295 v299 (ix3 0 r e)
      = (∑ d : Fin 1024, x (ix2 r d) * v295 (ix2 d e)) + v299 (ix2 0 e) := by
  unfold k1_pay2
  simp only [shapeCast_self]
  rw [shapeCast_ab_1ab_apply]
  show matmul (F := Ideal) dot_S256x1024_S1024x1024_S256x1024_1_0_0_1_n_n none _ _ _ (ix2 r e)
      + broadcastTo S256x1024 v299 _ (ix2 r e) = _
  rw [matmul_out_apply, broadcastTo_1b_ab_apply]
  rfl

/-- The value the second kernel stores at (0, r, e). -/
theorem body1_apply (v0 : Vec Ideal S1x256x1024 .bf16) (v2 v4 : Vec Ideal S1x2048x1024 .bf16)
    (v295 : Vec Ideal S1024x1024 .bf16) (v299 : Vec Ideal S1x1024 .f32) (r : Fin 256) (e : Fin 1024) :
    body1 (F := Ideal) v0 v2 v4 v295 v299 (ix3 0 r e)
      = Cert.Spec.attnRow (fun c => v0 (ix3 0 r c)) (fun k c => v2 (ix3 0 k c)) (fun k c => v4 (ix3 0 k c))
          (fun d e' => v295 (ix2 d e')) (fun e' => v299 (ix2 0 e')) e := by
  unfold body1
  rw [pay2_apply]
  unfold Cert.Spec.attnRow
  refine congrArg (· + v299 (ix2 0 e)) (Finset.sum_congr rfl fun d _ => ?_)
  rw [headsCat_apply]

end Cert.KValue

end
-- ==== Proof.RefQkv.lean ====
import proofs.«166784_j42649025249604_2_alg».proof.Proof.Gen.ReferenceIdeal.Read
import proofs.«166784_j42649025249604_2_alg».proof.Proof.Spec

noncomputable section

namespace Cert.RefValue

open Cert.ReferenceIdeal Cert.ReferenceIdeal.Gen Cert.ReferenceIdeal.Read Idealize.ShloMosaic Idealize.ShloMosaic.ValueIdx Idealize.ShloMosaic.StableHlo

variable (x0 : (⟨S4x2048x1024, .f32⟩ : BufTy).Contents (Elt Ideal)) (x1 : (⟨S8x1024, .f32⟩ : BufTy).Contents (Elt Ideal))
  (x2 : (⟨S3072x8, .f32⟩ : BufTy).Contents (Elt Ideal)) (x3 : (⟨S3072x1024, .f32⟩ : BufTy).Contents (Elt Ideal))
  (x4 : (⟨S3072, .f32⟩ : BufTy).Contents (Elt Ideal))

/-! ## The projection at an index -/

theorem lidx_v0_ix (b : Fin 4) (s : Fin 2048) (e : Fin 3072) (k : Fin 1024) :
    lidx_main_v0 (ix3 b s e) k = ix3 b s k :=
  funext fun a => Fin.ext (by match a with | ⟨0, _⟩ => rfl | ⟨1, _⟩ => rfl | ⟨2, _⟩ => rfl)

theorem ridx_v0_ix (b : Fin 4) (s : Fin 2048) (e : Fin 3072) (k : Fin 1024) :
    ridx_main_v0 (ix3 b s e) k = ix2 e k :=
  funext fun a => Fin.ext (by match a with | ⟨0, _⟩ => rfl | ⟨1, _⟩ => rfl)

theorem v0_at (b : Fin 4) (s : Fin 2048) (e : Fin 3072) :
    val_main_v0 (F := Ideal) x0 x3 (ix3 b s e) = ∑ d : Fin 1024, x0 (ix3 b s d) * x3 (ix2 e d) := by
  rw [val_main_v0_apply]
  refine Finset.sum_congr rfl fun k _ => ?_
  rw [lidx_v0_ix, ridx_v0_ix]

theorem v2_at (b : Fin 4) (s : Fin 2048) (e : Fin 3072) :
    val_main_v2 (F := Ideal) x4 (ix3 b s e) = x4 (ix1 e) := by
  rw [val_main_v2_apply, val_main_v1_apply]
  exact congrArg x4 (funext fun a => Fin.ext (by match a with | ⟨0, _⟩ => rfl))

theorem lidx_v4_ix (b : Fin 4) (s : Fin 2048) (r : Fin 8) (k : Fin 1024) :
    lidx_main_v4 (ix3 b s r) k = ix3 b s k :=
  funext fun a => Fin.ext (by match a with | ⟨0, _⟩ => rfl | ⟨1, _⟩ => rfl | ⟨2, _⟩ => rfl)

theorem ridx_v4_ix (b : Fin 4) (s : Fin 2048) (r : Fin 8) (k : Fin 1024) :
    ridx_main_v4 (ix3 b s r) k = ix2 r k :=
  funext fun a => Fin.ext (by match a with | ⟨0, _⟩ => rfl | ⟨1, _⟩ => rfl)

theorem v4_at (b : Fin 4) (s : Fin 2048) (r : Fin 8) :
    val_main_v4 (F := Ideal) x0 x1 (ix3 b s r) = ∑ d : Fin 1024, x0 (ix3 b s d) * x1 (ix2 r d) := by
  rw [val_main_v4_apply]
  refine Finset.sum_congr rfl fun k _ => ?_
  rw [lidx_v4_ix, ridx_v4_ix]

theorem lidx_v5_ix (b : Fin 4) (s : Fin 2048) (e : Fin 3072) (k : Fin 8) :
    lidx_main_v5 (ix3 b s e) k = ix3 b s k :=
  funext fun a => Fin.ext (by match a with | ⟨0, _⟩ => rfl | ⟨1, _⟩ => rfl | ⟨2, _⟩ => rfl)

theorem ridx_v5_ix (b : Fin 4) (s : Fin 2048) (e : Fin 3072) (k : Fin 8) :
    ridx_main_v5 (ix3 b s e) k = ix2 e k :=
  funext fun a => Fin.ext (by match a with | ⟨0, _⟩ => rfl | ⟨1, _⟩ => rfl)

theorem v5_at (b : Fin 4) (s : Fin 2048) (e : Fin 3072) :
    val_main_v5 (F := Ideal) x0 x1 x2 (ix3 b s e)
      = ∑ r : Fin 8, (∑ d : Fin 1024, x0 (ix3 b s d) * x1 (ix2 r d)) * x2 (ix2 e r) := by
  rw [val_main_v5_apply]
  refine Finset.sum_congr rfl fun k _ => ?_
  rw [lidx_v5_ix, ridx_v5_ix, v4_at]

theorem v6_at (i : S4x2048x3072.Idx) : val_main_v6 (F := Ideal) i = Cert.Spec.c8 := by
  rw [val_main_v6_apply, val_main_cst_apply]; rfl

/-- The projected array at (b, s, e) is the split form of the projection. -/
theorem v8_at (b : Fin 4) (s : Fin 2048) (e : Fin 3072) :
    val_main_v8 (F := Ideal) x0 x1 x2 x3 x4 (ix3 b s e) = Cert.Spec.qkvSplit x0 x1 x2 x3 x4 b s e := by
  rw [val_main_v8_apply, val_main_v3_apply, val_main_v7_apply, v0_at, v2_at, v5_at, v6_at]
  rfl

/-! ## The three slices at an index: column t·1024 + h·64 + j of the projected array -/

theorem idx_v12_ix (b : Fin 4) (h : Fin 16) (s : Fin 2048) (j : Fin 64) :
    idx_main_v12 (ix4 b h s j) = ix5 (0 : Fin 1) b h s j := by
  funext a; apply Fin.ext
  have hb := b.isLt; have hh := h.isLt; have hs := s.isLt; have hj := j.isLt
  match a with
  | ⟨0, _⟩ => rfl
  | ⟨1, _⟩ => show (((b.val * 16 + h.val) * 2048 + s.val) * 64 + j.val) / 2097152 % 4 = b.val; omega
  | ⟨2, _⟩ => show (((b.val * 16 + h.val) * 2048 + s.val) * 64 + j.val) / 131072 % 16 = h.val; omega
  | ⟨3, _⟩ => show (((b.val * 16 + h.val) * 2048 + s.val) * 64 + j.val) / 64 % 2048 = s.val; omega
  | ⟨4, _⟩ => show (((b.val * 16 + h.val) * 2048 + s.val) * 64 + j.val) % 64 = j.val; omega

theorem idx_v14_ix (b : Fin 4) (h : Fin 16) (s : Fin 2048) (j : Fin 64) :
    idx_main_v14 (ix4 b h s j) = ix5 (0 : Fin 1) b h s j := by
  funext a; apply Fin.ext
  have hb := b.isLt; have hh := h.isLt; have hs := s.isLt; have hj := j.isLt
  match a with
  | ⟨0, _⟩ => rfl
  | ⟨1, _⟩ => show (((b.val * 16 + h.val) * 2048 + s.val) * 64 + j.val) / 2097152 % 4 = b.val; omega
  | ⟨2, _⟩ => show (((b.val * 16 + h.val) * 2048 + s.val) * 64 + j.val) / 131072 % 16 = h.val; omega
  | ⟨3, _⟩ => show (((b.val * 16 + h.val) * 2048 + s.val) * 64 + j.val) / 64 % 2048 = s.val; omega
  | ⟨4, _⟩ => show (((b.val * 16 + h.val) * 2048 + s.val) * 64 + j.val) % 64 = j.val; omega

theorem idx_v16_ix (b : Fin 4) (h : Fin 16) (s : Fin 2048) (j : Fin 64) :
    idx_main_v16 (ix4 b h s j) = ix5 (0 : Fin 1) b h s j := by
  funext a; apply Fin.ext
  have hb := b.isLt; have hh := h.isLt; have hs := s.isLt; have hj := j.isLt
  match a with
  | ⟨0, _⟩ => rfl
  | ⟨1, _⟩ => show (((b.val * 16 + h.val) * 2048 + s.val) * 64 + j.val) / 2097152 % 4 = b.val; omega
  | ⟨2, _⟩ => show (((b.val * 16 + h.val) * 2048 + s.val) * 64 + j.val) / 131072 % 16 = h.val; omega
  | ⟨3, _⟩ => show (((b.val * 16 + h.val) * 2048 + s.val) * 64 + j.val) / 64 % 2048 = s.val; omega
  | ⟨4, _⟩ => show (((b.val * 16 + h.val) * 2048 + s.val) * 64 + j.val) % 64 = j.val; omega

theorem idx_v11_ix (b : Fin 4) (h : Fin 16) (s : Fin 2048) (j : Fin 64) :
    idx_main_v11 (ix5 (0 : Fin 1) b h s j) = ix5 (0 : Fin 3) b h s j :=
  funext fun a => Fin.ext (by match a with | ⟨0, _⟩ => rfl | ⟨1, _⟩ => rfl | ⟨2, _⟩ => rfl | ⟨3, _⟩ => rfl | ⟨4, _⟩ => rfl)

theorem idx_v13_ix (b : Fin 4) (h : Fin 16) (s : Fin 2048) (j : Fin 64) :
    idx_main_v13 (ix5 (0 : Fin 1) b h s j) = ix5 (1 : Fin 3) b h s j :=
  funext fun a => Fin.ext (by match a with | ⟨0, _⟩ => rfl | ⟨1, _⟩ => rfl | ⟨2, _⟩ => rfl | ⟨3, _⟩ => rfl | ⟨4, _⟩ => rfl)

theorem idx_v15_ix (b : Fin 4) (h : Fin 16) (s : Fin 2048) (j : Fin 64) :
    idx_main_v15 (ix5 (0 : Fin 1) b h s j) = ix5 (2 : Fin 3) b h s j :=
  funext fun a => Fin.ext (by match a with | ⟨0, _⟩ => rfl | ⟨1, _⟩ => rfl | ⟨2, _⟩ => rfl | ⟨3, _⟩ => rfl | ⟨4, _⟩ => rfl)

theorem idx_v9_v10_ix (t : Fin 3) (b : Fin 4) (h : Fin 16) (s : Fin 2048) (j : Fin 64) :
    idx_main_v9 (idx_main_v10 (ix5 t b h s j)) = ix3 b s (Cert.Spec.col3 t (Cert.Spec.hcol h j)) := by
  funext a; apply Fin.ext
  have ht := t.isLt; have hb := b.isLt; have hh := h.isLt; have hs := s.isLt; have hj := j.isLt
  match a with
  | ⟨0, _⟩ => show ((((b.val * 2048 + s.val) * 3 + t.val) * 16 + h.val) * 64 + j.val) / 6291456 = b.val; omega
  | ⟨1, _⟩ => show ((((b.val * 2048 + s.val) * 3 + t.val) * 16 + h.val) * 64 + j.val) / 3072 % 2048 = s.val; omega
  | ⟨2, _⟩ => show ((((b.val * 2048 + s.val) * 3 + t.val) * 16 + h.val) * 64 + j.val) % 3072 = t.val * 1024 + (h.val * 64 + j.val); omega

theorem v10_at (t : Fin 3) (b : Fin 4) (h : Fin 16) (s : Fin 2048) (j : Fin 64) :
    val_main_v10 (F := Ideal) x0 x1 x2 x3 x4 (ix5 t b h s j)
      = val_main_v8 (F := Ideal) x0 x1 x2 x3 x4 (ix3 b s (Cert.Spec.col3 t (Cert.Spec.hcol h j))) := by
  rw [val_main_v10_apply, val_main_v9_apply, idx_v9_v10_ix]

/-- The query slice at (b, h, s, j). -/
theorem v12_at (b : Fin 4) (h : Fin 16) (s : Fin 2048) (j : Fin 64) :
    val_main_v12 (F := Ideal) x0 x1 x2 x3 x4 (ix4 b h s j)
      = val_main_v8 (F := Ideal) x0 x1 x2 x3 x4 (ix3 b s (Cert.Spec.col3 0 (Cert.Spec.hcol h j))) := by
  rw [val_main_v12_apply, val_main_v11_apply, idx_v12_ix, idx_v11_ix, v10_at]

/-- The key slice at (b, h, s, j). -/
theorem v14_at (b : Fin 4) (h : Fin 16) (s : Fin 2048) (j : Fin 64) :
    val_main_v14 (F := Ideal) x0 x1 x2 x3 x4 (ix4 b h s j)
      = val_main_v8 (F := Ideal) x0 x1 x2 x3 x4 (ix3 b s (Cert.Spec.col3 1 (Cert.Spec.hcol h j))) := by
  rw [val_main_v14_apply, val_main_v13_apply, idx_v14_ix, idx_v13_ix, v10_at]

/-- The value slice at (b, h, s, j). -/
theorem v16_at (b : Fin 4) (h : Fin 16) (s : Fin 2048) (j : Fin 64) :
    val_main_v16 (F := Ideal) x0 x1 x2 x3 x4 (ix4 b h s j)
      = val_main_v8 (F := Ideal) x0 x1 x2 x3 x4 (ix3 b s (Cert.Spec.col3 2 (Cert.Spec.hcol h j))) := by
  rw [val_main_v16_apply, val_main_v15_apply, idx_v16_ix, idx_v15_ix, v10_at]

end Cert.RefValue

end
-- ==== Proof.RefAttn.lean ====
import proofs.«166784_j42649025249604_2_alg».proof.Proof.RefQkv

noncomputable section

namespace Cert.RefValue

open Cert.ReferenceIdeal Cert.ReferenceIdeal.Gen Cert.ReferenceIdeal.Read Idealize.ShloMosaic Idealize.ShloMosaic.ValueIdx Idealize.ShloMosaic.StableHlo

variable (x0 : (⟨S4x2048x1024, .f32⟩ : BufTy).Contents (Elt Ideal)) (x1 : (⟨S8x1024, .f32⟩ : BufTy).Contents (Elt Ideal))
  (x2 : (⟨S3072x8, .f32⟩ : BufTy).Contents (Elt Ideal)) (x3 : (⟨S3072x1024, .f32⟩ : BufTy).Contents (Elt Ideal))
  (x4 : (⟨S3072, .f32⟩ : BufTy).Contents (Elt Ideal))

/-- The projected array, position by position. -/
def qv (b : Fin 4) (s : Fin 2048) (e : Fin 3072) : EReal := val_main_v8 (F := Ideal) x0 x1 x2 x3 x4 (ix3 b s e)

/-- The query row of position (b, s); the key rows and the value rows of batch b. -/
abbrev Qr (b : Fin 4) (s : Fin 2048) : Fin 1024 → EReal := fun c => qv x0 x1 x2 x3 x4 b s (Cert.Spec.col3 0 c)
abbrev Kr (b : Fin 4) : Fin 2048 → Fin 1024 → EReal := fun k c => qv x0 x1 x2 x3 x4 b k (Cert.Spec.col3 1 c)
abbrev Vr (b : Fin 4) : Fin 2048 → Fin 1024 → EReal := fun k c => qv x0 x1 x2 x3 x4 b k (Cert.Spec.col3 2 c)

/-! ## The scores -/

theorem lidx_v17_ix (b : Fin 4) (h : Fin 16) (s k : Fin 2048) (j : Fin 64) :
    lidx_main_v17 (ix4 b h s k) j = ix4 b h s j :=
  funext fun a => Fin.ext (by match a with | ⟨0, _⟩ => rfl | ⟨1, _⟩ => rfl | ⟨2, _⟩ => rfl | ⟨3, _⟩ => rfl)

theorem ridx_v17_ix (b : Fin 4) (h : Fin 16) (s k : Fin 2048) (j : Fin 64) :
    ridx_main_v17 (ix4 b h s k) j = ix4 b h k j :=
  funext fun a => Fin.ext (by match a with | ⟨0, _⟩ => rfl | ⟨1, _⟩ => rfl | ⟨2, _⟩ => rfl | ⟨3, _⟩ => rfl)

theorem v19_at (b : Fin 4) (h : Fin 16) (s k : Fin 2048) :
    val_main_v19 (F := Ideal) x0 x1 x2 x3 x4 (ix4 b h s k) = Cert.Spec.score (Qr x0 x1 x2 x3 x4 b s) (Kr x0 x1 x2 x3 x4 b) h k := by
  rw [val_main_v19_apply, val_main_v17_apply, val_main_v18_apply, val_main_cst_0_apply]
  show (∑ j : Fin 64, _) * Cert.Spec.c8 = (∑ j : Fin 64, _) * Cert.Spec.c8
  refine congrArg (· * Cert.Spec.c8) (Finset.sum_congr rfl fun j _ => ?_)
  rw [lidx_v17_ix, ridx_v17_ix, v12_at, v14_at]
  rfl

/-! ## The row maximum -/

theorem lift_v20_ix (hr : S4x16x2048x2048.Reduces [3] S4x16x2048) (b : Fin 4) (h : Fin 16) (s : Fin 2048)
    (k : Fin (S4x16x2048x2048.size 3)) : hr.lift (ix3 b h s) k = ix4 b h s (⟨k.val, k.isLt⟩ : Fin 2048) := by
  funext c; apply Fin.ext
  fin_cases c <;> rfl

theorem v20_at (b : Fin 4) (h : Fin 16) (s : Fin 2048) :
    val_main_v20 (F := Ideal) x0 x1 x2 x3 x4 (ix3 b h s)
      = (Finset.univ : Finset (Fin 2048)).fold max Cert.Spec.ninf (fun k => val_main_v19 (F := Ideal) x0 x1 x2 x3 x4 (ix4 b h s k)) := by
  unfold val_main_v20
  have hr : S4x16x2048x2048.Reduces [3] S4x16x2048 := by decide
  rw [Host.reduce_eq_fold_single FloatOps.maximumf _ _ reducesTo_S4x16x2048x2048_S4x16x2048_d3 hr h_S_]
  have hf : (val_main_v19 (F := Ideal) x0 x1 x2 x3 x4 ∘ hr.lift (ix3 b h s))
      = fun k : Fin 2048 => val_main_v19 (F := Ideal) x0 x1 x2 x3 x4 (ix4 b h s k) :=
    funext fun k => congrArg (val_main_v19 (F := Ideal) x0 x1 x2 x3 x4) (lift_v20_ix hr b h s k)
  rw [hf]
  rfl

theorem v22_at (b : Fin 4) (h : Fin 16) (s : Fin 2048) :
    val_main_v22 (F := Ideal) x0 x1 x2 x3 x4 (ix3 b h s) = Cert.Spec.rowMax (Qr x0 x1 x2 x3 x4 b s) (Kr x0 x1 x2 x3 x4 b) h := by
  rw [val_main_v22_apply, val_main_v21_apply, val_main_cst_2_apply, v20_at]
  have hb : ∀ y : EReal, max (Ideal.ofBits .f32 0xFF800000#32) y = y := fun y => by simp [Ideal.ofBits, Ideal.ieee]
  refine (hb _).trans ?_
  unfold Cert.Spec.rowMax
  exact congrArg (fun f => Finset.fold max Cert.Spec.ninf f (Finset.univ : Finset (Fin 2048)))
    (funext fun k => v19_at x0 x1 x2 x3 x4 b h s k)

/-! ## The exponentials, their sum, the quotient -/

theorem v24_at (b : Fin 4) (h : Fin 16) (s k : Fin 2048) :
    val_main_v24 (F := Ideal) x0 x1 x2 x3 x4 (ix4 b h s k) = val_main_v22 (F := Ideal) x0 x1 x2 x3 x4 (ix3 b h s) := by
  rw [val_main_v24_apply, val_main_v23_apply]
  exact congrArg _ (funext fun a => Fin.ext (by match a with | ⟨0, _⟩ => rfl | ⟨1, _⟩ => rfl | ⟨2, _⟩ => rfl))

theorem v26_at (b : Fin 4) (h : Fin 16) (s k : Fin 2048) :
    val_main_v26 (F := Ideal) x0 x1 x2 x3 x4 (ix4 b h s k) = Cert.Spec.expo (Qr x0 x1 x2 x3 x4 b s) (Kr x0 x1 x2 x3 x4 b) h k := by
  rw [val_main_v26_apply, val_main_v25_apply, v24_at, v22_at, v19_at]
  rfl

theorem idx_v27_ix (b : Fin 4) (h : Fin 16) (s k : Fin 2048) :
    idx_main_v27 (ix3 b h s) k = ix4 b h s k :=
  funext fun a => Fin.ext (by match a with | ⟨0, _⟩ => rfl | ⟨1, _⟩ => rfl | ⟨2, _⟩ => rfl | ⟨3, _⟩ => rfl)

theorem v27_at (b : Fin 4) (h : Fin 16) (s : Fin 2048) :
    val_main_v27 (F := Ideal) x0 x1 x2 x3 x4 (ix3 b h s) = Cert.Spec.denom (Qr x0 x1 x2 x3 x4 b s) (Kr x0 x1 x2 x3 x4 b) h := by
  rw [val_main_v27_apply, val_main_cst_3_apply]
  show Ideal.ofBits .f32 0x00000000#32 + _ = _
  rw [Ideal.ofBits_zero_f32, zero_add]
  unfold Cert.Spec.denom
  refine Finset.sum_congr rfl fun k _ => ?_
  rw [idx_v27_ix, v26_at]

theorem v29_at (b : Fin 4) (h : Fin 16) (s k : Fin 2048) :
    val_main_v29 (F := Ideal) x0 x1 x2 x3 x4 (ix4 b h s k) = val_main_v27 (F := Ideal) x0 x1 x2 x3 x4 (ix3 b h s) := by
  rw [val_main_v29_apply, val_main_v28_apply]
  exact congrArg _ (funext fun a => Fin.ext (by match a with | ⟨0, _⟩ => rfl | ⟨1, _⟩ => rfl | ⟨2, _⟩ => rfl))

theorem v30_at (b : Fin 4) (h : Fin 16) (s k : Fin 2048) :
    val_main_v30 (F := Ideal) x0 x1 x2 x3 x4 (ix4 b h s k) = Cert.Spec.prob (Qr x0 x1 x2 x3 x4 b s) (Kr x0 x1 x2 x3 x4 b) h k := by
  rw [val_main_v30_apply, v26_at, v29_at, v27_at]
  rfl

/-! ## The weighted sum of the values, the heads side by side -/

theorem lidx_v31_ix (b : Fin 4) (h : Fin 16) (s : Fin 2048) (j : Fin 64) (k : Fin 2048) :
    lidx_main_v31 (ix4 b h s j) k = ix4 b h s k :=
  funext fun a => Fin.ext (by match a with | ⟨0, _⟩ => rfl | ⟨1, _⟩ => rfl | ⟨2, _⟩ => rfl | ⟨3, _⟩ => rfl)

theorem ridx_v31_ix (b : Fin 4) (h : Fin 16) (s : Fin 2048) (j : Fin 64) (k : Fin 2048) :
    ridx_main_v31 (ix4 b h s j) k = ix4 b h k j :=
  funext fun a => Fin.ext (by match a with | ⟨0, _⟩ => rfl | ⟨1, _⟩ => rfl | ⟨2, _⟩ => rfl | ⟨3, _⟩ => rfl)

theorem v31_at (b : Fin 4) (h : Fin 16) (s : Fin 2048) (j : Fin 64) :
    val_main_v31 (F := Ideal) x0 x1 x2 x3 x4 (ix4 b h s j) = Cert.Spec.ctx (Qr x0 x1 x2 x3 x4 b s) (Kr x0 x1 x2 x3 x4 b) (Vr x0 x1 x2 x3 x4 b) h j := by
  rw [val_main_v31_apply]
  unfold Cert.Spec.ctx
  refine Finset.sum_congr rfl fun k _ => ?_
  rw [lidx_v31_ix, ridx_v31_ix, v30_at, v16_at]
  rfl

theorem idx_v32_v33_ix (b : Fin 4) (s : Fin 2048) (d : Fin 1024) :
    idx_main_v32 (idx_main_v33 (ix3 b s d))
      = ix4 b (⟨d.val / 64, by omega⟩ : Fin 16) s (⟨d.val % 64, by omega⟩ : Fin 64) := by
  funext a; apply Fin.ext
  have hb := b.isLt; have hs := s.isLt; have hd := d.isLt
  match a with
  | ⟨0, _⟩ => show ((b.val * 2048 + s.val) * 1024 + d.val) / 2097152 = b.val; omega
  | ⟨1, _⟩ => show ((b.val * 2048 + s.val) * 1024 + d.val) / 64 % 16 = d.val / 64; omega
  | ⟨2, _⟩ => show ((b.val * 2048 + s.val) * 1024 + d.val) / 1024 % 2048 = s.val; omega
  | ⟨3, _⟩ => show ((b.val * 2048 + s.val) * 1024 + d.val) % 64 = d.val % 64; omega

theorem v33_at (b : Fin 4) (s : Fin 2048) (d : Fin 1024) :
    val_main_v33 (F := Ideal) x0 x1 x2 x3 x4 (ix3 b s d) = Cert.Spec.ctxCat (Qr x0 x1 x2 x3 x4 b s) (Kr x0 x1 x2 x3 x4 b) (Vr x0 x1 x2 x3 x4 b) d := by
  rw [val_main_v33_apply, val_main_v32_apply, idx_v32_v33_ix, v31_at]
  rfl

end Cert.RefValue

end
-- ==== Proof.RefValue.lean ====
import proofs.«166784_j42649025249604_2_alg».proof.Proof.RefAttn

noncomputable section

namespace Cert.RefValue

open Cert.ReferenceIdeal Cert.ReferenceIdeal.Gen Cert.ReferenceIdeal.Read Idealize.ShloMosaic Idealize.ShloMosaic.ValueIdx Idealize.ShloMosaic.StableHlo

variable (x0 : (⟨S4x2048x1024, .f32⟩ : BufTy).Contents (Elt Ideal)) (x1 : (⟨S8x1024, .f32⟩ : BufTy).Contents (Elt Ideal))
  (x2 : (⟨S3072x8, .f32⟩ : BufTy).Contents (Elt Ideal)) (x3 : (⟨S3072x1024, .f32⟩ : BufTy).Contents (Elt Ideal))
  (x4 : (⟨S3072, .f32⟩ : BufTy).Contents (Elt Ideal))
  (x5 : (⟨S1024x1024, .f32⟩ : BufTy).Contents (Elt Ideal)) (x6 : (⟨S1024, .f32⟩ : BufTy).Contents (Elt Ideal))

/-! ## The output projection and its bias -/

theorem lidx_v34_ix (b : Fin 4) (s : Fin 2048) (e k : Fin 1024) :
    lidx_main_v34 (ix3 b s e) k = ix3 b s k :=
  funext fun a => Fin.ext (by match a with | ⟨0, _⟩ => rfl | ⟨1, _⟩ => rfl | ⟨2, _⟩ => rfl)

theorem ridx_v34_ix (b : Fin 4) (s : Fin 2048) (e k : Fin 1024) :
    ridx_main_v34 (ix3 b s e) k = ix2 e k :=
  funext fun a => Fin.ext (by match a with | ⟨0, _⟩ => rfl | ⟨1, _⟩ => rfl)

theorem v34_at (b : Fin 4) (s : Fin 2048) (e : Fin 1024) :
    val_main_v34 (F := Ideal) x0 x1 x2 x3 x4 x5 (ix3 b s e)
      = ∑ d : Fin 1024, Cert.Spec.ctxCat (Qr x0 x1 x2 x3 x4 b s) (Kr x0 x1 x2 x3 x4 b) (Vr x0 x1 x2 x3 x4 b) d * x5 (ix2 e d) := by
  rw [val_main_v34_apply]
  refine Finset.sum_congr rfl fun k _ => ?_
  rw [lidx_v34_ix, ridx_v34_ix, v33_at]

theorem v36_at (b : Fin 4) (s : Fin 2048) (e : Fin 1024) :
    val_main_v36 (F := Ideal) x6 (ix3 b s e) = x6 (ix1 e) := by
  rw [val_main_v36_apply, val_main_v35_apply]
  exact congrArg x6 (funext fun a => Fin.ext (by match a with | ⟨0, _⟩ => rfl))

/-- The reference's result at (b, s, e): the attention row of position (b, s) against batch b, projected. -/
theorem v37_at (b : Fin 4) (s : Fin 2048) (e : Fin 1024) :
    val_main_v37 (F := Ideal) x0 x1 x2 x3 x4 x5 x6 (ix3 b s e)
      = Cert.Spec.attnRow (Qr x0 x1 x2 x3 x4 b s) (Kr x0 x1 x2 x3 x4 b) (Vr x0 x1 x2 x3 x4 b) (fun d e => x5 (ix2 e d)) (fun e => x6 (ix1 e)) e := by
  rw [val_main_v37_apply, v34_at, v36_at]
  rfl

/-- The projected array is the split form of the projection, position by position. -/
theorem qv_eq : qv x0 x1 x2 x3 x4 = fun b s e => Cert.Spec.qkvSplit x0 x1 x2 x3 x4 b s e :=
  funext fun b => funext fun s => funext fun e => v8_at x0 x1 x2 x3 x4 b s e

/-- The reference computes the specification's result from the split projection. -/
theorem ref_eq
    (x0 : (⟨S4x2048x1024, .f32⟩ : BufTy).Contents (Elt Ideal)) (x1 : (⟨S8x1024, .f32⟩ : BufTy).Contents (Elt Ideal))
    (x2 : (⟨S3072x8, .f32⟩ : BufTy).Contents (Elt Ideal)) (x3 : (⟨S3072x1024, .f32⟩ : BufTy).Contents (Elt Ideal))
    (x4 : (⟨S3072, .f32⟩ : BufTy).Contents (Elt Ideal)) (x5 : (⟨S1024x1024, .f32⟩ : BufTy).Contents (Elt Ideal))
    (x6 : (⟨S1024, .f32⟩ : BufTy).Contents (Elt Ideal)) :
    Cert.ReferenceIdeal.Read.val_main_v37 (F := Ideal) x0 x1 x2 x3 x4 x5 x6
      = Cert.Spec.result (fun b s e => Cert.Spec.qkvSplit x0 x1 x2 x3 x4 b s e) x5 x6 := by
  funext i
  obtain ⟨b, s, e, rfl⟩ : ∃ (b : Fin 4) (s : Fin 2048) (e : Fin 1024), i = ix3 b s e := ⟨i 0, i 1, i 2, eq_ix3 i⟩
  rw [v37_at, ← qv_eq]
  rfl

end Cert.RefValue

end
-- ==== Proof.FoldLaw.lean ====
/-
  The law joining the two forms of the projection. Over the real numbers

      Σ_d x_d · (W_ed + c · Σ_r B_er · A_rd) + β  =  (Σ_d x_d · W_ed + β) + (Σ_r (Σ_d x_d · A_rd) · B_er) · c

  by distributivity and an exchange of the two finite sums. In the extended reals the products and sums of
  real numbers are the real products and sums, so the same identity holds there as soon as every entry (and
  the scale c) is a real number.
-/
import proofs.«166784_j42649025249604_2_alg».proof.Proof.Spec
import Mathlib.Algebra.BigOperators.Ring.Finset

noncomputable section

namespace Cert.FoldLaw

open Idealize.ShloMosaic Idealize.ShloMosaic.ValueIdx

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals, for any finite index types. -/
theorem real_law {D R : Type*} [Fintype D] [Fintype R] (x w : D → ℝ) (a : R → D → ℝ) (bb : R → ℝ) (c β : ℝ) :
    (∑ d, x d * (w d + c * ∑ r, bb r * a r d)) + β
      = ((∑ d, x d * w d) + β) + (∑ r, (∑ d, x d * a r d) * bb r) * c := by
  have h : ∑ d, ∑ r, x d * (c * (bb r * a r d)) = ∑ r, ∑ d, x d * a r d * bb r * c := by
    rw [Finset.sum_comm]
    exact Finset.sum_congr rfl fun r _ => Finset.sum_congr rfl fun d _ => by ring
  simp only [mul_add, Finset.mul_sum, Finset.sum_mul, Finset.sum_add_distrib]
  rw [h]; ring

/-- The scale is the real number 1/8. -/
theorem c8_eq : Spec.c8 = ((1 / 8 : ℝ) : EReal) := by
  simp [Spec.c8, Ideal.ofBits, Ideal.ieee]
  rw [← EReal.coe_mul]
  congr 1
  norm_num

/-- The two forms of the projection agree when every entry is a real number. -/
theorem qkv_eq (x : Spec.Arr3 4 2048 1024) (A : Spec.Arr2 8 1024) (B : Spec.Arr2 3072 8) (W : Spec.Arr2 3072 1024)
    (bq : Spec.Arr1 3072)
    (hx : ∀ i, ∃ r : ℝ, x i = (r : EReal)) (hA : ∀ i, ∃ r : ℝ, A i = (r : EReal))
    (hB : ∀ i, ∃ r : ℝ, B i = (r : EReal)) (hW : ∀ i, ∃ r : ℝ, W i = (r : EReal))
    (hbq : ∀ i, ∃ r : ℝ, bq i = (r : EReal)) (b : Fin 4) (s : Fin 2048) (e : Fin 3072) :
    Spec.qkvFold x A B W bq b s e = Spec.qkvSplit x A B W bq b s e := by
  choose fx hx using hx
  choose fA hA using hA
  choose fB hB using hB
  choose fW hW using hW
  choose fbq hbq using hbq
  unfold Spec.qkvFold Spec.qkvSplit Spec.weff
  simp only [hx, hA, hB, hW, hbq, c8_eq]
  simp only [← EReal.coe_mul, ← EReal.coe_add, ← coe_sum]
  exact congrArg (fun t : ℝ => (t : EReal))
    (real_law (fun d => fx (ix3 b s d)) (fun d => fW (ix2 e d)) (fun r d => fA (ix2 r d)) (fun r => fB (ix2 e r))
      (1 / 8) (fbq (ix1 e)))

end Cert.FoldLaw

end
-- ==== Proof.Finite.lean ====
/-
  Finiteness out of the precondition. The precondition is the conjunction of seven tests "every entry of the array
  has absolute value below +∞". An extended real x with max x (-x) < ⊤ is neither ⊤ nor ⊥, so it is a real number;
  a conjunction over all indices that holds gives the test at each index.
-/
import proofs.«166784_j42649025249604_2_alg».proof.Pre_finite_inputs
import Idealize.ShloMosaic.PureOps.Ideal
import Idealize.ShloMosaic.Lib.ValueIdx
import Idealize.ShloMosaic.Lib.ReduceAll

noncomputable section

namespace Cert.FoldLaw

open Idealize.ShloMosaic Cert.Pre_finite_inputs

/-- The rank-0 shape has one index. -/
instance : Subsingleton S_.Idx := ⟨fun a b => funext fun d => d.elim0⟩

/-- The f32 word 0x7F800000 is +∞. -/
theorem ofBits_pinf : Ideal.ofBits .f32 0x7F800000#32 = ⊤ := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [ofBits_pinf] at h
  induction x using EReal.rec with
  | bot => simp [Ideal.cmp] at h
  | coe r => exact ⟨r, rfl⟩
  | top => simp [Ideal.cmp] at h

/-- One entry's test. -/
theorem elt_real {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    ∃ r : ℝ, a i = (r : EReal) :=
  real_of_abs_lt (a i) h

/-- One array's test: the conjunction over all its indices. -/
theorem all_real {s : Shape} {axes : List (Fin s.rank)} (a : FVec Ideal s .f32)
    (hb : S_.BroadcastsInDim s (![] : Fin 0 → Fin s.rank)) (hr : s.ReducesTo axes S_) (hu : 0 < S_.numel) (init : IVec S_ 1)
    (h : Host.reduce IntOp.andi (cmpf .olt (Host.absf a) (broadcastInDim s ![] hb (constant S_ .f32 0x7F800000#32)))
      init hr hu ValueIdx.ix0 = 1#1) (i : s.Idx) : ∃ r : ℝ, a i = (r : EReal) :=
  elt_real a hb i (Host.reduce_andi_all _ init hr hu _ h i)

/-- Under the precondition every entry of every input is a real number. -/
theorem finite_of_pre [Cert.Pre_finite_inputs.Facts] (a0 : FVec Ideal S4x2048x1024 .f32) (a1 : FVec Ideal S8x1024 .f32)
    (a2 : FVec Ideal S3072x8 .f32) (a3 : FVec Ideal S3072x1024 .f32) (a4 : FVec Ideal S3072 .f32)
    (a5 : FVec Ideal S1024x1024 .f32) (a6 : FVec Ideal S1024 .f32)
    (h : Cert.Pre_finite_inputs.fn (F := Ideal) a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have e := congrFun h ValueIdx.ix0
  dsimp only [Cert.Pre_finite_inputs.fn, Cert.Pre_finite_inputs.fn_part1, andi] at e
  simp only [IntOp.andi_eq_one] at e
  obtain ⟨⟨⟨⟨⟨⟨e0, e1⟩, e2⟩, e3⟩, e4⟩, e5⟩, e6⟩ := e
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6⟩

end Cert.FoldLaw

end
-- ==== Proof.Bridge.lean ====
/-
  The bridge between the two programs' values. The reference computes the specification's result from the
  split form of the projection; the kernels compute it from the folded form. Under the precondition every input
  entry is a real number, so the two forms of the projection agree position by position, and with them the two
  results.
-/
import proofs.«166784_j42649025249604_2_alg».proof.Defs
import proofs.«166784_j42649025249604_2_alg».proof.Proof.RefValue
import proofs.«166784_j42649025249604_2_alg».proof.Proof.FoldLaw
import proofs.«166784_j42649025249604_2_alg».proof.Proof.Finite

noncomputable section

namespace Cert.Bridge

open Idealize.ShloMosaic Idealize.SL.Sem

/-- Under the precondition, the specification's result from the folded projection is the reference's value. -/
theorem result_eq [Cert.Pre_finite_inputs.Facts]
    (a0 : Spec.Arr3 4 2048 1024) (a1 : Spec.Arr2 8 1024) (a2 : Spec.Arr2 3072 8) (a3 : Spec.Arr2 3072 1024)
    (a4 : Spec.Arr1 3072) (a5 : Spec.Arr2 1024 1024) (a6 : Spec.Arr1 1024)
    (h : Cert.Pre_finite_inputs.fn (F := Ideal) a0 a1 a2 a3 a4 a5 a6 = (fun _ => 1#1)) :
    Cert.Spec.result (fun b s e => Cert.Spec.qkvFold a0 a1 a2 a3 a4 b s e) a5 a6
      = Cert.ReferenceIdeal.Read.val_main_v37 (F := Ideal) a0 a1 a2 a3 a4 a5 a6 := by
  obtain ⟨h0, h1, h2, h3, h4, _, _⟩ := Cert.FoldLaw.finite_of_pre a0 a1 a2 a3 a4 a5 a6 h
  rw [Cert.RefValue.ref_eq]
  refine congrArg (fun q => Cert.Spec.result q a5 a6) ?_
  funext b s e
  exact Cert.FoldLaw.qkv_eq a0 a1 a2 a3 a4 h0 h1 h2 h3 h4 b s e

/-- The same at the argument arrays of a memory of the kernels' program that satisfies its precondition. -/
theorem result_eq_mem [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.result (fun b s e => Cert.Spec.qkvFold (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) b s e) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = Cert.ReferenceIdeal.Read.val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
  result_eq _ _ _ _ _ _ _ (hpre c)

end Cert.Bridge

end
-- ==== Proof.KValue.lean ====
/-
  The kernel program's whole value with nothing left to assume, and its equality with the reference's value under
  the precondition. The result buffer at the end of the run is the specification's result of the FOLDED projection
  of the launch arguments: the two bodies' arithmetic, the two regions' blocks, and the host operations, put
  together. Under the precondition every input entry is a real number, the folded and the split projection agree,
  and the specification's result of the split projection is what the reference computes.
-/
import proofs.«166784_j42649025249604_2_alg».proof.Proof.KAll
import proofs.«166784_j42649025249604_2_alg».proof.Proof.KArr1
import proofs.«166784_j42649025249604_2_alg».proof.Proof.KHost
import proofs.«166784_j42649025249604_2_alg».proof.Proof.KBody0
import proofs.«166784_j42649025249604_2_alg».proof.Proof.KBody1
import proofs.«166784_j42649025249604_2_alg».proof.Proof.Bridge

noncomputable section

namespace Cert.KValueAll

open Cert.KernelIdeal Cert.KernelIdeal.Hand
open Idealize.ShloMosaic Idealize.SL.Sem

/-- The first body's arithmetic at an index. -/
theorem pay : Cert.KArr.Pay := Cert.KValue.pay0_apply

/-- The host operations read at an index. -/
theorem hostReads : Cert.KAll.HostReads :=
  ⟨fun W => Cert.KHost.v8_apply W, fun W => Cert.KHost.v5_apply W, fun W => Cert.KHost.v9_apply W,
   fun W => Cert.KHost.v7_apply W, fun W => Cert.KHost.v11_apply W, fun W => Cert.KHost.v12_apply W⟩

/-- The second region's array after its run. -/
theorem final1 : Cert.KAll.Final1 := fun V c => Cert.KArr.final1 V Cert.KValue.body1_apply c

/-- THE KERNEL PROGRAM'S VALUE: the result buffer ends at the specification's result of the folded projection of
    the launch arguments. -/
theorem kernel_value (m : (ℓ : Loc nD τ sig) → Buf (Elt Ideal) ℓ) (c : Dev nD) :
    (W4 m c (Proc.devRef .tc main_v13) : S4x2048x1024.Idx → EReal)
      = Cert.Spec.result (fun b s e => Cert.Spec.qkvFold (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) b s e) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
  Cert.KAll.kernel_value m pay final1 hostReads c

/-- Under the precondition the result buffer ends at the reference's value of the launch arguments. -/
theorem kernel_eq_ref [Cert.Pre_finite_inputs.Facts] (m : (ℓ : Loc nD τ sig) → Buf (Elt Ideal) ℓ)
    (hpre : Cert.Pre_KernelIdeal m) (c : Dev nD) :
    (W4 m c (Proc.devRef .tc main_v13) : S4x2048x1024.Idx → EReal)
      = Cert.ReferenceIdeal.Read.val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
  (kernel_value m c).trans (Cert.Bridge.result_eq_mem m hpre c)

end Cert.KValueAll

end
-- ==== Proof.lean ====
/-
  The certificate's claims assembled.

  The kernel program folds the rank-8 adapter into the projection weights on the host, projects 512-row blocks
  in a first kernel, and in a second kernel runs sixteen-head attention of each 256-row query block against its
  batch's keys and values followed by the output projection. The reference projects with the adapter as a
  separate low-rank branch and runs the same attention with batched products.

  * The three frames: each program's run (the two kernel programs' through their two regions, the reference's
    straight-line host run) terminates without fault and leaves every argument as launched.
  * The idealization rewrote nothing, so its soundness claim is trivial.
  * At the extended reals both programs end at one array: the second region's folded write-backs are, index by
    index, attention of the folded projection; the reference's last operation is attention of the split
    projection; the two projections agree where every input entry is a real number, which the precondition says.
-/
import proofs.«166784_j42649025249604_2_alg».proof.Defs
import proofs.«166784_j42649025249604_2_alg».proof.Proof.Gen.Kernel
import proofs.«166784_j42649025249604_2_alg».proof.Proof.Gen.KernelIdeal
import proofs.«166784_j42649025249604_2_alg».proof.Proof.Gen.ReferenceIdeal
import proofs.«166784_j42649025249604_2_alg».proof.Proof.Gen.Pre_finite_inputs
import proofs.«166784_j42649025249604_2_alg».proof.Proof.Gen.ReferenceIdeal.Run
import proofs.«166784_j42649025249604_2_alg».proof.Proof.Gen.ReferenceIdeal.Read
import proofs.«166784_j42649025249604_2_alg».proof.Proof.FrameRun2
import proofs.«166784_j42649025249604_2_alg».proof.Proof.FrameRun2B
import proofs.«166784_j42649025249604_2_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, run from memories that agree on the arguments, end with the result buffers equal:
    the kernel program's at the second region's folded write-backs, which is the reference's last stage at the
    kernel program's arguments (`kernel_eq_ref`), hence at the reference's. -/
theorem algebraic : Cert.algebraic_KernelIdeal_ReferenceIdeal := by
  intro m ρ m' ρ' hpre hagree
  refine ⟨fun c => (Cert.KernelIdeal.Hand.dat1 (Cert.KernelIdeal.Hand.V3 m) c).arrAt 5 Cert.KernelIdeal.cfg1.N,
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2.1, (hagree c).2.2.2.1,
    (hagree c).2.2.2.2.1, (hagree c).2.2.2.2.2.1, (hagree c).2.2.2.2.2.2]
  exact ((Cert.KernelIdeal.Hand.W4_out m c).symm.trans (Cert.KValueAll.kernel_eq_ref m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
